-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x16 : Shape := ⟨2, ![1600000, 16]⟩
abbrev S16x32 : Shape := ⟨2, ![16, 32]⟩
abbrev S32 : Shape := ⟨1, ![32]⟩
abbrev S32x1 : Shape := ⟨2, ![32, 1]⟩
abbrev S1 : Shape := ⟨1, ![1]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S64 .f32) (main_arg9 : FVec F S64x16 .f32) (main_arg10 : FVec F S16 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x16 .f32 := Host.absf main_arg9
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg5 : FVec F S32x1 .f32) (main_arg6 : FVec F S1 .f32) (main_arg7 : FVec F S128x64 .f32) (main_arg8 : FVec F S64 .f32) (main_arg9 : FVec F S64x16 .f32) (main_arg10 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x1 .f32 := Host.absf main_arg5
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S1600000x16 .f32) (main_arg3 : FVec F S16x32 .f32) (main_arg4 : FVec F S32 .f32) (main_arg5 : FVec F S32x1 .f32) (main_arg6 : FVec F S1 .f32) (main_arg7 : FVec F S128x64 .f32) (main_arg8 : FVec F S64 .f32) (main_arg9 : FVec F S64x16 .f32) (main_arg10 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S16x32 .f32 := Host.absf main_arg3
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000x16 : Shape := ⟨2, ![1600000, 16]⟩
abbrev S16x32 : Shape := ⟨2, ![16, 32]⟩
abbrev S32 : Shape := ⟨1, ![32]⟩
abbrev S32x1 : Shape := ⟨2, ![32, 1]⟩
abbrev S1 : Shape := ⟨1, ![1]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x32 : Shape := ⟨2, ![1, 32]⟩
abbrev S1x1 : Shape := ⟨2, ![1, 1]⟩
abbrev S1600000x1 : Shape := ⟨2, ![1600000, 1]⟩
abbrev S16000x16 : Shape := ⟨2, ![16000, 16]⟩
abbrev S16000x1 : Shape := ⟨2, ![16000, 1]⟩
abbrev S16000x32 : Shape := ⟨2, ![16000, 32]⟩
abbrev S1600000 : Shape := ⟨1, ![1600000]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S10000x1 : Shape := ⟨2, ![10000, 1]⟩
abbrev S1x64 : Shape := ⟨2, ![1, 64]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩
abbrev S10000 : Shape := ⟨1, ![10000]⟩

abbrev nBuf : Space → Nat
  | .hbm => 92
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x16, .f32⟩
  | .hbm, ⟨3, _⟩ => ⟨S16x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S128x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S1x32, .f32⟩
  | .hbm, ⟨12, _⟩ => ⟨S1x1, .f32⟩
  | .hbm, ⟨13, _⟩ => ⟨S1600000x1, .f32⟩
  | .hbm, ⟨14, _⟩ => ⟨S1600000, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S100000, .i32⟩
  | .hbm, ⟨20, _⟩ => ⟨S1700000, .i32⟩
  | .hbm, ⟨21, _⟩ => ⟨S1700000, .i32⟩
  | .hbm, ⟨22, _⟩ => ⟨S_, .f32⟩
  | .hbm, ⟨23, _⟩ => ⟨S100000, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000, .f32⟩
  | .hbm, ⟨56, _⟩ => ⟨S1700000, .f32⟩
  | .hbm, ⟨57, _⟩ => ⟨S1700000x1, .f32⟩
  | .hbm, ⟨58, _⟩ => ⟨S100000x64, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x64, .f32⟩
  | .hbm, ⟨68, _⟩ => ⟨S1700000x64, .f32⟩
  | .hbm, ⟨69, _⟩ => ⟨S_, .f32⟩
  | .hbm, ⟨70, _⟩ => ⟨S100000x64, .f32⟩
  | .hbm, ⟨71, _⟩ => ⟨S1700000x1, .i32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x16, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x16, .f32⟩
  | .hbm, ⟨85, _⟩ => ⟨S1700000x16, .f32⟩
  | .hbm, ⟨86, _⟩ => ⟨S_, .f32⟩
  | .hbm, ⟨87, _⟩ => ⟨S100000x16, .f32⟩
  | .hbm, ⟨88, _⟩ => ⟨S1700000x1, .i32⟩
  | .hbm, ⟨89, _⟩ => ⟨S100000x16, .f32⟩
  | .hbm, ⟨90, _⟩ => ⟨S1x16, .f32⟩
  | .hbm, ⟨91, _⟩ => ⟨S100000x16, .f32⟩
  | .local _ .vmem, ⟨0, _⟩ => ⟨S16000x16, .f32⟩
  | .local _ .vmem, ⟨1, _⟩ => ⟨S16000x16, .f32⟩
  | .local _ .vmem, ⟨2, _⟩ => ⟨S16x32, .f32⟩
  | .local _ .vmem, ⟨3, _⟩ => ⟨S1x32, .f32⟩
  | .local _ .vmem, ⟨4, _⟩ => ⟨S32x1, .f32⟩
  | .local _ .vmem, ⟨5, _⟩ => ⟨S1x1, .f32⟩
  | .local _ .vmem, ⟨6, _⟩ => ⟨S16000x1, .f32⟩
  | .local _ .vmem, ⟨7, _⟩ => ⟨S16000x1, .f32⟩
  | .local _ .vmem, ⟨8, _⟩ => ⟨S10000x128, .f32⟩
  | .local _ .vmem, ⟨9, _⟩ => ⟨S10000x128, .f32⟩
  | .local _ .vmem, ⟨10, _⟩ => ⟨S128x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x1, .f32⟩
  | .local _ .vmem, ⟨16, _⟩ => ⟨S10000x1, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x16, .f32⟩
  | .local _ .vmem, ⟨27, _⟩ => ⟨S10000x16, .f32⟩
  | .local _ .vmem, ⟨28, _⟩ => ⟨S10000x16, .f32⟩
  | .local _ .vmem, ⟨29, _⟩ => ⟨S10000x16, .f32⟩
  | .local _ .vmem, ⟨30, _⟩ => ⟨S10000x16, .f32⟩
  | .local _ .vmem, ⟨31, _⟩ => ⟨S10000x1, .f32⟩
  | .local _ .vmem, ⟨32, _⟩ => ⟨S10000x1, .f32⟩
  | .local _ .vmem, ⟨33, _⟩ => ⟨S10000x16, .f32⟩
  | .local _ .vmem, ⟨34, _⟩ => ⟨S10000x16, .f32⟩
  | .local _ .vmem, ⟨35, _⟩ => ⟨S10000x16, .f32⟩
  | .local _ .vmem, ⟨36, _⟩ => ⟨S10000x16, .f32⟩
  | .local _ .vmem, ⟨37, _⟩ => ⟨S1x16, .f32⟩
  | .local _ .vmem, ⟨38, _⟩ => ⟨S10000x16, .f32⟩
  | .local _ .vmem, ⟨39, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem2_1 : DmaSem sig := 39

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![170], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![170], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  shapeCasts_S32_S1x32 : S32.ShapeCasts S1x32
  shapeCasts_S1_S1x1 : S1.ShapeCasts S1x1
  inb_S16000x16_S16000x16_0_0 : ∀ a, (![0, 0] : Fin 2 → Nat) a + S16000x16.size a ≤ S16000x16.size a
  h_S16000x16 : 0 < S16000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16000x32 : S1x32.Broadcasts S16000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16000x1 : S1x1.Broadcasts S16000x1
  inb_S16000x1_S16000x1_0_0 : ∀ a, (![0, 0] : Fin 2 → Nat) a + S16000x1.size a ≤ S16000x1.size a
  h_S16000x1 : 0 < S16000x1.numel
  shapeCasts_S1600000x1_S1600000 : S1600000x1.ShapeCasts S1600000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  shapeCasts_S1700000_S1700000x1 : S1700000.ShapeCasts S1700000x1
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  broadcasts_S10000x1_S10000x16 : S10000x1.Broadcasts S10000x16
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  dot_S16000x16_S16x32_S16000x32_1_0_0_1_n_n_wf : DotDims.WF S16000x16 S16x32 S16000x32 [1] [0] [0] [1] [] []
  dot_S16000x32_S32x1_S16000x1_1_0_0_1_n_n_wf : DotDims.WF S16000x32 S32x1 S16000x1 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x16_S10000x16_1_0_0_1_n_n_wf : DotDims.WF S10000x64 S64x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x16.size a ≤ S1600000x16.size a
  hwx0_0 : ∀ i : grid0.Coords, EltTy.bits .f32 = 32 ∨ (Rect.block (s := S1600000x16) S16000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x1.size a ≤ S1600000x1.size a
  hwx0_5 : ∀ i : grid0.Coords, EltTy.bits .f32 = 32 ∨ (Rect.block (s := S1600000x1) S16000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1700000x64.size a
  hwx2_0 : ∀ i : grid2.Coords, EltTy.bits .f32 = 32 ∨ (Rect.block (s := S1700000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S1700000x1.size a
  hwx2_1 : ∀ i : grid2.Coords, EltTy.bits .f32 = 32 ∨ (Rect.block (s := S1700000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S1700000x64.size a
  hwx2_2 : ∀ i : grid2.Coords, EltTy.bits .f32 = 32 ∨ (Rect.block (s := S1700000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S100000x16.size a
  hwx4_2 : ∀ i : grid4.Coords, EltTy.bits .f32 = 32 ∨ (Rect.block (s := S100000x16) S10000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S1700000x16.size a
  hwx5_0 : ∀ i : grid5.Coords, EltTy.bits .f32 = 32 ∨ (Rect.block (s := S1700000x16) S10000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S1700000x1.size a
  hwx5_1 : ∀ i : grid5.Coords, EltTy.bits .f32 = 32 ∨ (Rect.block (s := S1700000x1) S10000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x16.size a ≤ S1700000x16.size a
  hwx5_2 : ∀ i : grid5.Coords, EltTy.bits .f32 = 32 ∨ (Rect.block (s := S1700000x16) S10000x16.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x16.size a ≤ S100000x16.size a
  hwx6_0 : ∀ i : grid6.Coords, EltTy.bits .f32 = 32 ∨ (Rect.block (s := S100000x16) S10000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x16.size a ≤ S1x16.size a
  hwx6_1 : ∀ i : grid6.Coords, EltTy.bits .f32 = 32 ∨ (Rect.block (s := S1x16) S1x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x16.size a ≤ S100000x16.size a
  hwx6_2 : ∀ i : grid6.Coords, EltTy.bits .f32 = 32 ∨ (Rect.block (s := S100000x16) S10000x16.size (cc6_transform_2 i) (hinb6_2 i)).WholeWords (EltTy.packing .f32)

variable [Facts₀]

def dot_S16000x16_S16x32_S16000x32_1_0_0_1_n_n : DotDims S16000x16 S16x32 S16000x32 where
  lhsContracting := [1]
  rhsContracting := [0]
  lhsNonContracting := [0]
  rhsNonContracting := [1]
  lhsBatch := []
  rhsBatch := []
  wf := dot_S16000x16_S16x32_S16000x32_1_0_0_1_n_n_wf
def dot_S16000x32_S32x1_S16000x1_1_0_0_1_n_n : DotDims S16000x32 S32x1 S16000x1 where
  lhsContracting := [1]
  rhsContracting := [0]
  lhsNonContracting := [0]
  rhsNonContracting := [1]
  lhsBatch := []
  rhsBatch := []
  wf := dot_S16000x32_S32x1_S16000x1_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg2) S16000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v51) S10000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v58) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v59) S10000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v62) S10000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v63) S1x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v64) S10000x16.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x16 : Shape := ⟨2, ![1600000, 16]⟩
abbrev S16x32 : Shape := ⟨2, ![16, 32]⟩
abbrev S32 : Shape := ⟨1, ![32]⟩
abbrev S32x1 : Shape := ⟨2, ![32, 1]⟩
abbrev S1 : Shape := ⟨1, ![1]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1600000x32 : Shape := ⟨2, ![1600000, 32]⟩
abbrev S1x32 : Shape := ⟨2, ![1, 32]⟩
abbrev S_ : Shape := ⟨0, ![]⟩
abbrev S1600000x1 : Shape := ⟨2, ![1600000, 1]⟩
abbrev S1x1 : Shape := ⟨2, ![1, 1]⟩
abbrev S1600000 : Shape := ⟨1, ![1600000]⟩
abbrev S1x1600000 : Shape := ⟨2, ![1, 1600000]⟩
abbrev S100000 : Shape := ⟨1, ![100000]⟩
abbrev S1700000 : Shape := ⟨1, ![1700000]⟩
abbrev S100000x64 : Shape := ⟨2, ![100000, 64]⟩
abbrev S1700000x1 : Shape := ⟨2, ![1700000, 1]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 163
  | .vmem => 0
  | .smem => 0
  | _ => 0

abbrev hbmTy0_0 (i : Nat) : BufTy := match i % 128 with
  | 0 => ⟨S100000x128, .f32⟩
  | 1 => ⟨S2x1600000, .i32⟩
  | 2 => ⟨S1600000x16, .f32⟩
  | 3 => ⟨S16x32, .f32⟩
  | 4 => ⟨S32, .f32⟩
  | 5 => ⟨S32x1, .f32⟩
  | 6 => ⟨S1, .f32⟩
  | 7 => ⟨S128x64, .f32⟩
  | 8 => ⟨S64, .f32⟩
  | 9 => ⟨S64x16, .f32⟩
  | 10 => ⟨S16, .f32⟩
  | 11 => ⟨S1600000x32, .f32⟩
  | 12 => ⟨S1x32, .f32⟩
  | 13 => ⟨S1600000x32, .f32⟩
  | 14 => ⟨S1600000x32, .f32⟩
  | 15 => ⟨S_, .f32⟩
  | 16 => ⟨S1600000x32, .f32⟩
  | 17 => ⟨S1600000x32, .f32⟩
  | 18 => ⟨S1600000x1, .f32⟩
  | 19 => ⟨S1x1, .f32⟩
  | 20 => ⟨S1600000x1, .f32⟩
  | 21 => ⟨S1600000x1, .f32⟩
  | 22 => ⟨S1600000x1, .f32⟩
  | 23 => ⟨S1600000x1, .f32⟩
  | 24 => ⟨S_, .f32⟩
  | 25 => ⟨S1600000x1, .f32⟩
  | 26 => ⟨S1600000x1, .f32⟩
  | 27 => ⟨S_, .f32⟩
  | 28 => ⟨S1600000x1, .f32⟩
  | 29 => ⟨S1600000x1, .f32⟩
  | 30 => ⟨S1600000, .f32⟩
  | 31 => ⟨S1x1600000, .i32⟩
  | 32 => ⟨S1600000, .i32⟩
  | 33 => ⟨S1x1600000, .i32⟩
  | 34 => ⟨S1600000, .i32⟩
  | 35 => ⟨S100000, .i32⟩
  | 36 => ⟨S1700000, .i32⟩
  | 37 => ⟨S1700000, .i32⟩
  | 38 => ⟨S_, .f32⟩
  | 39 => ⟨S100000, .f32⟩
  | 40 => ⟨S1700000, .f32⟩
  | 41 => ⟨S100000x64, .f32⟩
  | 42 => ⟨S_, .f32⟩
  | 43 => ⟨S100000, .f32⟩
  | 44 => ⟨S1700000x1, .i32⟩
  | 45 => ⟨S100000, .f32⟩
  | 46 => ⟨S_, .f32⟩
  | 47 => ⟨S100000, .f32⟩
  | 48 => ⟨S100000, .i1⟩
  | 49 => ⟨S100000, .f32⟩
  | 50 => ⟨S_, .f32⟩
  | 51 => ⟨S_, .f32⟩
  | 52 => ⟨S100000, .f32⟩
  | 53 => ⟨S100000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S1700000, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000, .f32⟩
  | 73 => ⟨S1700000, .f32⟩
  | 74 => ⟨S1700000x1, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x64, .f32⟩
  | 84 => ⟨S1700000x64, .f32⟩
  | 85 => ⟨S1700000x64, .f32⟩
  | 86 => ⟨S_, .f32⟩
  | 87 => ⟨S100000x64, .f32⟩
  | 88 => ⟨S1700000x1, .i32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x16, .f32⟩
  | 97 => ⟨S_, .f32⟩
  | 98 => ⟨S100000, .f32⟩
  | 99 => ⟨S1700000x1, .i32⟩
  | 100 => ⟨S100000, .f32⟩
  | 101 => ⟨S_, .f32⟩
  | 102 => ⟨S100000, .f32⟩
  | 103 => ⟨S100000, .i1⟩
  | 104 => ⟨S100000, .f32⟩
  | 105 => ⟨S_, .f32⟩
  | 106 => ⟨S_, .f32⟩
  | 107 => ⟨S100000, .f32⟩
  | 108 => ⟨S100000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000, .f32⟩
  | 118 => ⟨S1700000, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000, .f32⟩
  | _ => ⟨S100000x128, .f32⟩

abbrev hbmTy0_1 (i : Nat) : BufTy := match i % 128 with
  | 0 => ⟨S1700000, .f32⟩
  | 1 => ⟨S1700000x1, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000x16, .f32⟩
  | 11 => ⟨S1700000x16, .f32⟩
  | 12 => ⟨S1700000x16, .f32⟩
  | 13 => ⟨S_, .f32⟩
  | 14 => ⟨S100000x16, .f32⟩
  | 15 => ⟨S1700000x1, .i32⟩
  | 16 => ⟨S100000x16, .f32⟩
  | 17 => ⟨S1x16, .f32⟩
  | 18 => ⟨S100000x16, .f32⟩
  | 19 => ⟨S100000x16, .f32⟩
  | 20 => ⟨S_, .f32⟩
  | 21 => ⟨S100000, .f32⟩
  | 22 => ⟨S_, .f32⟩
  | 23 => ⟨S100000, .f32⟩
  | 24 => ⟨S100000, .f32⟩
  | 25 => ⟨S100000x1, .f32⟩
  | 26 => ⟨S100000x16, .f32⟩
  | 27 => ⟨S100000x16, .f32⟩
  | 28 => ⟨S100000x16, .f32⟩
  | 29 => ⟨S_, .f32⟩
  | 30 => ⟨S100000, .f32⟩
  | 31 => ⟨S100000x1, .f32⟩
  | 32 => ⟨S100000x1, .f32⟩
  | 33 => ⟨S100000x16, .f32⟩
  | 34 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_v32 : Ref sig .tc := ⟨.hbm, 53, rfl⟩
abbrev main_c : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_v41 : Ref sig .tc := ⟨.hbm, 65, rfl⟩
abbrev main_v42 : Ref sig .tc := ⟨.hbm, 66, rfl⟩
abbrev main_c_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_cst_11 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_12 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_13 : Ref sig .tc := ⟨.hbm, 105, rfl⟩
abbrev main_call3_v0 : Ref sig .tc := ⟨.hbm, 106, rfl⟩
abbrev main_call3_v1 : Ref sig .tc := ⟨.hbm, 107, rfl⟩
abbrev main_v73 : Ref sig .tc := ⟨.hbm, 108, rfl⟩
abbrev main_c_14 : Ref sig .tc := ⟨.hbm, 109, rfl⟩
abbrev main_v74 : Ref sig .tc := ⟨.hbm, 110, rfl⟩
abbrev main_v75 : Ref sig .tc := ⟨.hbm, 111, rfl⟩
abbrev main_c_15 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_16 : Ref sig .tc := ⟨.hbm, 119, rfl⟩
abbrev main_v82 : Ref sig .tc := ⟨.hbm, 120, rfl⟩
abbrev main_v83 : Ref sig .tc := ⟨.hbm, 121, rfl⟩
abbrev main_c_17 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_18 : Ref sig .tc := ⟨.hbm, 130, rfl⟩
abbrev main_v91 : Ref sig .tc := ⟨.hbm, 131, rfl⟩
abbrev main_v92 : Ref sig .tc := ⟨.hbm, 132, rfl⟩
abbrev main_c_19 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_20 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_call4_cst : Ref sig .tc := ⟨.hbm, 148, rfl⟩
abbrev main_call4_v0 : Ref sig .tc := ⟨.hbm, 149, rfl⟩
abbrev main_call4_cst_0 : Ref sig .tc := ⟨.hbm, 150, rfl⟩
abbrev main_call4_v1 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_call4_v5 : Ref sig .tc := ⟨.hbm, 155, rfl⟩
abbrev main_call4_v6 : Ref sig .tc := ⟨.hbm, 156, rfl⟩
abbrev main_call4_cst_1 : Ref sig .tc := ⟨.hbm, 157, rfl⟩
abbrev main_call4_v7 : Ref sig .tc := ⟨.hbm, 158, rfl⟩
abbrev main_call4_v8 : Ref sig .tc := ⟨.hbm, 159, rfl⟩
abbrev main_call4_v9 : Ref sig .tc := ⟨.hbm, 160, rfl⟩
abbrev main_call4_v10 : Ref sig .tc := ⟨.hbm, 161, rfl⟩
abbrev main_v106 : Ref sig .tc := ⟨.hbm, 162, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  shapeCasts_S1600000x1_S1600000 : S1600000x1.ShapeCasts S1600000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S1600000x16_S16x32_S1600000x32_1_0_0_1_n_n_wf : DotDims.WF S1600000x16 S16x32 S1600000x32 [1] [0] [0] [1] [] []
  dot_S1600000x32_S32x1_S1600000x1_1_0_0_1_n_n_wf : DotDims.WF S1600000x32 S32x1 S1600000x1 [1] [0] [0] [1] [] []
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def dot_S1600000x16_S16x32_S1600000x32_1_0_0_1_n_n : DotDims S1600000x16 S16x32 S1600000x32 where
  lhsContracting := [1]
  rhsContracting := [0]
  lhsNonContracting := [0]
  rhsNonContracting := [1]
  lhsBatch := []
  rhsBatch := []
  wf := dot_S1600000x16_S16x32_S1600000x32_1_0_0_1_n_n_wf
def dot_S1600000x32_S32x1_S1600000x1_1_0_0_1_n_n : DotDims S1600000x32 S32x1 S1600000x1 where
  lhsContracting := [1]
  rhsContracting := [0]
  lhsNonContracting := [0]
  rhsNonContracting := [1]
  lhsBatch := []
  rhsBatch := []
  wf := dot_S1600000x32_S32x1_S1600000x1_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel's run with its result named. Every weakly fair execution of the program terminates without a
  fault; in the final state the result array holds what the last boundary of the program's segments holds at that
  buffer (the fold of the host stretches and the seven stages' write-backs from the launch memory), and the argument
  arrays hold what they were launched with. The run is the same chain of segments as the frame's: host stretches and
  stages alternate, each entered from the contents the previous one leaves; only the final reading differs, which
  here also reads the result buffer.
-/
import proofs.«108055_j75402445849004_2_alg».proof.Proof.Gen.KernelIdeal.Frame

set_option maxRecDepth 16384

noncomputable section

namespace Cert.KernelIdeal.Closed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents. -/
theorem run_named : θ_run defs (onTc (τ := τ) (main (F := F))) ⟨m, fun _ => 0, ρ⟩ (fun r => ∀ c : Dev nD,
      r.2.mem ((c.tc : Thread nD τ).loc main_v64) = W15 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v64 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c)⟩)

end Cert.KernelIdeal.Closed

end
-- ==== Proof.Layers.lean ====
/-
  The dense stages of a two-layer graph convolution with learned edge weights, as functions of whole arrays on the
  extended reals, entry by entry.

  * `edgeWeight`: the edge network. Row `e` of the edge features goes through a hidden layer with a rectifier and
    a one-unit output layer with a sigmoid: `σ(Σ_q max(Σ_r X[e,r]·W₁[r,q] + b₁[q], 0)·W₂[q] + b₂)`.
  * `dense`: a matrix of rows times a weight matrix, `Σ_q A[r,q]·W[q,c]`.
  * `scaleRows`: every row multiplied by its own scalar, `G[r,c]·s[r]`.
  * `biasRelu`: a bias row added to every row, then the rectifier.
  * `biasLogSoftmax`: a bias row added to every row, then the row's log-softmax in its stable form: with
    `y = S[r,·] + b` and `μ` the row maximum, `(y_c − μ) − log Σ_c' exp(y_c' − μ)`.

  Sums are finite sums in the extended reals, the maximum of a row is the fold of `max` from minus infinity; a float
  literal stays the word it is written with.
-/
import Idealize.ShloMosaic.PureOps.Ideal
import Idealize.ShloMosaic.Lib.ValueIdx

noncomputable section

open scoped BigOperators

namespace Cert.Layer

open Idealize.ShloMosaic Idealize.ShloMosaic.ValueIdx

variable {n k f h : ℕ}

/-- Rows times a weight matrix. -/
def dense (A : FVec Ideal ⟨2, ![n, k]⟩ .f32) (W : FVec Ideal ⟨2, ![k, f]⟩ .f32) : FVec Ideal ⟨2, ![n, f]⟩ .f32 :=
  fun i => ∑ q : Fin k, A (ix2 (n0 := n) (i 0) q) * W (ix2 (n1 := f) q (i 1))

theorem dense_apply (A : FVec Ideal ⟨2, ![n, k]⟩ .f32) (W : FVec Ideal ⟨2, ![k, f]⟩ .f32) (r : Fin n) (c : Fin f) :
    dense A W (ix2 r c) = ∑ q : Fin k, A (ix2 r q) * W (ix2 q c) := rfl

/-- Every row multiplied by its own scalar, the scalars given as a column. -/
def scaleRows (G : FVec Ideal ⟨2, ![n, f]⟩ .f32) (s : FVec Ideal ⟨2, ![n, 1]⟩ .f32) : FVec Ideal ⟨2, ![n, f]⟩ .f32 :=
  fun i => G i * s (ix2 (n0 := n) (i 0) (0 : Fin 1))

theorem scaleRows_apply (G : FVec Ideal ⟨2, ![n, f]⟩ .f32) (s : FVec Ideal ⟨2, ![n, 1]⟩ .f32) (r : Fin n) (c : Fin f) :
    scaleRows G s (ix2 r c) = G (ix2 r c) * s (ix2 r (0 : Fin 1)) := rfl

/-- A bias row added to every row, then the rectifier. -/
def biasRelu (S : FVec Ideal ⟨2, ![n, f]⟩ .f32) (b : FVec Ideal ⟨2, ![1, f]⟩ .f32) : FVec Ideal ⟨2, ![n, f]⟩ .f32 :=
  fun i => max (S i + b (ix2 (0 : Fin 1) (n1 := f) (i 1))) (Ideal.ofBits .f32 0x00000000#32)

theorem biasRelu_apply (S : FVec Ideal ⟨2, ![n, f]⟩ .f32) (b : FVec Ideal ⟨2, ![1, f]⟩ .f32) (r : Fin n) (c : Fin f) :
    biasRelu S b (ix2 r c) = max (S (ix2 r c) + b (ix2 (0 : Fin 1) c)) (Ideal.ofBits .f32 0x00000000#32) := rfl

/-- The largest entry of a row after the bias is added: the fold of `max` from minus infinity. -/
def rowMax (S : FVec Ideal ⟨2, ![n, f]⟩ .f32) (b : FVec Ideal ⟨2, ![1, f]⟩ .f32) (r : Fin n) : EReal :=
  (Finset.univ : Finset (Fin f)).fold max (Ideal.ofBits .f32 0xFF800000#32) (fun c => S (ix2 r c) + b (ix2 (0 : Fin 1) c))

/-- A bias row added to every row, then the row's log-softmax in its stable form. -/
def biasLogSoftmax (S : FVec Ideal ⟨2, ![n, f]⟩ .f32) (b : FVec Ideal ⟨2, ![1, f]⟩ .f32) : FVec Ideal ⟨2, ![n, f]⟩ .f32 :=
  fun i => (S i + b (ix2 (0 : Fin 1) (n1 := f) (i 1)) - rowMax S b (i 0))
    - Ideal.log (∑ c : Fin f, Ideal.exp (S (ix2 (n0 := n) (i 0) c) + b (ix2 (0 : Fin 1) c) - rowMax S b (i 0)))

theorem biasLogSoftmax_apply (S : FVec Ideal ⟨2, ![n, f]⟩ .f32) (b : FVec Ideal ⟨2, ![1, f]⟩ .f32) (r : Fin n) (c : Fin f) :
    biasLogSoftmax S b (ix2 r c) = (S (ix2 r c) + b (ix2 (0 : Fin 1) c) - rowMax S b r)
      - Ideal.log (∑ c' : Fin f, Ideal.exp (S (ix2 r c') + b (ix2 (0 : Fin 1) c') - rowMax S b r)) := rfl

/-- The edge network: a hidden layer with a rectifier, then one output unit with a sigmoid. -/
def edgeWeight (X : FVec Ideal ⟨2, ![n, k]⟩ .f32) (W₁ : FVec Ideal ⟨2, ![k, h]⟩ .f32) (b₁ : FVec Ideal ⟨2, ![1, h]⟩ .f32)
    (W₂ : FVec Ideal ⟨2, ![h, 1]⟩ .f32) (b₂ : FVec Ideal ⟨2, ![1, 1]⟩ .f32) : FVec Ideal ⟨2, ![n, 1]⟩ .f32 :=
  fun i => Ideal.logistic ((∑ q : Fin h,
      max ((∑ r : Fin k, X (ix2 (n0 := n) (i 0) r) * W₁ (ix2 r q)) + b₁ (ix2 (0 : Fin 1) q)) (Ideal.ofBits .f32 0x00000000#32)
        * W₂ (ix2 q (0 : Fin 1)))
    + b₂ (ix2 (0 : Fin 1) (0 : Fin 1)))

theorem edgeWeight_apply (X : FVec Ideal ⟨2, ![n, k]⟩ .f32) (W₁ : FVec Ideal ⟨2, ![k, h]⟩ .f32) (b₁ : FVec Ideal ⟨2, ![1, h]⟩ .f32)
    (W₂ : FVec Ideal ⟨2, ![h, 1]⟩ .f32) (b₂ : FVec Ideal ⟨2, ![1, 1]⟩ .f32) (e : Fin n) (u : Fin 1) :
    edgeWeight X W₁ b₁ W₂ b₂ (ix2 e u) = Ideal.logistic ((∑ q : Fin h,
      max ((∑ r : Fin k, X (ix2 e r) * W₁ (ix2 r q)) + b₁ (ix2 (0 : Fin 1) q)) (Ideal.ofBits .f32 0x00000000#32)
        * W₂ (ix2 q (0 : Fin 1)))
    + b₂ (ix2 (0 : Fin 1) (0 : Fin 1))) := rfl

end Cert.Layer

end
-- ==== Proof.Net.lean ====
/-
  The whole network as one function of its eleven arguments on the extended reals: a two-layer graph convolution
  whose edge weights come from a small edge network.

  With `E` edges and `N` nodes, every node gets a self-loop of weight one: the source list `src`, the target list
  `tgt` and the weight list `ewf` have `E + N` entries. The weighted degree of a node is the sum of the weights of the
  edges that end in it (`deg`, a scatter-add of the weights at the targets), its inverse square root where the degree
  is positive and zero elsewhere is `dinv`, and the symmetric normalisation of edge `e` is
  `dinv[src e] · w_e · dinv[tgt e]` (`norm`). A convolution gathers the transformed feature row of every edge's source,
  multiplies it by the edge's normalisation, and adds the rows that end in the same target (`conv64`, `conv16`).
  The network (`net`) is: edge network; first convolution of `x · Wc₁`, bias, rectifier; second convolution of
  `h₁ · Wc₂`, bias, row-wise log-softmax. A negative index counts from the end (`wrap`), as array indexing does.
-/
import proofs.«108055_j75402445849004_2_alg».proof.Proof.Gen.KernelIdeal
import proofs.«108055_j75402445849004_2_alg».proof.Proof.Layers

noncomputable section

namespace Cert.Net

open Idealize.ShloMosaic Cert.KernelIdeal Cert.KernelIdeal.Facts₀

/-- The edges' sources, then every node (the self-loops). -/
def src (x1 : IVec S2x1600000 32) : IVec S1700000 32 :=
  concatenate S1700000 0 [⟨S1600000, shapeCast S1600000 (extractStridedSlice S1x1600000 ![0, 0] x1 slices_S2x1600000_S1x1600000_0_0) shapeCasts_S1x1600000_S1600000⟩,
    ⟨S100000, iotaInDim S100000 32 0⟩] concatenates_S1600000_S100000_S1700000_d0

/-- The edges' targets, then every node (the self-loops). -/
def tgt (x1 : IVec S2x1600000 32) : IVec S1700000 32 :=
  concatenate S1700000 0 [⟨S1600000, shapeCast S1600000 (extractStridedSlice S1x1600000 ![1, 0] x1 slices_S2x1600000_S1x1600000_1_0) shapeCasts_S1x1600000_S1600000⟩,
    ⟨S100000, iotaInDim S100000 32 0⟩] concatenates_S1600000_S100000_S1700000_d0

/-- An index list as a column of start indices. -/
def col (idx : IVec S1700000 32) : IVec S1700000x1 32 :=
  broadcastInDim S1700000x1 ![0] bcast_S1700000_S1700000x1_0 idx

/-- An index list with negative entries counted from the end, as a column of start indices. -/
def wrap (idx : IVec S1700000 32) : IVec S1700000x1 32 :=
  col (select (cmpi .slt idx (broadcastInDim S1700000 ![] bcast_S_S1700000 (constantI S_ 32 0#32)))
    (addi idx (broadcastInDim S1700000 ![] bcast_S_S1700000 (constantI S_ 32 100000#32))) idx)

/-- The edge weights, then weight one for every self-loop. -/
def ewf (ew : FVec Ideal S1600000x1 .f32) : FVec Ideal S1700000 .f32 :=
  concatenate S1700000 0 [⟨S1600000, shapeCast S1600000 ew shapeCasts_S1600000x1_S1600000⟩,
    ⟨S100000, broadcastInDim S100000 ![] bcast_S_S100000 (constant (F := Ideal) S_ .f32 0x3F800000#32)⟩] concatenates_S1600000_S100000_S1700000_d0

/-- The weighted degree of every node. -/
def deg (x1 : IVec S2x1600000 32) (ew : FVec Ideal S1600000x1 .f32) : FVec Ideal S100000 .f32 :=
  Host.scatterAdd (F := Ideal) scatter_S100000_S1700000x1_S1700000_n_0_0_1
    (broadcastInDim S100000 ![] bcast_S_S100000 (constant (F := Ideal) S_ .f32 0x00000000#32)) (col (tgt x1)) (ewf ew)

/-- The inverse square root of the degree where it is positive, zero elsewhere. -/
def dinv (x1 : IVec S2x1600000 32) (ew : FVec Ideal S1600000x1 .f32) : FVec Ideal S100000 .f32 :=
  select (cmpf .ogt (deg x1 ew) (broadcastInDim S100000 ![] bcast_S_S100000 (constant (F := Ideal) S_ .f32 0x00000000#32)))
    (Host.rsqrt (F := Ideal) (deg x1 ew))
    (broadcastInDim S100000 ![] bcast_S_S100000 (constant (F := Ideal) S_ .f32 0x00000000#32))

/-- The symmetric normalisation of every edge. -/
def norm (x1 : IVec S2x1600000 32) (ew : FVec Ideal S1600000x1 .f32) : FVec Ideal S1700000 .f32 :=
  mulf (mulf (Host.gather gather_S100000_S1700000x1_S1700000_n_0_n_n_0_1_1 (dinv x1 ew) (wrap (src x1))) (ewf ew))
    (Host.gather gather_S100000_S1700000x1_S1700000_n_0_n_n_0_1_1 (dinv x1 ew) (wrap (tgt x1)))

/-- The normalisations as a column. -/
def normCol (x1 : IVec S2x1600000 32) (ew : FVec Ideal S1600000x1 .f32) : FVec Ideal S1700000x1 .f32 :=
  shapeCast S1700000x1 (norm x1 ew) shapeCasts_S1700000_S1700000x1

/-- A convolution of rows 64 wide: gather the sources' rows, scale by the edges' normalisations, add at the targets. -/
def conv64 (x1 : IVec S2x1600000 32) (s : FVec Ideal S1700000x1 .f32) (H : FVec Ideal S100000x64 .f32) : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32)) (col (tgt x1))
    (Cert.Layer.scaleRows (Host.gather gather_S100000x64_S1700000x1_S1700000x64_1_0_n_n_0_1_164 H (wrap (src x1))) s)

/-- A convolution of rows 16 wide. -/
def conv16 (x1 : IVec S2x1600000 32) (s : FVec Ideal S1700000x1 .f32) (H : FVec Ideal S100000x16 .f32) : FVec Ideal S100000x16 .f32 :=
  Host.scatterAdd (F := Ideal) scatter_S100000x16_S1700000x1_S1700000x16_1_0_0_1
    (broadcastInDim S100000x16 ![] bcast_S_S100000x16 (constant (F := Ideal) S_ .f32 0x00000000#32)) (col (tgt x1))
    (Cert.Layer.scaleRows (Host.gather gather_S100000x16_S1700000x1_S1700000x16_1_0_n_n_0_1_116 H (wrap (src x1))) s)

/-- The edge network's weights, one per edge, as a column. -/
def edge (x2 : FVec Ideal S1600000x16 .f32) (x3 : FVec Ideal S16x32 .f32) (x4 : FVec Ideal S32 .f32)
    (x5 : FVec Ideal S32x1 .f32) (x6 : FVec Ideal S1 .f32) : FVec Ideal S1600000x1 .f32 :=
  Cert.Layer.edgeWeight x2 x3 (shapeCast S1x32 x4 shapeCasts_S32_S1x32) x5 (shapeCast S1x1 x6 shapeCasts_S1_S1x1)

/-- The hidden node features after the first convolution. -/
def hidden (x0 : FVec Ideal S100000x128 .f32) (x1 : IVec S2x1600000 32) (s : FVec Ideal S1700000x1 .f32)
    (x7 : FVec Ideal S128x64 .f32) (x8 : FVec Ideal S64 .f32) : FVec Ideal S100000x64 .f32 :=
  Cert.Layer.biasRelu (conv64 x1 s (Cert.Layer.dense x0 x7)) (shapeCast S1x64 x8 shapeCasts_S64_S1x64)

/-- The network. -/
def net (x0 : FVec Ideal S100000x128 .f32) (x1 : IVec S2x1600000 32) (x2 : FVec Ideal S1600000x16 .f32)
    (x3 : FVec Ideal S16x32 .f32) (x4 : FVec Ideal S32 .f32) (x5 : FVec Ideal S32x1 .f32) (x6 : FVec Ideal S1 .f32)
    (x7 : FVec Ideal S128x64 .f32) (x8 : FVec Ideal S64 .f32) (x9 : FVec Ideal S64x16 .f32) (x10 : FVec Ideal S16 .f32) :
    FVec Ideal S100000x16 .f32 :=
  Cert.Layer.biasLogSoftmax
    (conv16 x1 (normCol x1 (edge x2 x3 x4 x5 x6))
      (Cert.Layer.dense (hidden x0 x1 (normCol x1 (edge x2 x3 x4 x5 x6)) x7 x8) x9))
    (shapeCast S1x16 x10 shapeCasts_S16_S1x16)

end Cert.Net

end
-- ==== Proof.Stretches.lean ====
/-
  What the program's buffers hold at the boundaries between its host stretches and its seven stages, read forward
  from the launch memory. A host stretch is a list of array operations, each writing one buffer from buffers written
  before it: after the stretch a written buffer holds the operation's value of its operands' contents, and a buffer
  the stretch does not write holds what it held. A stage writes only its result array. So the source and target lists,
  the weights with the self-loops, the degrees and the normalisation column are each a fixed term of the arguments and
  of the edge stage's result, and they pass unchanged through every later stretch and stage that does not write them.
-/
import proofs.«108055_j75402445849004_2_alg».proof.Proof.Gen.KernelIdeal.Frame
import proofs.«108055_j75402445849004_2_alg».proof.Proof.Net
import Idealize.ShloMosaic.Lib.StableHlo.Run

set_option maxRecDepth 16384

noncomputable section

namespace Cert.KernelIdeal.Closed

open Idealize.ShloMosaic Idealize.ShloMosaic.TcCoe Idealize.SL.Sem Idealize.ShloMosaic.StableHlo
open Cert.KernelIdeal Cert.KernelIdeal.Gen

/-- Closes "no operation of the stretch writes this buffer" for one of the program's host stretches. -/
macro "unwritten" : tactic =>
  `(tactic| (refine List.forall_iff_forall_mem.mp ?_
             simp only [hostOps0, hostOps1, hostOps1_1, hostOps1_2, hostOps2, hostOps3, hostOps5, hostOps6,
               List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg) (c : Dev nD)

/-- A buffer that a stretch does not write keeps its contents through it. -/
theorem kept (ops : List (HloOp τ sig (Elt Ideal))) (W : Valuation τ sig (Elt Ideal)) (b : Ref sig .tc)
    (h : ∀ op ∈ ops, Proc.devRef (τ := τ) .tc b ∉ op.writes) :
    StableHlo.after ops W (Proc.devRef .tc b) = W (Proc.devRef .tc b) :=
  StableHlo.after_of_forall_not_mem ops W h

/-! ## Before the edge stage -/

theorem W1_arg2 : W1 m ρ c (Proc.devRef .tc main_arg2) = m ((c : Thread nD τ).loc main_arg2) :=
  kept hostOps0 (W0 m ρ c) main_arg2 (by unwritten)
theorem W1_arg3 : W1 m ρ c (Proc.devRef .tc main_arg3) = m ((c : Thread nD τ).loc main_arg3) :=
  kept hostOps0 (W0 m ρ c) main_arg3 (by unwritten)
theorem W1_arg5 : W1 m ρ c (Proc.devRef .tc main_arg5) = m ((c : Thread nD τ).loc main_arg5) :=
  kept hostOps0 (W0 m ρ c) main_arg5 (by unwritten)
theorem W1_v0 : W1 m ρ c (Proc.devRef .tc main_v0)
    = shapeCast S1x32 (m ((c : Thread nD τ).loc main_arg4)) Facts₀.shapeCasts_S32_S1x32 := by
  show StableHlo.after hostOps0 (W0 m ρ c) (Proc.devRef .tc main_v0) = _
  after_results
  rfl
theorem W1_v1 : W1 m ρ c (Proc.devRef .tc main_v1)
    = shapeCast S1x1 (m ((c : Thread nD τ).loc main_arg6)) Facts₀.shapeCasts_S1_S1x1 := by
  show StableHlo.after hostOps0 (W0 m ρ c) (Proc.devRef .tc main_v1) = _
  after_results
  rfl

/-! ## Buffers that pass unchanged through stretches and stages -/

/-- A buffer written by nothing before the first dense stage holds at its entry what the program was launched with. -/
theorem launch_upto5 (b : Ref sig .tc)
    (h0 : ∀ op ∈ (hostOps0 : List (HloOp τ sig (Elt Ideal))), Proc.devRef (τ := τ) .tc b ∉ op.writes)
    (hr0 : ∀ w, Pipeline.arrRef spec0 w ≠ b)
    (h1 : ∀ op ∈ (hostOps1 : List (HloOp τ sig (Elt Ideal))), Proc.devRef (τ := τ) .tc b ∉ op.writes)
    (h11 : ∀ op ∈ (hostOps1_1 : List (HloOp τ sig (Elt Ideal))), Proc.devRef (τ := τ) .tc b ∉ op.writes)
    (h12 : ∀ op ∈ (hostOps1_2 : List (HloOp τ sig (Elt Ideal))), Proc.devRef (τ := τ) .tc b ∉ op.writes) :
    W5 m ρ c (Proc.devRef .tc b) = m ((c : Thread nD τ).loc b) :=
  calc W5 m ρ c (Proc.devRef .tc b)
    _ = W4 m ρ c (Proc.devRef .tc b) := kept hostOps1_2 (W4 m ρ c) b h12
    _ = W3 m ρ c (Proc.devRef .tc b) := kept hostOps1_1 (W3 m ρ c) b h11
    _ = W2 m ρ c (Proc.devRef .tc b) := kept hostOps1 (W2 m ρ c) b h1
    _ = W1 m ρ c (Proc.devRef .tc b) := W2_of_ne m ρ c b hr0
    _ = W0 m ρ c (Proc.devRef .tc b) := kept hostOps0 (W0 m ρ c) b h0
    _ = m ((c : Thread nD τ).loc b) := rfl

/-- From the first dense stage's entry to the first scaling stage's exit. -/
theorem pass5_8 (b : Ref sig .tc) (hr1 : ∀ w, Pipeline.arrRef spec1 w ≠ b)
    (h2 : ∀ op ∈ (hostOps2 : List (HloOp τ sig (Elt Ideal))), Proc.devRef (τ := τ) .tc b ∉ op.writes)
    (hr2 : ∀ w, Pipeline.arrRef spec2 w ≠ b) :
    W8 m ρ c (Proc.devRef .tc b) = W5 m ρ c (Proc.devRef .tc b) :=
  calc W8 m ρ c (Proc.devRef .tc b)
    _ = W7 m ρ c (Proc.devRef .tc b) := W8_of_ne m ρ c b hr2
    _ = W6 m ρ c (Proc.devRef .tc b) := kept hostOps2 (W6 m ρ c) b h2
    _ = W5 m ρ c (Proc.devRef .tc b) := W6_of_ne m ρ c b hr1

/-- From the first scaling stage's exit to the second dense stage's exit. -/
theorem pass8_11 (b : Ref sig .tc)
    (h3 : ∀ op ∈ (hostOps3 : List (HloOp τ sig (Elt Ideal))), Proc.devRef (τ := τ) .tc b ∉ op.writes)
    (hr3 : ∀ w, Pipeline.arrRef spec3 w ≠ b) (hr4 : ∀ w, Pipeline.arrRef spec4 w ≠ b) :
    W11 m ρ c (Proc.devRef .tc b) = W8 m ρ c (Proc.devRef .tc b) :=
  calc W11 m ρ c (Proc.devRef .tc b)
    _ = W10 m ρ c (Proc.devRef .tc b) := W11_of_ne m ρ c b hr4
    _ = W9 m ρ c (Proc.devRef .tc b) := W10_of_ne m ρ c b hr3
    _ = W8 m ρ c (Proc.devRef .tc b) := kept hostOps3 (W8 m ρ c) b h3

/-- From the second dense stage's exit to the second scaling stage's exit. -/
theorem pass11_13 (b : Ref sig .tc)
    (h5 : ∀ op ∈ (hostOps5 : List (HloOp τ sig (Elt Ideal))), Proc.devRef (τ := τ) .tc b ∉ op.writes)
    (hr5 : ∀ w, Pipeline.arrRef spec5 w ≠ b) :
    W13 m ρ c (Proc.devRef .tc b) = W11 m ρ c (Proc.devRef .tc b) :=
  calc W13 m ρ c (Proc.devRef .tc b)
    _ = W12 m ρ c (Proc.devRef .tc b) := W13_of_ne m ρ c b hr5
    _ = W11 m ρ c (Proc.devRef .tc b) := kept hostOps5 (W11 m ρ c) b h5

/-! ## The arguments where the stages and stretches read them -/

theorem W2_arg1 : W2 m ρ c (Proc.devRef .tc main_arg1) = m ((c : Thread nD τ).loc main_arg1) :=
  (W2_of_ne m ρ c main_arg1 (by decide)).trans (kept hostOps0 (W0 m ρ c) main_arg1 (by unwritten))
theorem W5_arg0 : W5 m ρ c (Proc.devRef .tc main_arg0) = m ((c : Thread nD τ).loc main_arg0) :=
  launch_upto5 m ρ c main_arg0 (by unwritten) (by decide) (by unwritten) (by unwritten) (by unwritten)
theorem W5_arg7 : W5 m ρ c (Proc.devRef .tc main_arg7) = m ((c : Thread nD τ).loc main_arg7) :=
  launch_upto5 m ρ c main_arg7 (by unwritten) (by decide) (by unwritten) (by unwritten) (by unwritten)
theorem W8_arg8 : W8 m ρ c (Proc.devRef .tc main_arg8) = m ((c : Thread nD τ).loc main_arg8) :=
  (pass5_8 m ρ c main_arg8 (by decide) (by unwritten) (by decide)).trans
    (launch_upto5 m ρ c main_arg8 (by unwritten) (by decide) (by unwritten) (by unwritten) (by unwritten))
theorem W10_arg9 : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := kept hostOps3 (W8 m ρ c) main_arg9 (by unwritten)
    _ = W5 m ρ c (Proc.devRef .tc main_arg9) := pass5_8 m ρ c main_arg9 (by decide) (by unwritten) (by decide)
    _ = m ((c : Thread nD τ).loc main_arg9) :=
      launch_upto5 m ρ c main_arg9 (by unwritten) (by decide) (by unwritten) (by unwritten) (by unwritten)
theorem W13_arg10 : W13 m ρ c (Proc.devRef .tc main_arg10) = m ((c : Thread nD τ).loc main_arg10) :=
  calc W13 m ρ c (Proc.devRef .tc main_arg10)
    _ = W11 m ρ c (Proc.devRef .tc main_arg10) := pass11_13 m ρ c main_arg10 (by unwritten) (by decide)
    _ = W8 m ρ c (Proc.devRef .tc main_arg10) := pass8_11 m ρ c main_arg10 (by unwritten) (by decide) (by decide)
    _ = W5 m ρ c (Proc.devRef .tc main_arg10) := pass5_8 m ρ c main_arg10 (by decide) (by unwritten) (by decide)
    _ = m ((c : Thread nD τ).loc main_arg10) :=
      launch_upto5 m ρ c main_arg10 (by unwritten) (by decide) (by unwritten) (by unwritten) (by unwritten)

/-! ## What the host stretches compute, from the contents they are entered with -/

/-! ### The first long stretch, in its three pieces -/

theorem W3_src : W3 m ρ c (Proc.devRef .tc main_v9) = Cert.Net.src (m ((c : Thread nD τ).loc main_arg1)) := by
  show StableHlo.after hostOps1 (W2 m ρ c) (Proc.devRef .tc main_v9) = _
  dsimp only [hostOps1]
  after_results
  rw [W2_arg1 m ρ c]
  rfl

theorem W3_tgt : W3 m ρ c (Proc.devRef .tc main_v10) = Cert.Net.tgt (m ((c : Thread nD τ).loc main_arg1)) := by
  show StableHlo.after hostOps1 (W2 m ρ c) (Proc.devRef .tc main_v10) = _
  dsimp only [hostOps1]
  after_results
  rw [W2_arg1 m ρ c]
  rfl

theorem W3_ewf : W3 m ρ c (Proc.devRef .tc main_v12) = Cert.Net.ewf (W2 m ρ c (Proc.devRef .tc main_v2)) := by
  show StableHlo.after hostOps1 (W2 m ρ c) (Proc.devRef .tc main_v12) = _
  dsimp only [hostOps1]
  after_results
  rfl

theorem W3_deg : W3 m ρ c (Proc.devRef .tc main_v15)
    = Cert.Net.deg (m ((c : Thread nD τ).loc main_arg1)) (W2 m ρ c (Proc.devRef .tc main_v2)) := by
  show StableHlo.after hostOps1 (W2 m ρ c) (Proc.devRef .tc main_v15) = _
  dsimp only [hostOps1]
  after_results
  rw [W2_arg1 m ρ c]
  rfl

theorem W3_positive : W3 m ρ c (Proc.devRef .tc main_v17)
    = cmpf .ogt (Cert.Net.deg (m ((c : Thread nD τ).loc main_arg1)) (W2 m ρ c (Proc.devRef .tc main_v2)))
        (broadcastInDim S100000 ![] Facts₀.bcast_S_S100000 (constant (F := Ideal) S_ .f32 0x00000000#32)) := by
  show StableHlo.after hostOps1 (W2 m ρ c) (Proc.devRef .tc main_v17) = _
  dsimp only [hostOps1]
  after_results
  rw [W2_arg1 m ρ c]
  rfl

theorem W3_rsqrt : W3 m ρ c (Proc.devRef .tc main_v18)
    = Host.rsqrt (F := Ideal) (Cert.Net.deg (m ((c : Thread nD τ).loc main_arg1)) (W2 m ρ c (Proc.devRef .tc main_v2))) := by
  show StableHlo.after hostOps1 (W2 m ρ c) (Proc.devRef .tc main_v18) = _
  dsimp only [hostOps1]
  after_results
  rw [W2_arg1 m ρ c]
  rfl

theorem W3_zero : W3 m ρ c (Proc.devRef .tc main_cst_2) = constant (F := Ideal) S_ .f32 0x00000000#32 := by
  show StableHlo.after hostOps1 (W2 m ρ c) (Proc.devRef .tc main_cst_2) = _
  dsimp only [hostOps1]
  after_results

/-- The selection stretch from any contents: the reciprocal roots where the comparison holds, the constant elsewhere. -/
theorem select_stretch (W : Valuation τ sig (Elt Ideal)) :
    StableHlo.after hostOps1_1 W (Proc.devRef .tc main_v19)
      = select (W (Proc.devRef .tc main_v17)) (W (Proc.devRef .tc main_v18))
          (broadcastInDim S100000 ![] Facts₀.bcast_S_S100000 (W (Proc.devRef .tc main_cst_2))) := by
  dsimp only [hostOps1_1]
  after_results
  rfl

/-- The inverse square roots of the degrees, after the selection. -/
theorem W4_dinv : W4 m ρ c (Proc.devRef .tc main_v19)
    = Cert.Net.dinv (m ((c : Thread nD τ).loc main_arg1)) (W2 m ρ c (Proc.devRef .tc main_v2)) := by
  refine (select_stretch (W3 m ρ c)).trans ?_
  rw [W3_positive m ρ c, W3_rsqrt m ρ c, W3_zero m ρ c]
  rfl

theorem W4_src : W4 m ρ c (Proc.devRef .tc main_v9) = Cert.Net.src (m ((c : Thread nD τ).loc main_arg1)) :=
  (kept hostOps1_1 (W3 m ρ c) main_v9 (by unwritten)).trans (W3_src m ρ c)
theorem W4_tgt : W4 m ρ c (Proc.devRef .tc main_v10) = Cert.Net.tgt (m ((c : Thread nD τ).loc main_arg1)) :=
  (kept hostOps1_1 (W3 m ρ c) main_v10 (by unwritten)).trans (W3_tgt m ρ c)
theorem W4_ewf : W4 m ρ c (Proc.devRef .tc main_v12) = Cert.Net.ewf (W2 m ρ c (Proc.devRef .tc main_v2)) :=
  (kept hostOps1_1 (W3 m ρ c) main_v12 (by unwritten)).trans (W3_ewf m ρ c)

/-- The source list with the self-loops, at the first dense stage's entry. -/
theorem W5_src : W5 m ρ c (Proc.devRef .tc main_v9) = Cert.Net.src (m ((c : Thread nD τ).loc main_arg1)) :=
  (kept hostOps1_2 (W4 m ρ c) main_v9 (by unwritten)).trans (W4_src m ρ c)

/-- The target list with the self-loops, at the first dense stage's entry. -/
theorem W5_tgt : W5 m ρ c (Proc.devRef .tc main_v10) = Cert.Net.tgt (m ((c : Thread nD τ).loc main_arg1)) :=
  (kept hostOps1_2 (W4 m ρ c) main_v10 (by unwritten)).trans (W4_tgt m ρ c)

set_option maxHeartbeats 4000000 in
/-- The normalisation stretch from any contents: both ends' reciprocal roots gathered, times the weight, as a column. -/
theorem norm_stretch (W : Valuation τ sig (Elt Ideal)) :
    StableHlo.after hostOps1_2 W (Proc.devRef .tc main_v36)
      = (shapeCast S1700000x1
          (mulf (mulf (Host.gather gather_S100000_S1700000x1_S1700000_n_0_n_n_0_1_1 (W (Proc.devRef .tc main_v19) : FVec Ideal S100000 .f32)
              (Cert.Net.wrap (W (Proc.devRef .tc main_v9) : IVec S1700000 32))) (W (Proc.devRef .tc main_v12) : FVec Ideal S1700000 .f32))
            (Host.gather gather_S100000_S1700000x1_S1700000_n_0_n_n_0_1_1 (W (Proc.devRef .tc main_v19) : FVec Ideal S100000 .f32)
              (Cert.Net.wrap (W (Proc.devRef .tc main_v10) : IVec S1700000 32))))
          Facts₀.shapeCasts_S1700000_S1700000x1 : FVec Ideal S1700000x1 .f32) := by
  dsimp only [hostOps1_2]
  after_results_simp <;> rfl

/-- The normalisation column, from the edge stage's result. -/
theorem W5_norm : W5 m ρ c (Proc.devRef .tc main_v36)
    = Cert.Net.normCol (m ((c : Thread nD τ).loc main_arg1)) (W2 m ρ c (Proc.devRef .tc main_v2)) := by
  refine (norm_stretch (W4 m ρ c)).trans ?_
  rw [W4_dinv m ρ c, W4_src m ρ c, W4_tgt m ρ c, W4_ewf m ρ c]
  rfl

/-- The gathered source rows of the first layer. -/
theorem W7_rows : W7 m ρ c (Proc.devRef .tc main_v44)
    = Host.gather gather_S100000x64_S1700000x1_S1700000x64_1_0_n_n_0_1_164 (W6 m ρ c (Proc.devRef .tc main_v37))
        (Cert.Net.wrap (W6 m ρ c (Proc.devRef .tc main_v9))) := by
  show StableHlo.after hostOps2 (W6 m ρ c) (Proc.devRef .tc main_v44) = _
  dsimp only [hostOps2]
  after_results
  rfl

/-- The first layer's rows added at their targets. -/
theorem W9_sum : W9 m ρ c (Proc.devRef .tc main_v48)
    = Host.scatterAdd (F := Ideal) scatter_S100000x64_S1700000x1_S1700000x64_1_0_0_1
        (broadcastInDim S100000x64 ![] Facts₀.bcast_S_S100000x64 (constant (F := Ideal) S_ .f32 0x00000000#32))
        (Cert.Net.col (W8 m ρ c (Proc.devRef .tc main_v10))) (W8 m ρ c (Proc.devRef .tc main_v45)) := by
  show StableHlo.after hostOps3 (W8 m ρ c) (Proc.devRef .tc main_v48) = _
  dsimp only [hostOps3]
  after_results
  rfl

/-- The first layer's bias as a row. -/
theorem W9_bias : W9 m ρ c (Proc.devRef .tc main_v49)
    = shapeCast S1x64 (W8 m ρ c (Proc.devRef .tc main_arg8)) Facts₀.shapeCasts_S64_S1x64 := by
  show StableHlo.after hostOps3 (W8 m ρ c) (Proc.devRef .tc main_v49) = _
  dsimp only [hostOps3]
  after_results
  rfl

/-- The gathered source rows of the second layer. -/
theorem W12_rows : W12 m ρ c (Proc.devRef .tc main_v58)
    = Host.gather gather_S100000x16_S1700000x1_S1700000x16_1_0_n_n_0_1_116 (W11 m ρ c (Proc.devRef .tc main_v51))
        (Cert.Net.wrap (W11 m ρ c (Proc.devRef .tc main_v9))) := by
  show StableHlo.after hostOps5 (W11 m ρ c) (Proc.devRef .tc main_v58) = _
  dsimp only [hostOps5]
  after_results
  rfl

/-- The second layer's rows added at their targets. -/
theorem W14_sum : W14 m ρ c (Proc.devRef .tc main_v62)
    = Host.scatterAdd (F := Ideal) scatter_S100000x16_S1700000x1_S1700000x16_1_0_0_1
        (broadcastInDim S100000x16 ![] Facts₀.bcast_S_S100000x16 (constant (F := Ideal) S_ .f32 0x00000000#32))
        (Cert.Net.col (W13 m ρ c (Proc.devRef .tc main_v10))) (W13 m ρ c (Proc.devRef .tc main_v59)) := by
  show StableHlo.after hostOps6 (W13 m ρ c) (Proc.devRef .tc main_v62) = _
  dsimp only [hostOps6]
  after_results
  rfl

/-- The second layer's bias as a row. -/
theorem W14_bias : W14 m ρ c (Proc.devRef .tc main_v63)
    = shapeCast S1x16 (W13 m ρ c (Proc.devRef .tc main_arg10)) Facts₀.shapeCasts_S16_S1x16 := by
  show StableHlo.after hostOps6 (W13 m ρ c) (Proc.devRef .tc main_v63) = _
  dsimp only [hostOps6]
  after_results
  rfl

/-! ## The lists and the column where later stretches and stages read them -/

theorem W6_src : W6 m ρ c (Proc.devRef .tc main_v9) = Cert.Net.src (m ((c : Thread nD τ).loc main_arg1)) :=
  (W6_of_ne m ρ c main_v9 (by decide)).trans (W5_src m ρ c)
theorem W7_norm : W7 m ρ c (Proc.devRef .tc main_v36)
    = Cert.Net.normCol (m ((c : Thread nD τ).loc main_arg1)) (W2 m ρ c (Proc.devRef .tc main_v2)) :=
  ((kept hostOps2 (W6 m ρ c) main_v36 (by unwritten)).trans (W6_of_ne m ρ c main_v36 (by decide))).trans (W5_norm m ρ c)
theorem W8_tgt : W8 m ρ c (Proc.devRef .tc main_v10) = Cert.Net.tgt (m ((c : Thread nD τ).loc main_arg1)) :=
  (pass5_8 m ρ c main_v10 (by decide) (by unwritten) (by decide)).trans (W5_tgt m ρ c)
theorem W11_src : W11 m ρ c (Proc.devRef .tc main_v9) = Cert.Net.src (m ((c : Thread nD τ).loc main_arg1)) :=
  ((pass8_11 m ρ c main_v9 (by unwritten) (by decide) (by decide)).trans
    (pass5_8 m ρ c main_v9 (by decide) (by unwritten) (by decide))).trans (W5_src m ρ c)
theorem W12_norm : W12 m ρ c (Proc.devRef .tc main_v36)
    = Cert.Net.normCol (m ((c : Thread nD τ).loc main_arg1)) (W2 m ρ c (Proc.devRef .tc main_v2)) :=
  calc W12 m ρ c (Proc.devRef .tc main_v36)
    _ = W11 m ρ c (Proc.devRef .tc main_v36) := kept hostOps5 (W11 m ρ c) main_v36 (by unwritten)
    _ = W8 m ρ c (Proc.devRef .tc main_v36) := pass8_11 m ρ c main_v36 (by unwritten) (by decide) (by decide)
    _ = W7 m ρ c (Proc.devRef .tc main_v36) :=
      (W8_arr m ρ c 1).trans (((dat2 (V7 m ρ) c).arrAt_in 1 rfl _).trans (A_eq2 (V7 m ρ) c 1))
    _ = _ := W7_norm m ρ c
theorem W13_tgt : W13 m ρ c (Proc.devRef .tc main_v10) = Cert.Net.tgt (m ((c : Thread nD τ).loc main_arg1)) :=
  ((pass11_13 m ρ c main_v10 (by unwritten) (by decide)).trans
    (pass8_11 m ρ c main_v10 (by unwritten) (by decide) (by decide))).trans (W8_tgt m ρ c)

end Cert.KernelIdeal.Closed

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.LibLastAxisFolds.lean ====
/-
  Folds along the LAST axis of a rank-2 array at the ideal values, in the form a kernel's own text takes.

  A kernel's `vector.multi_reduction` carries two facts besides its operand: that its float type is one the
  operation is defined at, and that its accumulator is the operation's neutral word. A printed kernel states the
  first as the disjunction itself and the second as an equation between the two literal words. The lemmas here take
  the two facts in exactly that spelling, for any extents, so they rewrite a kernel's value as it stands:

  * `rowsum_fn` / `rowmax_fn`: the reduction, as a function of the row, is the sum over the row / the fold of `max`
    over the row from minus infinity. They contain no index, so `rw` can replace every reduction of a value before
    the value is read at an entry, also the ones that end up under a sum or a fold;
  * `rowsum_apply` / `rowmax_apply`: the same at a row given by its coordinate.

  With them: a one-column matrix `[a, 1]` laid out as one row `[1, a]` read at `(u, i)` is the column at `(i, 0)`, the
  counterpart of a vector laid out as a row; and square root, exponential and sigmoid of a vector read at an index.
-/
import Idealize.ShloMosaic.PureOps.Ideal.Laws
import Idealize.ShloMosaic.Lib.ValueIdx
import Idealize.ShloMosaic.Lib.Pipeline.Value

noncomputable section

namespace Cert.Lib.LastAxisFolds

open Idealize.ShloMosaic Idealize.ShloMosaic.ValueIdx

/-- A sum along the last axis from zero, read at its row: the sum over the row. -/
theorem rowsum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the last axis from minus infinity, read at its row: the fold of `max` over the row. -/
theorem rowmax_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin b)).fold max (Ideal.ofBits .f32 0xFF800000#32) f) (funext fun k => ?_)
  exact congrArg src (funext fun d => Fin.ext (by match d with | ⟨0, _⟩ => rfl | ⟨1, _⟩ => rfl))

/-- The sum along the last axis as a function of the row. -/
theorem rowsum_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) :
    multiReduction .add [1] ⟨1, ![a]⟩ src 0x00000000#32 h hφ hacc = fun j => ∑ k : Fin b, src (ix2 (j 0) k) :=
  funext fun j => by
    rw [eq_ix1 j]
    exact rowsum_apply src h hφ hacc (j 0)

/-- The maximum along the last axis as a function of the row. -/
theorem rowmax_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) :
    multiReduction .maximumf [1] ⟨1, ![a]⟩ src 0xFF800000#32 h hφ hacc
      = fun j => (Finset.univ : Finset (Fin b)).fold max (Ideal.ofBits .f32 0xFF800000#32) (fun k => src (ix2 (j 0) k)) :=
  funext fun j => by
    rw [eq_ix1 j]
    exact rowmax_apply src h hφ hacc (j 0)

/-- A one-column matrix laid out as one row reads, at `(u, i)`, the column's entry in row `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.mul_one, Nat.add_zero, Nat.zero_add])

/-- The square root of a vector read at an index. -/
theorem sqrt_apply {s : Shape} {φ : FTy} (a : FVec Ideal s φ) (i : s.Idx) : sqrt a i = Ideal.sqrt (a i) := rfl
/-- The exponential of a vector read at an index. -/
theorem exp_apply {s : Shape} {φ : FTy} (a : FVec Ideal s φ) (i : s.Idx) : exp a i = Ideal.exp (a i) := rfl
/-- The sigmoid of a vector read at an index. -/
theorem logistic_apply {s : Shape} {φ : FTy} (a : FVec Ideal s φ) (i : s.Idx) : logistic a i = Ideal.logistic (a i) := rfl

end Cert.Lib.LastAxisFolds

end
-- ==== Proof.EdgeNet.lean ====
/-
  The edge network, from blocks of rows to the whole array.

  The first region reads the edge features in blocks of 16000 rows and, whole at every point of its grid, the two
  weight matrices and the two biases; it writes one column of edge weights in blocks of 16000 rows. Entry `(p, 0)` of
  what the body computes from a block of rows is the sigmoid of the one output unit applied to the rectified hidden
  layer of row `p`: `σ(Σ_q max(Σ_r X[p,r]·W₁[r,q] + b₁[q], 0)·W₂[q] + b₂)`; the roundings to the short float format
  are the identity on the extended reals, and each matrix product accumulates into zero. Row `p` of the block at
  point `t` is row `16000·t + p` of the array, the blocks of the 100 points cover the 1600000 rows, so the output
  array after the region is the edge network of the input arrays, entry by entry, whatever the arrays hold when the
  region is entered.
-/
import proofs.«108055_j75402445849004_2_alg».proof.Proof.Gen.KernelIdeal.Frame
import proofs.«108055_j75402445849004_2_alg».proof.Proof.Layers
import proofs.«108055_j75402445849004_2_alg».proof.Proof.LibPlainMatmul
import proofs.«108055_j75402445849004_2_alg».proof.Proof.LibLastAxisFolds
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Closed

open Idealize.ShloMosaic Idealize.ShloMosaic.TcCoe Idealize.SL.Sem Idealize.ShloMosaic.ValueIdx Cert.KernelIdeal Cert.KernelIdeal.Gen
open Idealize.ShloMosaic.Pipeline (Dat)
open scoped BigOperators

variable (V : (c : Dev nD) → (b : Ref sig .tc) → Buf (Elt Ideal) ((c : Thread nD τ).loc b))

/-! ## The body's payload at an entry -/

/-- Entry `(p, u)` of the payload of a block of edge rows: the sigmoid of the output unit, applied to the rectified
    hidden layer of row `p` of the block. The roundings to the short float are the identity on the extended reals. -/
theorem edge_entry (x0 : Vec Ideal S16000x16 .f32) (x1 : Vec Ideal S16x32 .f32) (x2 : Vec Ideal S1x32 .f32)
    (x3 : Vec Ideal S32x1 .f32) (x4 : Vec Ideal S1x1 .f32) (p : Fin 16000) (u : Fin 1) :
    k0_pay1 x0 x1 x2 x3 x4 (ix2 p u)
      = Ideal.logistic ((∑ q : Fin 32,
          max ((∑ r : Fin 16, x0 (ix2 p r) * x1 (ix2 r q)) + x2 (ix2 (0 : Fin 1) q)) (Ideal.ofBits .f32 0x00000000#32)
            * x3 (ix2 q (0 : Fin 1)))
        + x4 (ix2 (0 : Fin 1) (0 : Fin 1))) := by
  obtain rfl : u = 0 := Subsingleton.elim _ _
  unfold k0_pay1
  rw [Cert.Lib.LastAxisFolds.logistic_apply, addf_apply]
  refine congrArg Ideal.logistic (congrArg₂ (· + ·) ?_ ?_)
  · refine (Cert.Lib.PlainMatmul.matmul_zero_apply dot_S16000x32_S32x1_S16000x1_1_0_0_1_n_n rfl rfl rfl rfl rfl rfl
      none _ _ p (0 : Fin 1)).trans ?_
    refine Finset.sum_congr rfl fun q _ => ?_
    rw [truncf_apply, truncf_apply, maximumf_apply, addf_apply, broadcast_apply]
    refine congrArg₂ (· * ·) (congrArg₂ max (congrArg₂ (· + ·) ?_ ?_) rfl) rfl
    · refine (Cert.Lib.PlainMatmul.matmul_zero_apply dot_S16000x16_S16x32_S16000x32_1_0_0_1_n_n rfl rfl rfl rfl rfl rfl
        none _ _ p q).trans ?_
      refine Finset.sum_congr rfl fun r _ => ?_
      rw [truncf_apply, truncf_apply]
    · rw [shapeCast_self]
      exact broadcastTo_1b_ab_apply _ _ p q
  · rw [shapeCast_self]
    exact broadcastTo_1b_ab_apply _ _ p (0 : Fin 1)

/-! ## From blocks to the array -/

theorem edge_origin : (![0, 0] : Fin 2 → Nat) = fun _ => 0 := funext fun a => by fin_cases a <;> rfl

/-- The printed index maps over the grid: the edge features and the output move down the rows, one block of
    16000 rows per point; every other operand is read whole at every point. -/
theorem edge_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem edge_point_lt (t : Fin cfg0.N) : t.val < 100 := lt_of_lt_of_eq t.isLt N_0

/-- Row `p` of the block of edge features at point `t` is row `16000 t + p` of the array. -/
theorem edge_rows (c : Dev nD) (t : Fin cfg0.N) (p : Fin 16000) (r : Fin 16) (e : Fin 1600000)
    (he : e.val = t.val * 16000 + p.val) :
    (Gen.iblk0 V c 0 t : Vec Ideal S16000x16 .f32) (ix2 p r) = (V c main_arg2 : FVec Ideal S1600000x16 .f32) (ix2 e r) := by
  obtain ⟨e0, e1, -⟩ := edge_index t
  unfold Gen.iblk0
  show (V c main_arg2 : FVec Ideal S1600000x16 .f32) (((cfg0.win 0).blk t).view.emb (ix2 p r)) = _
  refine congrArg _ (funext fun a => Fin.ext ?_)
  match a with
  | ⟨0, _⟩ => show win0_0.index t (0 : Fin 2) * 16000 + 1 * p.val = e.val; rw [e0, he]; omega
  | ⟨1, _⟩ => show win0_0.index t (1 : Fin 2) * 16 + 1 * r.val = r.val; rw [e1]; omega

/-- The first weight matrix is read whole at every point. -/
theorem edge_w1 (c : Dev nD) (t : Fin cfg0.N) (r : Fin 16) (q : Fin 32) :
    (Gen.iblk0 V c 1 t : Vec Ideal S16x32 .f32) (ix2 r q) = (V c main_arg3 : FVec Ideal S16x32 .f32) (ix2 r q) := by
  obtain ⟨-, -, e0, e1, -⟩ := edge_index t
  unfold Gen.iblk0
  show (V c main_arg3 : FVec Ideal S16x32 .f32) (((cfg0.win 1).blk t).view.emb (ix2 r q)) = _
  refine congrArg _ (funext fun a => Fin.ext ?_)
  match a with
  | ⟨0, _⟩ => show win0_1.index t (0 : Fin 2) * 16 + 1 * r.val = r.val; rw [e0]; omega
  | ⟨1, _⟩ => show win0_1.index t (1 : Fin 2) * 32 + 1 * q.val = q.val; rw [e1]; omega

/-- The first bias row is read whole at every point. -/
theorem edge_b1 (c : Dev nD) (t : Fin cfg0.N) (z : Fin 1) (q : Fin 32) :
    (Gen.iblk0 V c 2 t : Vec Ideal S1x32 .f32) (ix2 z q) = (V c main_v0 : FVec Ideal S1x32 .f32) (ix2 z q) := by
  obtain ⟨-, -, -, -, e0, e1, -⟩ := edge_index t
  unfold Gen.iblk0
  show (V c main_v0 : FVec Ideal S1x32 .f32) (((cfg0.win 2).blk t).view.emb (ix2 z q)) = _
  refine congrArg _ (funext fun a => Fin.ext ?_)
  match a with
  | ⟨0, _⟩ => show win0_2.index t (0 : Fin 2) * 1 + 1 * z.val = z.val; rw [e0]; omega
  | ⟨1, _⟩ => show win0_2.index t (1 : Fin 2) * 32 + 1 * q.val = q.val; rw [e1]; omega

/-- The second weight column is read whole at every point. -/
theorem edge_w2 (c : Dev nD) (t : Fin cfg0.N) (q : Fin 32) (z : Fin 1) :
    (Gen.iblk0 V c 3 t : Vec Ideal S32x1 .f32) (ix2 q z) = (V c main_arg5 : FVec Ideal S32x1 .f32) (ix2 q z) := by
  obtain ⟨-, -, -, -, -, -, e0, e1, -⟩ := edge_index t
  unfold Gen.iblk0
  show (V c main_arg5 : FVec Ideal S32x1 .f32) (((cfg0.win 3).blk t).view.emb (ix2 q z)) = _
  refine congrArg _ (funext fun a => Fin.ext ?_)
  match a with
  | ⟨0, _⟩ => show win0_3.index t (0 : Fin 2) * 32 + 1 * q.val = q.val; rw [e0]; omega
  | ⟨1, _⟩ => show win0_3.index t (1 : Fin 2) * 1 + 1 * z.val = z.val; rw [e1]; omega

/-- The second bias is read whole at every point. -/
theorem edge_b2 (c : Dev nD) (t : Fin cfg0.N) (z z' : Fin 1) :
    (Gen.iblk0 V c 4 t : Vec Ideal S1x1 .f32) (ix2 z z') = (V c main_v1 : FVec Ideal S1x1 .f32) (ix2 z z') := by
  obtain ⟨-, -, -, -, -, -, -, -, e0, e1, -⟩ := edge_index t
  unfold Gen.iblk0
  show (V c main_v1 : FVec Ideal S1x1 .f32) (((cfg0.win 4).blk t).view.emb (ix2 z z')) = _
  refine congrArg _ (funext fun a => Fin.ext ?_)
  match a with
  | ⟨0, _⟩ => show win0_4.index t (0 : Fin 2) * 1 + 1 * z.val = z.val; rw [e0]; omega
  | ⟨1, _⟩ => show win0_4.index t (1 : Fin 2) * 1 + 1 * z'.val = z'.val; rw [e1]; omega

/-- What point `t` writes back is block `t` of the edge network of the arrays as the region finds them. -/
theorem edge_flushed (c : Dev nD) (t : Fin cfg0.N) :
    (Gen.dat0 (F := Ideal) V c).flushed 5 t = ((cfg0.win 5).blk t).view.read (Elt Ideal) (Cert.Layer.edgeWeight (V c main_arg2 : FVec Ideal S1600000x16 .f32) (V c main_arg3 : FVec Ideal S16x32 .f32)
        (V c main_v0 : FVec Ideal S1x32 .f32) (V c main_arg5 : FVec Ideal S32x1 .f32) (V c main_v1 : FVec Ideal S1x1 .f32)) := by
  show (cfg0.win 5).cut (grid0.coords t) ((Gen.dat0 V c).after 5 t) = _
  rw [Gen.after0_5]
  unfold Gen.out0_5
  rw [View.canon_unit_zero edge_origin]
  simp only [View.ld_unit_zero (S := S16000x16) edge_origin, View.ld_unit_zero (S := S16x32) edge_origin,
    View.ld_unit_zero (S := S1x32) edge_origin, View.ld_unit_zero (S := S32x1) edge_origin,
    View.ld_unit_zero (S := S1x1) edge_origin]
  obtain ⟨-, -, -, -, -, -, -, -, -, -, e0, e1⟩ := edge_index t
  have ht := edge_point_lt t
  funext y
  obtain ⟨p, u, rfl⟩ : ∃ (p : Fin 16000) (u : Fin 1), y = ix2 p u := ⟨y 0, y 1, eq_ix2 y⟩
  have hlt : t.val * 16000 + p.val < 1600000 := by have := p.isLt; omega
  show k0_pay1 (Gen.iblk0 V c 0 t) (Gen.iblk0 V c 1 t) (Gen.iblk0 V c 2 t) (Gen.iblk0 V c 3 t) (Gen.iblk0 V c 4 t) (ix2 p u) = _
  refine (edge_entry _ _ _ _ _ p u).trans ?_
  have hemb : ((cfg0.win 5).blk t).view.emb (ix2 p u) = (ix2 (⟨t.val * 16000 + p.val, hlt⟩ : Fin 1600000) u : S1600000x1.Idx) := by
    funext a; apply Fin.ext
    match a with
    | ⟨0, _⟩ => show win0_5.index t (0 : Fin 2) * 16000 + 1 * p.val = t.val * 16000 + p.val; rw [e0]; omega
    | ⟨1, _⟩ => show win0_5.index t (1 : Fin 2) * 1 + 1 * u.val = u.val; rw [e1]; omega
  rw [View.read_apply, hemb, Cert.Layer.edgeWeight_apply]
  refine congrArg Ideal.logistic (congrArg₂ (· + ·) (Finset.sum_congr rfl fun q _ => ?_) (edge_b2 V c t 0 0))
  refine congrArg₂ (· * ·) (congrArg₂ max (congrArg₂ (· + ·) (Finset.sum_congr rfl fun r _ => ?_) (edge_b1 V c t 0 q)) rfl)
    (edge_w2 V c t q 0)
  exact congrArg₂ (· * ·) (edge_rows V c t p r _ rfl) (edge_w1 V c t r q)

/-- An index of the output array is in point `t`'s block iff each coordinate is in the block's range on its axis. -/
theorem edge_mem (t : Fin cfg0.N) (i : S1600000x1.Idx) :
    i ∈ ((cfg0.win 5).blk t).view.set ↔ ∀ a : Fin 2, win0_5.index t a * S16000x1.size a ≤ (i a).val
      ∧ (i a).val < win0_5.index t a * S16000x1.size a + S16000x1.size a := by
  show i ∈ ((View.whole main_v2).slice (win0_5.rect t)).set ↔ _
  rw [View.set_slice_whole, Rect.mem_set_unit]
  exact Iff.rfl

/-- Every row of the output is in some point's block: row `r` in the block of point `r / 16000`. -/
theorem edge_cover (i : S1600000x1.Idx) :
    ∃ t : Fin cfg0.N, (cfg0.win 5).flush t = true ∧ i ∈ ((cfg0.win 5).blk t).view.set := by
  have hi0 : (i 0).val < 1600000 := (i 0).isLt
  have hi1 : (i 1).val < 1 := (i 1).isLt
  have hN : (i 0).val / 16000 < cfg0.N := by rw [show cfg0.N = 100 from N_0]; omega
  obtain ⟨-, -, -, -, -, -, -, -, -, -, e0, e1⟩ := edge_index ⟨(i 0).val / 16000, hN⟩
  refine ⟨⟨(i 0).val / 16000, hN⟩, flush0_5 _, ?_⟩
  rw [edge_mem]
  intro a
  match a with
  | ⟨0, _⟩ =>
    show win0_5.index ⟨(i 0).val / 16000, hN⟩ (0 : Fin 2) * 16000 ≤ (i 0).val
      ∧ (i 0).val < win0_5.index ⟨(i 0).val / 16000, hN⟩ (0 : Fin 2) * 16000 + 16000
    rw [e0]; show (i 0).val / 16000 * 16000 ≤ (i 0).val ∧ (i 0).val < (i 0).val / 16000 * 16000 + 16000; omega
  | ⟨1, _⟩ =>
    show win0_5.index ⟨(i 0).val / 16000, hN⟩ (1 : Fin 2) * 1 ≤ (i 1).val
      ∧ (i 1).val < win0_5.index ⟨(i 0).val / 16000, hN⟩ (1 : Fin 2) * 1 + 1
    rw [e1]; omega

/-- The output array after the region: the edge network of the arrays as the region finds them, entry by entry. -/
theorem final0 (c : Dev nD) : (Gen.dat0 (F := Ideal) V c).arrAt 5 cfg0.N = (Cert.Layer.edgeWeight (V c main_arg2 : FVec Ideal S1600000x16 .f32) (V c main_arg3 : FVec Ideal S16x32 .f32)
        (V c main_v0 : FVec Ideal S1x32 .f32) (V c main_arg5 : FVec Ideal S32x1 .f32) (V c main_v1 : FVec Ideal S1x1 .f32)) :=
  (Gen.dat0 (F := Ideal) V c).arrAt_eq_of_cover 5 _ (fun t _ => edge_flushed V c t) edge_cover

end Cert.KernelIdeal.Closed

end
-- ==== Proof.DenseA.lean ====
/-
  The first dense stage of the graph convolution, read off the row-blocked matrix-product region as one function
  of whole arrays.

  The region walks the 100000 rows of the feature matrix in 10 blocks of 10000 rows. At block `t` it loads rows
  `10000·t … 10000·t + 9999` of the `[100000, 128]` features and the whole `[128, 64]` weight matrix, rounds both to
  the narrower float format (the identity on the extended reals), multiplies them into a zero accumulator, and writes
  the `[10000, 64]` product back as rows `10000·t … 10000·t + 9999` of the output.

  * `pay1_apply`: entry `(p, q)` of one block's product is `Σ_k X[p, k] · W[k, q]`.
  * `idx_facts1`: at point `t` the feature block and the output block are block `t` along the rows and block `0`
    along the columns; the weight block is block `(0, 0)`.
  * `flushed1_eq`: what point `t` writes back is block `t` of `dense A W`, because row `p` of block `t` is row
    `10000·t + p` of the array and a row of the product only reads the same row of `A`.
  * `cover1`: row `r` of the output lies in block `r / 10000`, so the blocks cover the array.
  * `final1`: the output array after the region is `dense A W`.
-/
import proofs.«108055_j75402445849004_2_alg».proof.Proof.Gen.KernelIdeal.Frame
import proofs.«108055_j75402445849004_2_alg».proof.Proof.Layers
import Idealize.ShloMosaic.Lib.Pipeline.Value
import Idealize.ShloMosaic.Lib.ValueIdx
import Idealize.ShloMosaic.Lib.ValueLayout
import Idealize.ShloMosaic.PureOps.Ideal.Laws
import proofs.«108055_j75402445849004_2_alg».proof.Proof.LibPlainMatmul

noncomputable section

namespace Cert.KernelIdeal.Closed

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The zero offsets of a whole-buffer rectangle, as the constant function. -/
theorem offsets_zero1 : (![0, 0] : Fin 2 → Nat) = fun _ => 0 := funext fun a => by fin_cases a <;> rfl

/-- Entry `(p, q)` of one block's product: the rounding to the narrower format is the identity on the extended
    reals, and the product into the zero accumulator is the sum over the contracted axis. -/
theorem pay1_apply (x0 : Vec Ideal S10000x128 .f32) (x1 : Vec Ideal S128x64 .f32) (p : Fin 10000) (q : Fin 64) :
    Gen.k1_pay1 x0 x1 (ix2 p q) = ∑ k : Fin 128, x0 (ix2 p k) * x1 (ix2 k q) := by
  unfold Gen.k1_pay1
  refine (Cert.Lib.PlainMatmul.matmul_zero_apply dot_S10000x128_S128x64_S10000x64_1_0_0_1_n_n rfl rfl rfl rfl rfl rfl none _ _ p q).trans ?_
  rfl

/-- The block indices at point `t`: the features and the output move down the rows with `t`, the weights stay. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the product of the whole arrays. -/
theorem flushed1_eq (c : Dev nD) (t : Fin cfg1.N) :
    (Gen.dat1 (F := Ideal) V c).flushed 2 t = ((cfg1.win 2).blk t).view.read (Elt Ideal)
      (Cert.Layer.dense (V c main_arg0 : FVec Ideal S100000x128 .f32) (V c main_arg7 : FVec Ideal S128x64 .f32)) := by
  show (cfg1.win 2).cut (grid1.coords t) ((Gen.dat1 V c).after 2 t) = _
  rw [Gen.after1_2]
  unfold Gen.out1_2
  rw [View.canon_unit_zero offsets_zero1]
  simp only [View.ld_unit_zero (S := S10000x128) offsets_zero1, View.ld_unit_zero (S := S128x64) offsets_zero1]
  obtain ⟨e00, e01, e10, e11, e20, e21⟩ := idx_facts1 t
  have hN : cfg1.N = 10 := Gen.N_1
  have ht : t.val < 10 := by have := t.isLt; omega
  funext y
  obtain ⟨p, q, rfl⟩ : ∃ (p : Fin 10000) (q : Fin 64), y = ix2 p q := ⟨y 0, y 1, eq_ix2 y⟩
  have hp : p.val < 10000 := p.isLt
  -- the row of the array under row `p` of block `t`
  have hr : t.val * 10000 + p.val < 100000 := by omega
  have hout : ((cfg1.win 2).blk t).view.emb (ix2 p q) = (ix2 (⟨t.val * 10000 + p.val, hr⟩ : Fin 100000) q : S100000x64.Idx) := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  show Gen.k1_pay1 (Gen.iblk1 V c 0 t) (Gen.iblk1 V c 1 t) (ix2 p q)
    = Cert.Layer.dense (V c main_arg0 : FVec Ideal S100000x128 .f32) (V c main_arg7 : FVec Ideal S128x64 .f32) (((cfg1.win 2).blk t).view.emb (ix2 p q))
  rw [hout]
  refine (pay1_apply _ _ p q).trans ?_
  refine Eq.trans ?_ (Cert.Layer.dense_apply _ _ _ _).symm
  refine Finset.sum_congr rfl fun k _ => ?_
  have hk : k.val < 128 := k.isLt
  have hq : q.val < 64 := q.isLt
  have hA : Gen.iblk1 V c 0 t (ix2 p k) = (V c main_arg0 : FVec Ideal S100000x128 .f32) (ix2 (⟨t.val * 10000 + p.val, hr⟩ : Fin 100000) k) := by
    show V c main_arg0 (((cfg1.win 0).blk t).view.emb (ix2 p k)) = V c main_arg0 _
    refine congrArg _ ?_
    funext a; apply Fin.ext
    match a with
    | ⟨0, _⟩ => show win1_0.index t (0 : Fin 2) * 10000 + 1 * p.val = t.val * 10000 + p.val; omega
    | ⟨1, _⟩ => show win1_0.index t (1 : Fin 2) * 128 + 1 * k.val = k.val; omega
  have hW : Gen.iblk1 V c 1 t (ix2 k q) = (V c main_arg7 : FVec Ideal S128x64 .f32) (ix2 k q) := by
    show V c main_arg7 (((cfg1.win 1).blk t).view.emb (ix2 k q)) = V c main_arg7 _
    refine congrArg _ ?_
    funext a; apply Fin.ext
    match a with
    | ⟨0, _⟩ => show win1_1.index t (0 : Fin 2) * 128 + 1 * k.val = k.val; omega
    | ⟨1, _⟩ => show win1_1.index t (1 : Fin 2) * 64 + 1 * q.val = q.val; omega
  rw [hA, hW]

/-- An index of the output array is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v37).slice (win1_2.rect t)).set ↔ _
  rw [View.set_slice_whole, Rect.mem_set_unit]
  exact Iff.rfl

/-- Row `r` of the output lies in the block of point `r / 10000`: the blocks cover the array. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := Gen.N_1
  have hlt : (i 0).val / 10000 < cfg1.N := by rw [hN]; omega
  obtain ⟨-, -, -, -, e20, e21⟩ := idx_facts1 ⟨(i 0).val / 10000, hlt⟩
  refine ⟨⟨(i 0).val / 10000, hlt⟩, Gen.flush1_2 _, ?_⟩
  rw [mem_blk1]
  intro a
  match a with
  | ⟨0, _⟩ =>
    show win1_2.index ⟨(i 0).val / 10000, hlt⟩ (0 : Fin 2) * 10000 ≤ (i 0).val
      ∧ (i 0).val < win1_2.index ⟨(i 0).val / 10000, hlt⟩ (0 : Fin 2) * 10000 + 10000
    rw [e20]
    show (i 0).val / 10000 * 10000 ≤ (i 0).val ∧ (i 0).val < (i 0).val / 10000 * 10000 + 10000
    omega
  | ⟨1, _⟩ =>
    show win1_2.index ⟨(i 0).val / 10000, hlt⟩ (1 : Fin 2) * 64 ≤ (i 1).val
      ∧ (i 1).val < win1_2.index ⟨(i 0).val / 10000, hlt⟩ (1 : Fin 2) * 64 + 64
    rw [e21]
    omega

/-- The output array after the region is the product of the whole arrays. -/
theorem final1 (c : Dev nD) :
    (Gen.dat1 (F := Ideal) V c).arrAt 2 cfg1.N
      = Cert.Layer.dense (V c main_arg0 : FVec Ideal S100000x128 .f32) (V c main_arg7 : FVec Ideal S128x64 .f32) :=
  (Gen.dat1 V c).arrAt_eq_of_cover 2 _ (fun t _ => flushed1_eq V c t) cover1

end Cert.KernelIdeal.Closed

end
-- ==== Proof.DenseB.lean ====
/-
  The second dense stage of the graph convolution, read off the row-blocked matrix-product region as one function
  of whole arrays.

  The region walks the 100000 rows of the hidden features in 10 blocks of 10000 rows. At block `t` it loads rows
  `10000·t … 10000·t + 9999` of the `[100000, 64]` hidden features and the whole `[64, 16]` weight matrix, recasts the
  feature block to its own shape (the identity), rounds both to the narrower float format (the identity on the
  extended reals), multiplies them into a zero accumulator, and writes the `[10000, 16]` product back as rows
  `10000·t … 10000·t + 9999` of the output.

  * `pay4_apply`: entry `(p, q)` of one block's product is `Σ_k H[p, k] · W[k, q]`.
  * `idx_facts4`: at point `t` the feature block and the output block are block `t` along the rows and block `0`
    along the columns; the weight block is block `(0, 0)`.
  * `flushed4_eq`: what point `t` writes back is block `t` of `dense H W`, because row `p` of block `t` is row
    `10000·t + p` of the array and a row of the product only reads the same row of `H`.
  * `cover4`: row `r` of the output lies in block `r / 10000`, so the blocks cover the array.
  * `final4`: the output array after the region is `dense H W`.
-/
import proofs.«108055_j75402445849004_2_alg».proof.Proof.Gen.KernelIdeal.Frame
import proofs.«108055_j75402445849004_2_alg».proof.Proof.Layers
import Idealize.ShloMosaic.Lib.Pipeline.Value
import Idealize.ShloMosaic.Lib.ValueIdx
import Idealize.ShloMosaic.Lib.ValueLayout
import Idealize.ShloMosaic.PureOps.Ideal.Laws
import proofs.«108055_j75402445849004_2_alg».proof.Proof.LibPlainMatmul

noncomputable section

namespace Cert.KernelIdeal.Closed

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The zero offsets of a whole-buffer rectangle, as the constant function. -/
theorem offsets_zero4 : (![0, 0] : Fin 2 → Nat) = fun _ => 0 := funext fun a => by fin_cases a <;> rfl

/-- Entry `(p, q)` of one block's product: the recast to the same shape and the rounding to the narrower format
    are the identity on the extended reals, and the product into the zero accumulator is the sum over the
    contracted axis. -/
theorem pay4_apply (x0 : Vec Ideal S10000x64 .f32) (x1 : Vec Ideal S64x16 .f32) (p : Fin 10000) (q : Fin 16) :
    Gen.k4_pay1 x0 x1 (ix2 p q) = ∑ k : Fin 64, x0 (ix2 p k) * x1 (ix2 k q) := by
  unfold Gen.k4_pay1
  refine (Cert.Lib.PlainMatmul.matmul_zero_apply dot_S10000x64_S64x16_S10000x16_1_0_0_1_n_n rfl rfl rfl rfl rfl rfl none _ _ p q).trans ?_
  rw [shapeCast_self]
  rfl

/-- The block indices at point `t`: the features and the output move down the rows with `t`, the weights stay. -/
theorem idx_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point `t` writes back is block `t` of the product of the whole arrays. -/
theorem flushed4_eq (c : Dev nD) (t : Fin cfg4.N) :
    (Gen.dat4 (F := Ideal) V c).flushed 2 t = ((cfg4.win 2).blk t).view.read (Elt Ideal)
      (Cert.Layer.dense (V c main_v50 : FVec Ideal S100000x64 .f32) (V c main_arg9 : FVec Ideal S64x16 .f32)) := by
  show (cfg4.win 2).cut (grid4.coords t) ((Gen.dat4 V c).after 2 t) = _
  rw [Gen.after4_2]
  unfold Gen.out4_2
  rw [View.canon_unit_zero offsets_zero4]
  simp only [View.ld_unit_zero (S := S10000x64) offsets_zero4, View.ld_unit_zero (S := S64x16) offsets_zero4]
  obtain ⟨e00, e01, e10, e11, e20, e21⟩ := idx_facts4 t
  have hN : cfg4.N = 10 := Gen.N_4
  have ht : t.val < 10 := by have := t.isLt; omega
  funext y
  obtain ⟨p, q, rfl⟩ : ∃ (p : Fin 10000) (q : Fin 16), y = ix2 p q := ⟨y 0, y 1, eq_ix2 y⟩
  have hp : p.val < 10000 := p.isLt
  -- the row of the array under row `p` of block `t`
  have hr : t.val * 10000 + p.val < 100000 := by omega
  have hout : ((cfg4.win 2).blk t).view.emb (ix2 p q) = (ix2 (⟨t.val * 10000 + p.val, hr⟩ : Fin 100000) q : S100000x16.Idx) := by
    funext a; apply Fin.ext
    match a with
    | ⟨0, _⟩ => show win4_2.index t (0 : Fin 2) * 10000 + 1 * p.val = t.val * 10000 + p.val; omega
    | ⟨1, _⟩ => show win4_2.index t (1 : Fin 2) * 16 + 1 * q.val = q.val; omega
  show Gen.k4_pay1 (Gen.iblk4 V c 0 t) (Gen.iblk4 V c 1 t) (ix2 p q)
    = Cert.Layer.dense (V c main_v50 : FVec Ideal S100000x64 .f32) (V c main_arg9 : FVec Ideal S64x16 .f32) (((cfg4.win 2).blk t).view.emb (ix2 p q))
  rw [hout]
  refine (pay4_apply _ _ p q).trans ?_
  refine Eq.trans ?_ (Cert.Layer.dense_apply _ _ _ _).symm
  refine Finset.sum_congr rfl fun k _ => ?_
  have hk : k.val < 64 := k.isLt
  have hq : q.val < 16 := q.isLt
  have hA : Gen.iblk4 V c 0 t (ix2 p k) = (V c main_v50 : FVec Ideal S100000x64 .f32) (ix2 (⟨t.val * 10000 + p.val, hr⟩ : Fin 100000) k) := by
    show V c main_v50 (((cfg4.win 0).blk t).view.emb (ix2 p k)) = V c main_v50 _
    refine congrArg _ ?_
    funext a; apply Fin.ext
    match a with
    | ⟨0, _⟩ => show win4_0.index t (0 : Fin 2) * 10000 + 1 * p.val = t.val * 10000 + p.val; omega
    | ⟨1, _⟩ => show win4_0.index t (1 : Fin 2) * 64 + 1 * k.val = k.val; omega
  have hW : Gen.iblk4 V c 1 t (ix2 k q) = (V c main_arg9 : FVec Ideal S64x16 .f32) (ix2 k q) := by
    show V c main_arg9 (((cfg4.win 1).blk t).view.emb (ix2 k q)) = V c main_arg9 _
    refine congrArg _ ?_
    funext a; apply Fin.ext
    match a with
    | ⟨0, _⟩ => show win4_1.index t (0 : Fin 2) * 64 + 1 * k.val = k.val; omega
    | ⟨1, _⟩ => show win4_1.index t (1 : Fin 2) * 16 + 1 * q.val = q.val; omega
  rw [hA, hW]

/-- An index of the output array is in point `t`'s block iff each coordinate is in the block's range on its axis. -/
theorem mem_blk4 (t : Fin cfg4.N) (i : S100000x16.Idx) :
    i ∈ ((cfg4.win 2).blk t).view.set ↔ ∀ a : Fin 2, win4_2.index t a * S10000x16.size a ≤ (i a).val ∧ (i a).val < win4_2.index t a * S10000x16.size a + S10000x16.size a := by
  show i ∈ ((View.whole main_v51).slice (win4_2.rect t)).set ↔ _
  rw [View.set_slice_whole, Rect.mem_set_unit]
  exact Iff.rfl

/-- Row `r` of the output lies in the block of point `r / 10000`: the blocks cover the array. -/
theorem cover4 (i : S100000x16.Idx) :
    ∃ t : Fin cfg4.N, (cfg4.win 2).flush t = true ∧ i ∈ ((cfg4.win 2).blk t).view.set := by
  have hi0 : (i 0).val < 100000 := (i 0).isLt
  have hi1 : (i 1).val < 16 := (i 1).isLt
  have hN : cfg4.N = 10 := Gen.N_4
  have hlt : (i 0).val / 10000 < cfg4.N := by rw [hN]; omega
  obtain ⟨-, -, -, -, e20, e21⟩ := idx_facts4 ⟨(i 0).val / 10000, hlt⟩
  refine ⟨⟨(i 0).val / 10000, hlt⟩, Gen.flush4_2 _, ?_⟩
  rw [mem_blk4]
  intro a
  match a with
  | ⟨0, _⟩ =>
    show win4_2.index ⟨(i 0).val / 10000, hlt⟩ (0 : Fin 2) * 10000 ≤ (i 0).val
      ∧ (i 0).val < win4_2.index ⟨(i 0).val / 10000, hlt⟩ (0 : Fin 2) * 10000 + 10000
    rw [e20]
    show (i 0).val / 10000 * 10000 ≤ (i 0).val ∧ (i 0).val < (i 0).val / 10000 * 10000 + 10000
    omega
  | ⟨1, _⟩ =>
    show win4_2.index ⟨(i 0).val / 10000, hlt⟩ (1 : Fin 2) * 16 ≤ (i 1).val
      ∧ (i 1).val < win4_2.index ⟨(i 0).val / 10000, hlt⟩ (1 : Fin 2) * 16 + 16
    rw [e21]
    omega

/-- The output array after the region is the product of the whole arrays. -/
theorem final4 (c : Dev nD) :
    (Gen.dat4 (F := Ideal) V c).arrAt 2 cfg4.N
      = Cert.Layer.dense (V c main_v50 : FVec Ideal S100000x64 .f32) (V c main_arg9 : FVec Ideal S64x16 .f32) :=
  (Gen.dat4 V c).arrAt_eq_of_cover 2 _ (fun t _ => flushed4_eq V c t) cover4

end Cert.KernelIdeal.Closed

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.ScaleA.lean ====
/-
  The first row-scaling stage: every gathered source row, 64 wide, is multiplied by its edge's normalisation
  weight. The stage runs over 170 blocks of 10000 rows; block `t` of the result is rows `10000·t … 10000·t + 9999`,
  and entry `(r, c)` of it is `G[r, c] · s[r]` of the two arrays as the stage finds them. The blocks tile the
  array, so the array after the stage is that function of the two input arrays everywhere.
-/
import proofs.«108055_j75402445849004_2_alg».proof.Proof.Gen.KernelIdeal.Frame
import proofs.«108055_j75402445849004_2_alg».proof.Proof.Layers
import proofs.«108055_j75402445849004_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Closed

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- Block `t` of each of the three windows is row block `t`, all columns. -/
theorem scaleA_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The body at an entry of the block: the row's entry times the row's weight. -/
theorem scaleA_entry (x0 : Vec Ideal S10000x64 .f32) (x1 : Vec Ideal S10000x1 .f32) (p : Fin 10000) (q : Fin 64) :
    k2_pay1 x0 x1 (ix2 p q) = x0 (ix2 p q) * x1 (ix2 p (0 : Fin 1)) := by
  unfold k2_pay1
  rw [mulf_apply, shapeCast_self, shapeCast_self, ColumnLayout.broadcastTo_a1_ab_apply]

/-- Entry `(p, q)` of the feature block at point `t` is entry `(10000·t + p, q)` of the array. -/
theorem scaleA_rows (c : Dev nD) (t : Fin cfg2.N) (p : Fin 10000) (q : Fin 64) (r : Fin 1700000)
    (hr : r.val = t.val * 10000 + p.val) :
    (iblk2 V c 0 t : Vec Ideal S10000x64 .f32) (ix2 p q) = (V c main_v44 : S1700000x64.Idx → EReal) (ix2 r q) := by
  obtain ⟨e0, e1, -, -, -, -⟩ := scaleA_index t
  unfold iblk2
  rw [View.read_apply]
  show V c main_v44 _ = V c main_v44 _
  congr 1
  funext a
  apply Fin.ext
  match a with
  | ⟨0, _⟩ => show win2_0.index t 0 * 10000 + 1 * p.val = r.val; rw [e0, hr]; omega
  | ⟨1, _⟩ => show win2_0.index t 1 * 64 + 1 * q.val = q.val; rw [e1]; omega

/-- Entry `(p, 0)` of the weight block at point `t` is entry `(10000·t + p, 0)` of the weight column. -/
theorem scaleA_weights (c : Dev nD) (t : Fin cfg2.N) (p : Fin 10000) (r : Fin 1700000)
    (hr : r.val = t.val * 10000 + p.val) :
    (iblk2 V c 1 t : Vec Ideal S10000x1 .f32) (ix2 p (0 : Fin 1)) = (V c main_v36 : S1700000x1.Idx → EReal) (ix2 r (0 : Fin 1)) := by
  obtain ⟨-, -, e2, e3, -, -⟩ := scaleA_index t
  unfold iblk2
  rw [View.read_apply]
  show V c main_v36 _ = V c main_v36 _
  congr 1
  funext a
  apply Fin.ext
  match a with
  | ⟨0, _⟩ => show win2_1.index t 0 * 10000 + 1 * p.val = r.val; rw [e2, hr]; omega
  | ⟨1, _⟩ => show win2_1.index t 1 * 1 + 1 * 0 = 0; rw [e3]

/-- What point `t` writes back is block `t` of the scaled array. -/
theorem scaleA_flushed (c : Dev nD) (t : Fin cfg2.N) :
    (dat2 V c).flushed 2 t = ((cfg2.win 2).blk t).view.read (Elt Ideal)
      (Cert.Layer.scaleRows (V c main_v44 : FVec Ideal S1700000x64 .f32) (V c main_v36 : FVec Ideal S1700000x1 .f32)) := by
  show (cfg2.win 2).cut (grid2.coords t) ((dat2 V c).after 2 t) = _
  rw [after2_2]
  unfold out2_2
  rw [View.canon_unit_zero origin2]
  simp only [View.ld_unit_zero (S := S10000x64) origin2, View.ld_unit_zero (S := S10000x1) origin2]
  obtain ⟨-, -, -, -, e4, e5⟩ := scaleA_index t
  funext y
  obtain ⟨p, q, rfl⟩ : ∃ (p : Fin 10000) (q : Fin 64), y = ix2 p q := ⟨y 0, y 1, eq_ix2 y⟩
  have ht : t.val < 170 := t.isLt
  have hr : t.val * 10000 + p.val < 1700000 := by have := p.isLt; omega
  have hemb : ((cfg2.win 2).blk t).view.emb (ix2 p q) = (ix2 (⟨t.val * 10000 + p.val, hr⟩ : Fin 1700000) q : S1700000x64.Idx) := by
    funext a
    apply Fin.ext
    match a with
    | ⟨0, _⟩ => show win2_2.index t 0 * 10000 + 1 * p.val = t.val * 10000 + p.val; rw [e4]; omega
    | ⟨1, _⟩ => show win2_2.index t 1 * 64 + 1 * q.val = q.val; rw [e5]; omega
  show k2_pay1 (iblk2 V c 0 t) (iblk2 V c 1 t) (ix2 p q) = Cert.Layer.scaleRows _ _ (((cfg2.win 2).blk t).view.emb (ix2 p q))
  rw [hemb, Cert.Layer.scaleRows_apply]
  refine (scaleA_entry (iblk2 V c 0 t) (iblk2 V c 1 t) p q).trans ?_
  rw [scaleA_rows V c t p q ⟨t.val * 10000 + p.val, hr⟩ rfl, scaleA_weights V c t p ⟨t.val * 10000 + p.val, hr⟩ rfl]

/-- An index of the array is in point `t`'s block iff each coordinate is in the block's range on its axis. -/
theorem scaleA_mem (t : Fin cfg2.N) (i : S1700000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v45).slice (win2_2.rect t)).set ↔ _
  rw [View.set_slice_whole, Rect.mem_set_unit]
  exact Iff.rfl

/-- Row `r` lies in block `r / 10000`: the blocks tile the array. -/
theorem scaleA_cover (i : S1700000x64.Idx) :
    ∃ t : Fin cfg2.N, (cfg2.win 2).flush t = true ∧ i ∈ ((cfg2.win 2).blk t).view.set := by
  have hi0 : (i 0).val < 1700000 := (i 0).isLt
  have hi1 : (i 1).val < 64 := (i 1).isLt
  have hN : cfg2.N = 170 := N_2
  have ht : (i 0).val / 10000 < cfg2.N := by rw [hN]; omega
  refine ⟨⟨(i 0).val / 10000, ht⟩, flush2_2 _, ?_⟩
  obtain ⟨-, -, -, -, e4, e5⟩ := scaleA_index ⟨(i 0).val / 10000, ht⟩
  rw [scaleA_mem]
  intro a
  match a with
  | ⟨0, _⟩ =>
    show win2_2.index ⟨(i 0).val / 10000, ht⟩ 0 * 10000 ≤ (i 0).val ∧ (i 0).val < win2_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ 1 * 64 ≤ (i 1).val ∧ (i 1).val < win2_2.index ⟨(i 0).val / 10000, ht⟩ 1 * 64 + 64
    rw [e5]; omega

/-- The array after the stage: every row of the features times its weight. -/
theorem final2 (c : Dev nD) :
    (dat2 V c).arrAt 2 cfg2.N
      = Cert.Layer.scaleRows (V c main_v44 : FVec Ideal S1700000x64 .f32) (V c main_v36 : FVec Ideal S1700000x1 .f32) :=
  (dat2 V c).arrAt_eq_of_cover 2 _ (fun t _ => scaleA_flushed V c t) scaleA_cover

end Cert.KernelIdeal.Closed

end
-- ==== Proof.ScaleB.lean ====
/-
  The second row-scaling stage: every gathered source row, 16 wide, is multiplied by its edge's normalisation
  weight. The stage runs over 170 blocks of 10000 rows; block `t` of the result is rows `10000·t … 10000·t + 9999`,
  and entry `(r, c)` of it is `G[r, c] · s[r]` of the two arrays as the stage finds them. The blocks tile the
  array, so the array after the stage is that function of the two input arrays everywhere.
-/
import proofs.«108055_j75402445849004_2_alg».proof.Proof.Gen.KernelIdeal.Frame
import proofs.«108055_j75402445849004_2_alg».proof.Proof.Layers
import proofs.«108055_j75402445849004_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Closed

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

theorem originB : (![0, 0] : Fin 2 → Nat) = fun _ => 0 := funext fun a => by fin_cases a <;> rfl

/-- Block `t` of each of the three windows is row block `t`, all columns. -/
theorem scaleB_index : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The body at an entry of the block: the row's entry times the row's weight. -/
theorem scaleB_entry (x0 : Vec Ideal S10000x16 .f32) (x1 : Vec Ideal S10000x1 .f32) (p : Fin 10000) (q : Fin 16) :
    k5_pay1 x0 x1 (ix2 p q) = x0 (ix2 p q) * x1 (ix2 p (0 : Fin 1)) := by
  unfold k5_pay1
  rw [mulf_apply, shapeCast_self, shapeCast_self, ColumnLayout.broadcastTo_a1_ab_apply]

/-- Entry `(p, q)` of the feature block at point `t` is entry `(10000·t + p, q)` of the array. -/
theorem scaleB_rows (c : Dev nD) (t : Fin cfg5.N) (p : Fin 10000) (q : Fin 16) (r : Fin 1700000)
    (hr : r.val = t.val * 10000 + p.val) :
    (iblk5 V c 0 t : Vec Ideal S10000x16 .f32) (ix2 p q) = (V c main_v58 : S1700000x16.Idx → EReal) (ix2 r q) := by
  obtain ⟨e0, e1, -, -, -, -⟩ := scaleB_index t
  unfold iblk5
  rw [View.read_apply]
  show V c main_v58 _ = V c main_v58 _
  congr 1
  funext a
  apply Fin.ext
  match a with
  | ⟨0, _⟩ => show win5_0.index t 0 * 10000 + 1 * p.val = r.val; rw [e0, hr]; omega
  | ⟨1, _⟩ => show win5_0.index t 1 * 16 + 1 * q.val = q.val; rw [e1]; omega

/-- Entry `(p, 0)` of the weight block at point `t` is entry `(10000·t + p, 0)` of the weight column. -/
theorem scaleB_weights (c : Dev nD) (t : Fin cfg5.N) (p : Fin 10000) (r : Fin 1700000)
    (hr : r.val = t.val * 10000 + p.val) :
    (iblk5 V c 1 t : Vec Ideal S10000x1 .f32) (ix2 p (0 : Fin 1)) = (V c main_v36 : S1700000x1.Idx → EReal) (ix2 r (0 : Fin 1)) := by
  obtain ⟨-, -, e2, e3, -, -⟩ := scaleB_index t
  unfold iblk5
  rw [View.read_apply]
  show V c main_v36 _ = V c main_v36 _
  congr 1
  funext a
  apply Fin.ext
  match a with
  | ⟨0, _⟩ => show win5_1.index t 0 * 10000 + 1 * p.val = r.val; rw [e2, hr]; omega
  | ⟨1, _⟩ => show win5_1.index t 1 * 1 + 1 * 0 = 0; rw [e3]

/-- What point `t` writes back is block `t` of the scaled array. -/
theorem scaleB_flushed (c : Dev nD) (t : Fin cfg5.N) :
    (dat5 V c).flushed 2 t = ((cfg5.win 2).blk t).view.read (Elt Ideal)
      (Cert.Layer.scaleRows (V c main_v58 : FVec Ideal S1700000x16 .f32) (V c main_v36 : FVec Ideal S1700000x1 .f32)) := by
  show (cfg5.win 2).cut (grid5.coords t) ((dat5 V c).after 2 t) = _
  rw [after5_2]
  unfold out5_2
  rw [View.canon_unit_zero originB]
  simp only [View.ld_unit_zero (S := S10000x16) originB, View.ld_unit_zero (S := S10000x1) originB]
  obtain ⟨-, -, -, -, e4, e5⟩ := scaleB_index t
  funext y
  obtain ⟨p, q, rfl⟩ : ∃ (p : Fin 10000) (q : Fin 16), y = ix2 p q := ⟨y 0, y 1, eq_ix2 y⟩
  have ht : t.val < 170 := t.isLt
  have hr : t.val * 10000 + p.val < 1700000 := by have := p.isLt; omega
  have hemb : ((cfg5.win 2).blk t).view.emb (ix2 p q) = (ix2 (⟨t.val * 10000 + p.val, hr⟩ : Fin 1700000) q : S1700000x16.Idx) := by
    funext a
    apply Fin.ext
    match a with
    | ⟨0, _⟩ => show win5_2.index t 0 * 10000 + 1 * p.val = t.val * 10000 + p.val; rw [e4]; omega
    | ⟨1, _⟩ => show win5_2.index t 1 * 16 + 1 * q.val = q.val; rw [e5]; omega
  show k5_pay1 (iblk5 V c 0 t) (iblk5 V c 1 t) (ix2 p q) = Cert.Layer.scaleRows _ _ (((cfg5.win 2).blk t).view.emb (ix2 p q))
  rw [hemb, Cert.Layer.scaleRows_apply]
  refine (scaleB_entry (iblk5 V c 0 t) (iblk5 V c 1 t) p q).trans ?_
  rw [scaleB_rows V c t p q ⟨t.val * 10000 + p.val, hr⟩ rfl, scaleB_weights V c t p ⟨t.val * 10000 + p.val, hr⟩ rfl]

/-- An index of the array is in point `t`'s block iff each coordinate is in the block's range on its axis. -/
theorem scaleB_mem (t : Fin cfg5.N) (i : S1700000x16.Idx) :
    i ∈ ((cfg5.win 2).blk t).view.set ↔ ∀ a : Fin 2, win5_2.index t a * S10000x16.size a ≤ (i a).val ∧ (i a).val < win5_2.index t a * S10000x16.size a + S10000x16.size a := by
  show i ∈ ((View.whole main_v59).slice (win5_2.rect t)).set ↔ _
  rw [View.set_slice_whole, Rect.mem_set_unit]
  exact Iff.rfl

/-- Row `r` lies in block `r / 10000`: the blocks tile the array. -/
theorem scaleB_cover (i : S1700000x16.Idx) :
    ∃ t : Fin cfg5.N, (cfg5.win 2).flush t = true ∧ i ∈ ((cfg5.win 2).blk t).view.set := by
  have hi0 : (i 0).val < 1700000 := (i 0).isLt
  have hi1 : (i 1).val < 16 := (i 1).isLt
  have hN : cfg5.N = 170 := N_5
  have ht : (i 0).val / 10000 < cfg5.N := by rw [hN]; omega
  refine ⟨⟨(i 0).val / 10000, ht⟩, flush5_2 _, ?_⟩
  obtain ⟨-, -, -, -, e4, e5⟩ := scaleB_index ⟨(i 0).val / 10000, ht⟩
  rw [scaleB_mem]
  intro a
  match a with
  | ⟨0, _⟩ =>
    show win5_2.index ⟨(i 0).val / 10000, ht⟩ 0 * 10000 ≤ (i 0).val ∧ (i 0).val < win5_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win5_2.index ⟨(i 0).val / 10000, ht⟩ 1 * 16 ≤ (i 1).val ∧ (i 1).val < win5_2.index ⟨(i 0).val / 10000, ht⟩ 1 * 16 + 16
    rw [e5]; omega

/-- The array after the stage: every row of the features times its weight. -/
theorem final5 (c : Dev nD) :
    (dat5 V c).arrAt 2 cfg5.N
      = Cert.Layer.scaleRows (V c main_v58 : FVec Ideal S1700000x16 .f32) (V c main_v36 : FVec Ideal S1700000x1 .f32) :=
  (dat5 V c).arrAt_eq_of_cover 2 _ (fun t _ => scaleB_flushed V c t) scaleB_cover

end Cert.KernelIdeal.Closed

end
-- ==== Proof.BiasReluA.lean ====
/-
  The fourth region of the program adds a bias row to every row of a 100000 × 64 array and takes the maximum with
  zero. It works on ten blocks of 10000 rows: block t holds rows 10000·t … 10000·t + 9999, all 64 columns, and the
  bias row is the same 1 × 64 array at every block. Entry (p, q) of a block's result is
  max (x[p, q] + b[0, q], 0), so entry (r, q) of the whole result is max (S[r, q] + b[0, q], 0): the blocks are
  the restrictions of one function of the two arrays, and since the ten blocks cover every row, the array the region
  leaves is that function.
-/
import proofs.«108055_j75402445849004_2_alg».proof.Proof.Gen.KernelIdeal.Frame
import proofs.«108055_j75402445849004_2_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Closed

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The zero offsets of a whole-block access, as a constant function. -/
theorem biasRelu_offsets_zero : (![0, 0] : Fin 2 → Nat) = fun _ => 0 := funext fun a => by fin_cases a <;> rfl

/-- Entry (p, q) of a block's result: the block's entry plus the bias row's entry in column q, then the maximum
    with the zero word. -/
theorem biasRelu_pay_apply (x0 : Vec Ideal S10000x64 .f32) (x1 : Vec Ideal S1x64 .f32) (p : Fin 10000) (q : Fin 64) :
    k3_pay1 (F := Ideal) x0 x1 (ix2 p q)
      = max (x0 (ix2 p q) + x1 (ix2 (0 : Fin 1) q)) (Ideal.ofBits .f32 0x00000000#32) := by
  unfold k3_pay1
  simp only [shapeCast_self]
  exact congrArg (fun z => max (x0 (ix2 p q) + z) (Ideal.ofBits .f32 0x00000000#32))
    (broadcastTo_1b_ab_apply x1 broadcasts_S1x64_S10000x64 p q)

example : Pipeline.arrRef spec3 0 = main_v48 := rfl
example : Pipeline.arrRef spec3 1 = main_v49 := rfl
example : Pipeline.arrRef spec3 2 = main_v50 := rfl

/-- The printed index maps over the ten points: the row blocks of the input and of the output are both block t,
    column block 0; the bias row is block (0, 0) throughout. -/
theorem biasRelu_index_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- The input window's block at point t, read at (p, q), is the array's entry in row 10000·t + p, column q. -/
theorem biasRelu_in_block (c : Dev nD) (t : Fin cfg3.N) (p : Fin 10000) (q : Fin 64) (r : Fin 100000)
    (hr : r.val = t.val * 10000 + p.val) :
    (iblk3 V c 0 t : Vec Ideal S10000x64 .f32) (ix2 p q) = (V c main_v48 : FVec Ideal S100000x64 .f32) (ix2 r q) := by
  obtain ⟨e0, e1, -, -, -, -⟩ := biasRelu_index_facts t
  unfold iblk3
  rw [View.read_apply]
  show V c main_v48 _ = V c main_v48 _
  congr 1
  funext a
  apply Fin.ext
  match a with
  | ⟨0, _⟩ => show win3_0.index t (0 : Fin 2) * 10000 + 1 * p.val = r.val; rw [e0, hr]; omega
  | ⟨1, _⟩ => show win3_0.index t (1 : Fin 2) * 64 + 1 * q.val = q.val; rw [e1]; omega

/-- The bias window's block is the bias row itself at every point. -/
theorem biasRelu_bias_block (c : Dev nD) (t : Fin cfg3.N) (u : Fin 1) (q : Fin 64) :
    (iblk3 V c 1 t : Vec Ideal S1x64 .f32) (ix2 u q) = (V c main_v49 : FVec Ideal S1x64 .f32) (ix2 u q) := by
  obtain ⟨-, -, e2, e3, -, -⟩ := biasRelu_index_facts t
  unfold iblk3
  rw [View.read_apply]
  show V c main_v49 _ = V c main_v49 _
  congr 1
  funext a
  apply Fin.ext
  match a with
  | ⟨0, _⟩ => show win3_1.index t (0 : Fin 2) * 1 + 1 * u.val = u.val; rw [e2]; omega
  | ⟨1, _⟩ => show win3_1.index t (1 : Fin 2) * 64 + 1 * q.val = q.val; rw [e3]; omega

/-- A whole array read through the output window's block at point t: at (p, q) its entry in row 10000·t + p. -/
theorem biasRelu_out_block (G : FVec Ideal S100000x64 .f32) (t : Fin cfg3.N) (p : Fin 10000) (q : Fin 64) (r : Fin 100000)
    (hr : r.val = t.val * 10000 + p.val) :
    (((cfg3.win 2).blk t).view.read (Elt Ideal) G : Vec Ideal S10000x64 .f32) (ix2 p q) = G (ix2 r q) := by
  obtain ⟨-, -, -, -, e4, e5⟩ := biasRelu_index_facts t
  rw [View.read_apply]
  show G _ = G _
  congr 1
  funext a
  apply Fin.ext
  match a with
  | ⟨0, _⟩ => show win3_2.index t (0 : Fin 2) * 10000 + 1 * p.val = r.val; rw [e4, hr]; omega
  | ⟨1, _⟩ => show win3_2.index t (1 : Fin 2) * 64 + 1 * q.val = q.val; rw [e5]; omega

/-- What point t writes back is block t of the bias-and-rectifier of the two arrays as the region finds them. -/
theorem biasRelu_flushed_eq (c : Dev nD) (t : Fin cfg3.N) :
    (dat3 (F := Ideal) V c).flushed 2 t = ((cfg3.win 2).blk t).view.read (Elt Ideal)
      (Cert.Layer.biasRelu (V c main_v48 : FVec Ideal S100000x64 .f32) (V c main_v49 : FVec Ideal S1x64 .f32)) := by
  show (cfg3.win 2).cut (grid3.coords t) ((dat3 V c).after 2 t) = _
  rw [after3_2]
  unfold out3_2
  rw [View.canon_unit_zero biasRelu_offsets_zero]
  simp only [View.ld_unit_zero (S := S10000x64) biasRelu_offsets_zero, View.ld_unit_zero (S := S1x64) biasRelu_offsets_zero]
  funext y
  obtain ⟨p, q, rfl⟩ : ∃ (p : Fin 10000) (q : Fin 64), y = ix2 p q := ⟨y 0, y 1, eq_ix2 y⟩
  have hN : cfg3.N = 10 := N_3
  have hr : t.val * 10000 + p.val < 100000 := by have := t.isLt; omega
  show k3_pay1 (F := Ideal) (iblk3 V c 0 t) (iblk3 V c 1 t) (ix2 p q) = _
  refine (biasRelu_pay_apply (iblk3 V c 0 t) (iblk3 V c 1 t) p q).trans ?_
  rw [biasRelu_in_block V c t p q ⟨_, hr⟩ rfl, biasRelu_bias_block V c t (0 : Fin 1) q,
    biasRelu_out_block _ t p q ⟨_, hr⟩ rfl]
  rfl

/-- An index of the array lies in point t's block exactly when each coordinate lies in the block's range on its axis. -/
theorem biasRelu_mem_blk (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v50).slice (win3_2.rect t)).set ↔ _
  rw [View.set_slice_whole, Rect.mem_set_unit]
  exact Iff.rfl

/-- Every index of the array lies in some point's block: row r is in block r / 10000. -/
theorem biasRelu_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  have ht : (i 0).val / 10000 < cfg3.N := by rw [hN]; omega
  obtain ⟨-, -, -, -, e4, e5⟩ := biasRelu_index_facts ⟨(i 0).val / 10000, ht⟩
  have e4' : win3_2.index ⟨(i 0).val / 10000, ht⟩ (0 : Fin 2) = (i 0).val / 10000 := e4
  refine ⟨⟨(i 0).val / 10000, ht⟩, flush3_2 _, ?_⟩
  rw [biasRelu_mem_blk]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e4']; omega
  | ⟨1, _⟩ =>
    show win3_2.index ⟨(i 0).val / 10000, ht⟩ (1 : Fin 2) * 64 ≤ (i 1).val
      ∧ (i 1).val < win3_2.index ⟨(i 0).val / 10000, ht⟩ (1 : Fin 2) * 64 + 64
    rw [e5]; omega

/-- The array the region leaves: the bias row added to every row of the array it found, then the rectifier. -/
theorem final3 (c : Dev nD) : (dat3 (F := Ideal) V c).arrAt 2 cfg3.N
    = Cert.Layer.biasRelu (V c main_v48 : FVec Ideal S100000x64 .f32) (V c main_v49 : FVec Ideal S1x64 .f32) :=
  (dat3 (F := Ideal) V c).arrAt_eq_of_cover 2 _ (fun t _ => biasRelu_flushed_eq V c t) biasRelu_cover

end Cert.KernelIdeal.Closed

end
-- ==== Proof.LogSoftmaxB.lean ====
/-
  The last region of the program adds a bias row to every row of a 100000 × 16 array and takes the row's log-softmax
  in its stable form: with y = S[r, ·] + b and μ the largest entry of y, entry (r, q) of the result is
  (y_q − μ) − log Σ_c exp (y_c − μ). It works on ten blocks of 10000 rows: block t holds rows 10000·t … 10000·t + 9999,
  all 16 columns, and the bias row is the same 1 × 16 array at every block. Every entry of a row of the result is
  computed from that row of the same block and the bias row, so entry (p, q) of a block's result is the log-softmax of
  the block's row p, which is row 10000·t + p of the array: the blocks are the restrictions of one function of the two
  arrays, and since the ten blocks cover every row, the array the region leaves is that function.
-/
import proofs.«108055_j75402445849004_2_alg».proof.Proof.Gen.KernelIdeal.Frame
import proofs.«108055_j75402445849004_2_alg».proof.Proof.Layers
import Idealize.ShloMosaic.Lib.Pipeline.Value
import Idealize.ShloMosaic.Lib.ValueIdx
import Idealize.ShloMosaic.Lib.ValueLayout
import Idealize.ShloMosaic.PureOps.Ideal.Laws
import proofs.«108055_j75402445849004_2_alg».proof.Proof.LibLastAxisFolds
import proofs.«108055_j75402445849004_2_alg».proof.Proof.LibColumnLayout

noncomputable section

namespace Cert.KernelIdeal.Closed

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

open Cert.Lib.LastAxisFolds Idealize.ShloMosaic.ColumnLayout

/-- The logarithm of a vector read at an index. -/
theorem logSoftmax_log_apply {s : Shape} {φ : FTy} (a : FVec Ideal s φ) (i : s.Idx) : log a i = Ideal.log (a i) := rfl

/-- The zero offsets of a whole-block access, as a constant function. -/
theorem logSoftmax_offsets_zero : (![0, 0] : Fin 2 → Nat) = fun _ => 0 := funext fun a => by fin_cases a <;> rfl

/-- Entry (p, q) of a block's result is the bias-and-log-softmax of the block read at (p, q): the row maximum is the
    fold of max over row p from minus infinity, kept as a column and spread over the row; the sum of the exponentials
    is the sum over row p, kept and spread the same way. -/
theorem logSoftmax_pay_apply (x0 : Vec Ideal S10000x16 .f32) (x1 : Vec Ideal S1x16 .f32) (p : Fin 10000) (q : Fin 16) :
    k6_pay1 (F := Ideal) x0 x1 (ix2 p q) = Cert.Layer.biasLogSoftmax (x0 : FVec Ideal S10000x16 .f32) x1 (ix2 p q) := by
  unfold k6_pay1
  simp only [shapeCast_self]
  rw [Cert.Layer.biasLogSoftmax_apply]
  simp only [subf_apply, addf_apply, logSoftmax_log_apply, broadcastTo_a1_ab_apply, shapeCast_a_a1_apply, broadcastTo_1b_ab_apply]
  rw [rowsum_apply]
  simp only [subf_apply, addf_apply, exp_apply, broadcastTo_a1_ab_apply, shapeCast_a_a1_apply, broadcastTo_1b_ab_apply]
  rw [rowmax_apply]
  simp only [addf_apply, broadcastTo_1b_ab_apply]
  rfl

/-- The bias-and-log-softmax at an entry of row r depends only on row r and on the bias row: two arrays (of any
    numbers of rows) that agree on a row, with bias rows that agree, have the same entries along it. -/
theorem logSoftmax_row_congr {n n' f : ℕ} (S : FVec Ideal ⟨2, ![n, f]⟩ .f32) (S' : FVec Ideal ⟨2, ![n', f]⟩ .f32)
    (b b' : FVec Ideal ⟨2, ![1, f]⟩ .f32) (r : Fin n) (r' : Fin n')
    (hS : ∀ c : Fin f, S (ix2 r c) = S' (ix2 r' c))
    (hb : ∀ c : Fin f, b (ix2 (0 : Fin 1) c) = b' (ix2 (0 : Fin 1) c)) (q : Fin f) :
    Cert.Layer.biasLogSoftmax S b (ix2 r q) = Cert.Layer.biasLogSoftmax S' b' (ix2 r' q) := by
  have hrow : (fun c : Fin f => S (ix2 r c) + b (ix2 (0 : Fin 1) c)) = fun c => S' (ix2 r' c) + b' (ix2 (0 : Fin 1) c) :=
    funext fun c => by rw [hS c, hb c]
  have hM : Cert.Layer.rowMax S b r = Cert.Layer.rowMax S' b' r' := by
    unfold Cert.Layer.rowMax
    rw [hrow]
  rw [Cert.Layer.biasLogSoftmax_apply, Cert.Layer.biasLogSoftmax_apply, hM, hS q, hb q]
  exact congrArg (fun z => S' (ix2 r' q) + b' (ix2 (0 : Fin 1) q) - Cert.Layer.rowMax S' b' r' - Ideal.log z)
    (Finset.sum_congr rfl fun c _ => by rw [hS c, hb c])

example : Pipeline.arrRef spec6 0 = main_v62 := rfl
example : Pipeline.arrRef spec6 1 = main_v63 := rfl
example : Pipeline.arrRef spec6 2 = main_v64 := rfl

/-- The printed index maps over the ten points: the row blocks of the input and of the output are both block t,
    column block 0; the bias row is block (0, 0) throughout. -/
theorem logSoftmax_index_facts : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- The input window's block at point t, read at (p, q), is the array's entry in row 10000·t + p, column q. -/
theorem logSoftmax_in_block (c : Dev nD) (t : Fin cfg6.N) (p : Fin 10000) (q : Fin 16) (r : Fin 100000)
    (hr : r.val = t.val * 10000 + p.val) :
    (iblk6 V c 0 t : Vec Ideal S10000x16 .f32) (ix2 p q) = (V c main_v62 : FVec Ideal S100000x16 .f32) (ix2 r q) := by
  obtain ⟨e0, e1, -, -, -, -⟩ := logSoftmax_index_facts t
  unfold iblk6
  rw [View.read_apply]
  show V c main_v62 _ = V c main_v62 _
  congr 1
  funext a
  apply Fin.ext
  match a with
  | ⟨0, _⟩ => show win6_0.index t (0 : Fin 2) * 10000 + 1 * p.val = r.val; rw [e0, hr]; omega
  | ⟨1, _⟩ => show win6_0.index t (1 : Fin 2) * 16 + 1 * q.val = q.val; rw [e1]; omega

/-- The bias window's block is the bias row itself at every point. -/
theorem logSoftmax_bias_block (c : Dev nD) (t : Fin cfg6.N) (u : Fin 1) (q : Fin 16) :
    (iblk6 V c 1 t : Vec Ideal S1x16 .f32) (ix2 u q) = (V c main_v63 : FVec Ideal S1x16 .f32) (ix2 u q) := by
  obtain ⟨-, -, e2, e3, -, -⟩ := logSoftmax_index_facts t
  unfold iblk6
  rw [View.read_apply]
  show V c main_v63 _ = V c main_v63 _
  congr 1
  funext a
  apply Fin.ext
  match a with
  | ⟨0, _⟩ => show win6_1.index t (0 : Fin 2) * 1 + 1 * u.val = u.val; rw [e2]; omega
  | ⟨1, _⟩ => show win6_1.index t (1 : Fin 2) * 16 + 1 * q.val = q.val; rw [e3]; omega

/-- A whole array read through the output window's block at point t: at (p, q) its entry in row 10000·t + p. -/
theorem logSoftmax_out_block (G : FVec Ideal S100000x16 .f32) (t : Fin cfg6.N) (p : Fin 10000) (q : Fin 16) (r : Fin 100000)
    (hr : r.val = t.val * 10000 + p.val) :
    (((cfg6.win 2).blk t).view.read (Elt Ideal) G : Vec Ideal S10000x16 .f32) (ix2 p q) = G (ix2 r q) := by
  obtain ⟨-, -, -, -, e4, e5⟩ := logSoftmax_index_facts t
  rw [View.read_apply]
  show G _ = G _
  congr 1
  funext a
  apply Fin.ext
  match a with
  | ⟨0, _⟩ => show win6_2.index t (0 : Fin 2) * 10000 + 1 * p.val = r.val; rw [e4, hr]; omega
  | ⟨1, _⟩ => show win6_2.index t (1 : Fin 2) * 16 + 1 * q.val = q.val; rw [e5]; omega

/-- What point t writes back is block t of the bias-and-log-softmax of the two arrays as the region finds them. -/
theorem logSoftmax_flushed_eq (c : Dev nD) (t : Fin cfg6.N) :
    (dat6 (F := Ideal) V c).flushed 2 t = ((cfg6.win 2).blk t).view.read (Elt Ideal)
      (Cert.Layer.biasLogSoftmax (V c main_v62 : FVec Ideal S100000x16 .f32) (V c main_v63 : FVec Ideal S1x16 .f32)) := by
  show (cfg6.win 2).cut (grid6.coords t) ((dat6 V c).after 2 t) = _
  rw [after6_2]
  unfold out6_2
  rw [View.canon_unit_zero logSoftmax_offsets_zero]
  simp only [View.ld_unit_zero (S := S10000x16) logSoftmax_offsets_zero, View.ld_unit_zero (S := S1x16) logSoftmax_offsets_zero]
  funext y
  obtain ⟨p, q, rfl⟩ : ∃ (p : Fin 10000) (q : Fin 16), y = ix2 p q := ⟨y 0, y 1, eq_ix2 y⟩
  have hN : cfg6.N = 10 := N_6
  have hr : t.val * 10000 + p.val < 100000 := by have := t.isLt; omega
  show k6_pay1 (F := Ideal) (iblk6 V c 0 t) (iblk6 V c 1 t) (ix2 p q) = _
  refine (logSoftmax_pay_apply (iblk6 V c 0 t) (iblk6 V c 1 t) p q).trans ?_
  rw [logSoftmax_out_block _ t p q ⟨_, hr⟩ rfl]
  exact logSoftmax_row_congr _ _ _ _ p ⟨_, hr⟩ (fun c' => logSoftmax_in_block V c t p c' ⟨_, hr⟩ rfl)
    (fun c' => logSoftmax_bias_block V c t (0 : Fin 1) c') q

/-- An index of the array lies in point t's block exactly when each coordinate lies in the block's range on its axis. -/
theorem logSoftmax_mem_blk (t : Fin cfg6.N) (i : S100000x16.Idx) :
    i ∈ ((cfg6.win 2).blk t).view.set ↔ ∀ a : Fin 2, win6_2.index t a * S10000x16.size a ≤ (i a).val
      ∧ (i a).val < win6_2.index t a * S10000x16.size a + S10000x16.size a := by
  show i ∈ ((View.whole main_v64).slice (win6_2.rect t)).set ↔ _
  rw [View.set_slice_whole, Rect.mem_set_unit]
  exact Iff.rfl

/-- Every index of the array lies in some point's block: row r is in block r / 10000. -/
theorem logSoftmax_cover (i : S100000x16.Idx) :
    ∃ t : Fin cfg6.N, (cfg6.win 2).flush t = true ∧ i ∈ ((cfg6.win 2).blk t).view.set := by
  have hi0 : (i 0).val < 100000 := (i 0).isLt
  have hi1 : (i 1).val < 16 := (i 1).isLt
  have hN : cfg6.N = 10 := N_6
  have ht : (i 0).val / 10000 < cfg6.N := by rw [hN]; omega
  obtain ⟨-, -, -, -, e4, e5⟩ := logSoftmax_index_facts ⟨(i 0).val / 10000, ht⟩
  have e4' : win6_2.index ⟨(i 0).val / 10000, ht⟩ (0 : Fin 2) = (i 0).val / 10000 := e4
  refine ⟨⟨(i 0).val / 10000, ht⟩, flush6_2 _, ?_⟩
  rw [logSoftmax_mem_blk]
  intro a
  match a with
  | ⟨0, _⟩ =>
    show win6_2.index ⟨(i 0).val / 10000, ht⟩ (0 : Fin 2) * 10000 ≤ (i 0).val
      ∧ (i 0).val < win6_2.index ⟨(i 0).val / 10000, ht⟩ (0 : Fin 2) * 10000 + 10000
    rw [e4']; omega
  | ⟨1, _⟩ =>
    show win6_2.index ⟨(i 0).val / 10000, ht⟩ (1 : Fin 2) * 16 ≤ (i 1).val
      ∧ (i 1).val < win6_2.index ⟨(i 0).val / 10000, ht⟩ (1 : Fin 2) * 16 + 16
    rw [e5]; omega

/-- The array the region leaves: the bias row added to every row of the array it found, then each row's log-softmax. -/
theorem final6 (c : Dev nD) : (dat6 (F := Ideal) V c).arrAt 2 cfg6.N
    = Cert.Layer.biasLogSoftmax (V c main_v62 : FVec Ideal S100000x16 .f32) (V c main_v63 : FVec Ideal S1x16 .f32) :=
  (dat6 (F := Ideal) V c).arrAt_eq_of_cover 2 _ (fun t _ => logSoftmax_flushed_eq V c t) logSoftmax_cover

end Cert.KernelIdeal.Closed

end
-- ==== Proof.Boundaries.lean ====
/-
  The idealized kernel's result as the network function of its arguments. Going through the program's boundaries in
  order: the edge stage leaves the edge weights; the first long stretch turns them into the normalisation column; the
  first dense stage leaves `x · Wc₁`; a gather, the first scaling stage and a scatter-add make the first convolution;
  the bias-and-rectifier stage leaves the hidden features; the second dense stage, gather, scaling stage and scatter-add
  make the second convolution; the last stage adds the bias and takes the row-wise log-softmax. Each stage's result
  array is its closed form of the arrays it is entered with, and those are the terms found at the boundary before.
-/
import proofs.«108055_j75402445849004_2_alg».proof.Proof.Stretches
import proofs.«108055_j75402445849004_2_alg».proof.Proof.EdgeNet
import proofs.«108055_j75402445849004_2_alg».proof.Proof.DenseA
import proofs.«108055_j75402445849004_2_alg».proof.Proof.DenseB
import proofs.«108055_j75402445849004_2_alg».proof.Proof.ScaleA
import proofs.«108055_j75402445849004_2_alg».proof.Proof.ScaleB
import proofs.«108055_j75402445849004_2_alg».proof.Proof.BiasReluA
import proofs.«108055_j75402445849004_2_alg».proof.Proof.LogSoftmaxB

set_option maxRecDepth 16384

noncomputable section

namespace Cert.KernelIdeal.Closed

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-- The edge stage leaves the edge weights. -/
theorem W2_edge : W2 m ρ c (Proc.devRef .tc main_v2) = Cert.Net.edge x2 x3 x4 x5 x6 := by
  refine ((W2_arr m ρ c 5).trans (final0 (V1 m ρ) c)).trans ?_
  show Cert.Layer.edgeWeight (W1 m ρ c (Proc.devRef .tc main_arg2)) (W1 m ρ c (Proc.devRef .tc main_arg3))
    (W1 m ρ c (Proc.devRef .tc main_v0)) (W1 m ρ c (Proc.devRef .tc main_arg5)) (W1 m ρ c (Proc.devRef .tc main_v1)) = _
  rw [W1_arg2 m ρ c, W1_arg3 m ρ c, W1_v0 m ρ c, W1_arg5 m ρ c, W1_v1 m ρ c]
  rfl

/-- The first dense stage leaves the transformed node features. -/
theorem W6_dense : W6 m ρ c (Proc.devRef .tc main_v37) = Cert.Layer.dense x0 x7 := by
  refine ((W6_arr m ρ c 2).trans (final1 (V5 m ρ) c)).trans ?_
  show Cert.Layer.dense (W5 m ρ c (Proc.devRef .tc main_arg0)) (W5 m ρ c (Proc.devRef .tc main_arg7)) = _
  rw [W5_arg0 m ρ c, W5_arg7 m ρ c]

/-- The first scaling stage leaves every gathered row times its edge's normalisation. -/
theorem W8_scaled : W8 m ρ c (Proc.devRef .tc main_v45)
    = Cert.Layer.scaleRows (Host.gather gather_S100000x64_S1700000x1_S1700000x64_1_0_n_n_0_1_164 (Cert.Layer.dense x0 x7)
        (Cert.Net.wrap (Cert.Net.src x1))) (Cert.Net.normCol x1 (Cert.Net.edge x2 x3 x4 x5 x6)) := by
  refine ((W8_arr m ρ c 2).trans (final2 (V7 m ρ) c)).trans ?_
  show Cert.Layer.scaleRows (W7 m ρ c (Proc.devRef .tc main_v44)) (W7 m ρ c (Proc.devRef .tc main_v36)) = _
  rw [W7_rows m ρ c, W6_dense m ρ c, W6_src m ρ c, W7_norm m ρ c, W2_edge m ρ c]

/-- The bias-and-rectifier stage leaves the hidden features. -/
theorem W10_hidden : W10 m ρ c (Proc.devRef .tc main_v50)
    = Cert.Net.hidden x0 x1 (Cert.Net.normCol x1 (Cert.Net.edge x2 x3 x4 x5 x6)) x7 x8 := by
  refine ((W10_arr m ρ c 2).trans (final3 (V9 m ρ) c)).trans ?_
  show Cert.Layer.biasRelu (W9 m ρ c (Proc.devRef .tc main_v48)) (W9 m ρ c (Proc.devRef .tc main_v49)) = _
  rw [W9_sum m ρ c, W9_bias m ρ c, W8_tgt m ρ c, W8_scaled m ρ c, W8_arg8 m ρ c]
  rfl

/-- The second dense stage leaves the transformed hidden features. -/
theorem W11_dense : W11 m ρ c (Proc.devRef .tc main_v51)
    = Cert.Layer.dense (Cert.Net.hidden x0 x1 (Cert.Net.normCol x1 (Cert.Net.edge x2 x3 x4 x5 x6)) x7 x8) x9 := by
  refine ((W11_arr m ρ c 2).trans (final4 (V10 m ρ) c)).trans ?_
  show Cert.Layer.dense (W10 m ρ c (Proc.devRef .tc main_v50)) (W10 m ρ c (Proc.devRef .tc main_arg9)) = _
  rw [W10_hidden m ρ c, W10_arg9 m ρ c]

/-- The second scaling stage leaves every gathered row times its edge's normalisation. -/
theorem W13_scaled : W13 m ρ c (Proc.devRef .tc main_v59)
    = Cert.Layer.scaleRows (Host.gather gather_S100000x16_S1700000x1_S1700000x16_1_0_n_n_0_1_116
        (Cert.Layer.dense (Cert.Net.hidden x0 x1 (Cert.Net.normCol x1 (Cert.Net.edge x2 x3 x4 x5 x6)) x7 x8) x9)
        (Cert.Net.wrap (Cert.Net.src x1))) (Cert.Net.normCol x1 (Cert.Net.edge x2 x3 x4 x5 x6)) := by
  refine ((W13_arr m ρ c 2).trans (final5 (V12 m ρ) c)).trans ?_
  show Cert.Layer.scaleRows (W12 m ρ c (Proc.devRef .tc main_v58)) (W12 m ρ c (Proc.devRef .tc main_v36)) = _
  rw [W12_rows m ρ c, W11_dense m ρ c, W11_src m ρ c, W12_norm m ρ c, W2_edge m ρ c]

/-- The last stage leaves the network's result. -/
theorem W15_net : W15 m ρ c (Proc.devRef .tc main_v64) = Cert.Net.net x0 x1 x2 x3 x4 x5 x6 x7 x8 x9 x10 := by
  refine ((W15_arr m ρ c 2).trans (final6 (V14 m ρ) c)).trans ?_
  show Cert.Layer.biasLogSoftmax (W14 m ρ c (Proc.devRef .tc main_v62)) (W14 m ρ c (Proc.devRef .tc main_v63)) = _
  rw [W14_sum m ρ c, W14_bias m ρ c, W13_tgt m ρ c, W13_scaled m ρ c, W13_arg10 m ρ c]
  rfl

end Cert.KernelIdeal.Closed

end
-- ==== Proof.LibPlainDotGeneral.lean ====
/-
  A plain two-dimensional matrix product computed on the host, read at a row and a column.

  For dimension numbers that contract the left operand's columns with the right operand's rows, with no batch axis,
  entry `(r, c)` of the `dot_general` of an `[M, K]` matrix and a `[K, N]` matrix is, on the extended reals, the sum
  over `k` of `lhs (r, k) * rhs (k, c)`, whatever the precision and schedule keys: the contraction index, a rank-one
  index, is re-indexed by its one coordinate. Stated for any extents and float formats, with the dimension numbers
  given by their six lists, so that any printed record with these lists unifies. The counterpart, for the host's
  product, of the same reading of a kernel's matrix unit into a zero accumulator.
-/
import Idealize.ShloMosaic.PureOps.Ideal.Laws
import Idealize.ShloMosaic.Lib.ValueIdx

namespace Cert.Lib.PlainDotGeneral

open Idealize.ShloMosaic Idealize.ShloMosaic.ValueIdx

set_option backward.isDefEq.respectTransparency.types false in
/-- The host product of `[M, K]` by `[K, N]`, at `(r, c)`: `∑ k, lhs (r, k) * rhs (k, c)`. -/
theorem dotGeneral_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂)
    (r : Fin M) (c : Fin N) :
    FloatOps.dotGeneral d prec sched lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainDotGeneral
-- ==== Proof.LibHostRows.lean ====
/-
  The host's two bias-row broadcasts read at coordinates, for any element type and any extents.

  A host program adds a bias vector to every row of a matrix in two steps: the vector `[b]` is laid along a new
  leading unit axis (`broadcast_in_dim`, dims = [1], into `[1, b]`), and that unit row is repeated down the rows
  (`broadcast_in_dim`, dims = [0, 1], into `[a, b]`).  Read at `(u, c)` the first is the vector at `c`; read at
  `(p, c)` the second is the unit row at `(0, c)`.  (The column counterparts, dims = [0] and a column repeated along
  the row, are the host keepdims forms.)
-/
import Idealize.ShloMosaic.Lib.ValueIdx
import Idealize.ShloMosaic.Lib.Pipeline.Value
import Idealize.ShloMosaic.Lib.ValueLayout

noncomputable section

namespace Cert.Lib.HostRows

open Idealize.ShloMosaic Idealize.ShloMosaic.ValueIdx

/-- A vector laid along a unit row reads, at `(u, c)`, the vector at `c`. -/
theorem bcast_b_1b_apply {α : Type} {b : ℕ} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) :=
  broadcastInDim_apply ![1] h x (ix2 u c) (ix1 c) (fun k => by
    match k with
    | ⟨0, _⟩ =>
      show c.val = if b = 1 then 0 else c.val
      split_ifs with h1
      · have := c.isLt; omega
      · rfl)

/-- A unit row repeated down the rows reads, at `(p, c)`, the row at `c`. -/
theorem bcast_1b_ab_apply {α : Type} {a b : ℕ} (h : (⟨2, ![1, b]⟩ : Shape).BroadcastsInDim ⟨2, ![a, b]⟩ ![0, 1])
    (x : (⟨2, ![1, b]⟩ : Shape).Idx → α) (p : Fin a) (c : Fin b) :
    broadcastInDim ⟨2, ![a, b]⟩ ![0, 1] h x (ix2 p c) = x (ix2 (0 : Fin 1) c) :=
  broadcastInDim_apply ![0, 1] h x (ix2 p c) (ix2 (0 : Fin 1) c) (fun k => by
    match k with
    | ⟨0, _⟩ =>
      show (0 : ℕ) = if (1 : ℕ) = 1 then 0 else p.val
      rfl
    | ⟨1, _⟩ =>
      show c.val = if b = 1 then 0 else c.val
      split_ifs with h1
      · have := c.isLt; omega
      · rfl)

end Cert.Lib.HostRows

end
-- ==== Proof.LibHostColumns.lean ====
/-
  The host's keepdims layouts read at coordinates, for any element type and extents: a vector [a] laid down a
  column [a, 1] (broadcast_in_dim with dims = [0]) reads the vector at the row; a column [a, 1] repeated along the row
  into [a, b] (dims = [0, 1]) reads the column at the row.
-/
import Idealize.ShloMosaic.Lib.Pipeline.Value
import Idealize.ShloMosaic.Lib.ValueIdx

namespace Cert.Lib.HostColumns

open Idealize.ShloMosaic Idealize.ShloMosaic.ValueIdx

variable {α : Type}

/-- A vector laid down a column reads the vector at the row. -/
theorem bcast_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x (ix2 i u) (ix1 i) (fun k => by
    match k with
    | ⟨0, _⟩ =>
      show i.val = if a = 1 then 0 else i.val
      split_ifs with h1
      · have := i.isLt; omega
      · rfl)

/-- A column repeated along the row reads the column at the row. -/
theorem bcast_a1_ab_apply {a b : ℕ} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply ![0, 1] h x (ix2 i j) (ix2 i (0 : Fin 1)) (fun k => by
    match k with
    | ⟨0, _⟩ =>
      show i.val = if a = 1 then 0 else i.val
      split_ifs with h1
      · have := i.isLt; omega
      · rfl
    | ⟨1, _⟩ =>
      show (0 : ℕ) = if (1 : ℕ) = 1 then 0 else j.val
      rfl)

end Cert.Lib.HostColumns
-- ==== Proof.LibRowLayout.lean ====
/-
  A vector laid out as a one-row matrix, two spellings.

  A `[n]` vector can be made a `[1, n]` matrix by a reshape or by a broadcast along a new leading axis
  (`broadcast_in_dim` with `dims = [1]`). Both read entry `k` of the vector at `(0, k)`, so they are the same matrix,
  for any element type and any length other than one (at length one the broadcast's unit-axis rule reads entry `0`,
  which is again the same entry, but the statement here leaves that case out).
-/
import Idealize.ShloMosaic.Lib.Pipeline.Value

namespace Cert.Lib.RowLayout

open Idealize.ShloMosaic

/-- `shapeCast [1, n] v = broadcastInDim [1, n] ![1] v` for a vector `v` of length `n ≠ 1`: a program that reshapes a
    bias vector to a row and one that broadcasts it along a new leading axis hold the same row. -/
theorem shapeCast_eq_broadcastInDim {α : Type} {n : ℕ} (hn : n ≠ 1) (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v hc = broadcastInDim ⟨2, ![1, n]⟩ (![1] : Fin 1 → Fin 2) hb v := by
  funext j
  exact (shapeCast_addUnit_apply ![n] v hc j).trans
    (broadcastInDim_apply (![1] : Fin 1 → Fin 2) hb v j (fun a => j a.succ)
      (fun a => by match a with | ⟨0, _⟩ => exact (if_neg hn).symm)).symm

end Cert.Lib.RowLayout
-- ==== Proof.LibHostRowMax.lean ====
/-
  The host's maximum along the last axis of a matrix, read at a row.

  A host reduction with a maximum body over the last axis of an `[a, b]` array, started from the word of minus
  infinity, holds at row `r` the fold of `max` from minus infinity over the row's `b` entries. Stated at the ideal
  values for any extents, over indices written by their coordinates. It is the host-side counterpart of a kernel's
  maximum reduction along the last axis read at a row, for references that take a row maximum — a softmax or a
  log-softmax in its stable form.
-/
import Idealize.ShloMosaic.PureOps.Ideal.Laws
import Idealize.ShloMosaic.Lib.ValueIdx

noncomputable section

namespace Cert.Lib.HostRowMax

open Idealize.ShloMosaic Idealize.ShloMosaic.ValueIdx

/-- The host's reduction with a maximum body along the last axis of a matrix, from the word of minus infinity, read at
    row r: the fold of max over the row from minus infinity. -/
theorem hostRowMax_apply {a b : ℕ} (x : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 0xFF800000#32) h' hu (ix1 r)
      = (Finset.univ : Finset (Fin b)).fold max (Ideal.ofBits .f32 0xFF800000#32) (fun k => x (ix2 r k)) := by
  rw [Host.reduce_eq_fold_single FloatOps.maximumf x _ h' h hu]
  refine congrArg (fun f => (Finset.univ : Finset (Fin b)).fold max (Ideal.ofBits .f32 0xFF800000#32) f) (funext fun k => ?_)
  exact congrArg x (funext fun d => Fin.ext (by match d with | ⟨0, _⟩ => rfl | ⟨1, _⟩ => rfl))

end Cert.Lib.HostRowMax

end
-- ==== Proof.RefTail.lean ====
/-
  Two stages of the reference network as whole-array functions on the extended reals.

  * The hidden stage: the first aggregated array with the bias vector added to every row, then the rectifier. The
    reference lays the bias vector along a unit row and repeats that row down the rows; read at (r, c) this is the
    vector at c, which is also what the vector reshaped to a one-row matrix holds at (0, c). So the stage is
    max (A[r, c] + b[c], 0), entry by entry.
  * The output stage: the second aggregated array with its bias vector added to every row, then each row's log-softmax
    in its stable form. The reference takes the row maximum as a reduction with a maximum body from minus infinity
    and then once more the maximum with minus infinity; a fold of max is at least its starting value, so that second
    maximum changes nothing and the row maximum is the fold of max over the row from minus infinity. The maximum is
    kept as a column and spread along the row, subtracted, the exponentials are summed along the row from the zero
    word (which adds nothing), the logarithm of the sum is kept and spread the same way and subtracted:
    (y_c − μ) − log Σ_c' exp (y_c' − μ) with y = A[r, ·] + b.

  The earlier stages stay folded: both statements hold for whatever arrays the aggregation stages produce.
-/
import proofs.«108055_j75402445849004_2_alg».proof.Proof.RefRead
import proofs.«108055_j75402445849004_2_alg».proof.Proof.Layers
import proofs.«108055_j75402445849004_2_alg».proof.Proof.Gen.KernelIdeal
import proofs.«108055_j75402445849004_2_alg».proof.Proof.LibPlainDotGeneral
import proofs.«108055_j75402445849004_2_alg».proof.Proof.LibHostRows
import proofs.«108055_j75402445849004_2_alg».proof.Proof.LibHostColumns
import proofs.«108055_j75402445849004_2_alg».proof.Proof.LibColumnLayout
import proofs.«108055_j75402445849004_2_alg».proof.Proof.LibRowLayout
import proofs.«108055_j75402445849004_2_alg».proof.Proof.LibHostRowMax
import Idealize.ShloMosaic.Lib.ValueIdx
import Idealize.ShloMosaic.Lib.ValueLayout
import Idealize.ShloMosaic.Lib.Pipeline.Value
import Idealize.ShloMosaic.PureOps.Ideal.Laws

noncomputable section

namespace Cert.RefTail

open Idealize.ShloMosaic Idealize.ShloMosaic.ValueIdx Cert.KernelIdeal Cert.ReferenceIdeal.ReadP

variable (x0 : FVec Ideal S100000x128 .f32) (x1 : IVec S2x1600000 32) (x2 : FVec Ideal S1600000x16 .f32)
  (x3 : FVec Ideal S16x32 .f32) (x4 : FVec Ideal S32 .f32) (x5 : FVec Ideal S32x1 .f32) (x6 : FVec Ideal S1 .f32)
  (x7 : FVec Ideal S128x64 .f32) (x8 : FVec Ideal S64 .f32) (x9 : FVec Ideal S64x16 .f32) (x10 : FVec Ideal S16 .f32)

/-! ## The output stage: a bias row added, then the row's log-softmax -/

/-- The biased logits at an entry: the aggregated array's entry plus the bias vector's entry in that column, the bias
    read through its layout as a one-row matrix. -/
theorem logits_apply (r : Fin 100000) (c : Fin 16) :
    val_main_v105 (F := Ideal) x0 x1 x2 x3 x4 x5 x6 x7 x8 x9 x10 (ix2 r c)
      = (val_main_v102 (F := Ideal) x0 x1 x2 x3 x4 x5 x6 x7 x8 x9) (ix2 r c) + (shapeCast S1x16 x10 Facts₀.shapeCasts_S16_S1x16) (ix2 (0 : Fin 1) c) := by
  rw [val_main_v105_apply, val_main_v104_apply, val_main_v103_apply, shapeCast_a_1a_apply]
  exact congrArg (fun z => (val_main_v102 (F := Ideal) x0 x1 x2 x3 x4 x5 x6 x7 x8 x9) (ix2 r c) + x10 z)
    (funext fun a => Fin.ext (by match a with | ⟨0, _⟩ => rfl))

/-- The reference's row maximum at row r is the fold of max over the biased row from minus infinity: taking the
    maximum with minus infinity once more changes nothing, a fold of max being at least its starting value. -/
theorem refRowMax_apply (r : Fin 100000) :
    val_main_call4_v2 (F := Ideal) x0 x1 x2 x3 x4 x5 x6 x7 x8 x9 x10 (ix1 r) = Cert.Layer.rowMax (val_main_v102 (F := Ideal) x0 x1 x2 x3 x4 x5 x6 x7 x8 x9) (shapeCast S1x16 x10 Facts₀.shapeCasts_S16_S1x16) r := by
  rw [val_main_call4_v2_apply, val_main_call4_v1_apply, val_main_call4_cst_0_apply]
  unfold val_main_call4_v0 val_main_call4_cst
  rw [Cert.Lib.HostRowMax.hostRowMax_apply (a := 100000) (b := 16) _ _ (by decide) _ r]
  rw [show (fun k : Fin 16 => val_main_v105 (F := Ideal) x0 x1 x2 x3 x4 x5 x6 x7 x8 x9 x10 (ix2 r k))
      = fun k => (val_main_v102 (F := Ideal) x0 x1 x2 x3 x4 x5 x6 x7 x8 x9) (ix2 r k) + (shapeCast S1x16 x10 Facts₀.shapeCasts_S16_S1x16) (ix2 (0 : Fin 1) k)
    from funext fun k => logits_apply x0 x1 x2 x3 x4 x5 x6 x7 x8 x9 x10 r k]
  exact max_eq_right ((Finset.le_fold_max _).mpr (Or.inl le_rfl))

/-- The logits less their row maximum, at an entry: the row maximum is kept as a column and spread along the row. -/
theorem shifted_apply (r : Fin 100000) (c : Fin 16) :
    val_main_call4_v5 (F := Ideal) x0 x1 x2 x3 x4 x5 x6 x7 x8 x9 x10 (ix2 r c)
      = (val_main_v102 (F := Ideal) x0 x1 x2 x3 x4 x5 x6 x7 x8 x9) (ix2 r c) + (shapeCast S1x16 x10 Facts₀.shapeCasts_S16_S1x16) (ix2 (0 : Fin 1) c) - Cert.Layer.rowMax (val_main_v102 (F := Ideal) x0 x1 x2 x3 x4 x5 x6 x7 x8 x9) (shapeCast S1x16 x10 Facts₀.shapeCasts_S16_S1x16) r := by
  rw [val_main_call4_v5_apply, logits_apply, val_main_call4_v4_apply, val_main_call4_v3_apply,
    show idx_main_call4_v3 (idx_main_call4_v4 (ix2 r c)) = ix1 r
      from funext fun a => Fin.ext (by match a with | ⟨0, _⟩ => rfl),
    refRowMax_apply]
  rfl

/-- The reference's output stage is the bias-and-log-softmax of the aggregated array and the bias vector laid out as a
    one-row matrix: the sum of the exponentials starts from the zero word, which adds nothing. -/
theorem out_eq : val_main_v106 (F := Ideal) x0 x1 x2 x3 x4 x5 x6 x7 x8 x9 x10
    = Cert.Layer.biasLogSoftmax (val_main_v102 (F := Ideal) x0 x1 x2 x3 x4 x5 x6 x7 x8 x9) (shapeCast S1x16 x10 Facts₀.shapeCasts_S16_S1x16) := by
  funext i
  obtain ⟨r, c, rfl⟩ : ∃ (r : Fin 100000) (c : Fin 16), i = ix2 r c := ⟨i 0, i 1, eq_ix2 i⟩
  have hexp : ∀ k : Fin 16, val_main_call4_v6 (F := Ideal) x0 x1 x2 x3 x4 x5 x6 x7 x8 x9 x10
      (idx_main_call4_v7 (idx_main_call4_v8 (idx_main_call4_v10 (ix2 r c))) k)
        = Ideal.exp ((val_main_v102 (F := Ideal) x0 x1 x2 x3 x4 x5 x6 x7 x8 x9) (ix2 r k) + (shapeCast S1x16 x10 Facts₀.shapeCasts_S16_S1x16) (ix2 (0 : Fin 1) k) - Cert.Layer.rowMax (val_main_v102 (F := Ideal) x0 x1 x2 x3 x4 x5 x6 x7 x8 x9) (shapeCast S1x16 x10 Facts₀.shapeCasts_S16_S1x16) r) := fun k => by
    rw [show idx_main_call4_v7 (idx_main_call4_v8 (idx_main_call4_v10 (ix2 r c))) k = ix2 r k
      from funext fun a => Fin.ext (by match a with | ⟨0, _⟩ => rfl | ⟨1, _⟩ => rfl),
      val_main_call4_v6_apply, shifted_apply, Ideal.hostUnary_exp_def]
  rw [Cert.Layer.biasLogSoftmax_apply, val_main_v106_apply, shifted_apply, val_main_call4_v10_apply,
    val_main_call4_v9_apply, val_main_call4_v8_apply, val_main_call4_v7_apply, val_main_call4_cst_1_apply,
    Finset.sum_congr rfl fun k _ => hexp k, Ideal.ofBits_def, Ideal.ofBits_zero_f32, zero_add,
    Ideal.hostUnary_log_def, Ideal.subf_def]

/-! ## The hidden stage: a bias row added, then the rectifier -/

/-- The reference's hidden stage is the bias-and-rectifier of the first aggregated array and the bias vector laid out
    as a one-row matrix: the bias vector is laid along a unit row and that row repeated down the rows, so at (r, c) it
    reads the vector at c; the rectifier is the maximum with the splat of the zero word. -/
theorem hidden_eq : val_main_v65 (F := Ideal) x0 x1 x2 x3 x4 x5 x6 x7 x8
    = Cert.Layer.biasRelu (val_main_v61 (F := Ideal) x0 x1 x2 x3 x4 x5 x6 x7) (shapeCast S1x64 x8 Facts₀.shapeCasts_S64_S1x64) := by
  funext i
  obtain ⟨r, c, rfl⟩ : ∃ (r : Fin 100000) (c : Fin 64), i = ix2 r c := ⟨i 0, i 1, eq_ix2 i⟩
  rw [Cert.Layer.biasRelu_apply, val_main_v65_apply, val_main_v64_apply, val_main_v63_apply, val_main_v62_apply,
    val_main_call2_v0_apply, val_main_call2_cst_apply, shapeCast_a_1a_apply,
    show idx_main_v62 (idx_main_v63 (ix2 r c)) = ix1 c
      from funext fun a => Fin.ext (by match a with | ⟨0, _⟩ => rfl),
    Ideal.maximumf_def, Ideal.addf_def, Ideal.ofBits_def]

end Cert.RefTail

end
-- ==== Proof.RefNet.lean ====
/-
  The reference program computes the network.

  The reference's operations, read one at a time, are the stages of the network of the specification: its edge
  weights are the edge network of the edge features (the sigmoid spelt as `1 / (1 + exp (−z))`, which is the sigmoid
  by definition on the extended reals, the float word of one being the number one; the bias vectors laid out as rows
  by a broadcast where the specification reshapes them: both read the vector at the column); its index lists, its
  weight list with the self-loops, its degrees, their inverse square roots and the symmetric normalisation are the
  same operations applied to the same operands, computed once per layer, identically; the normalisations are laid
  down a column by a broadcast along a new unit axis where the specification reshapes the vector: both read the
  vector at the row. With the dense products, the scalings, the bias with the rectifier and the bias with the
  log-softmax read stage by stage, the reference's result is the network of its eleven arguments.
-/
import proofs.«108055_j75402445849004_2_alg».proof.Proof.RefRead
import proofs.«108055_j75402445849004_2_alg».proof.Proof.RefTail
import proofs.«108055_j75402445849004_2_alg».proof.Proof.Net
import proofs.«108055_j75402445849004_2_alg».proof.Proof.Layers
import proofs.«108055_j75402445849004_2_alg».proof.Proof.LibPlainDotGeneral
import proofs.«108055_j75402445849004_2_alg».proof.Proof.LibHostRows
import proofs.«108055_j75402445849004_2_alg».proof.Proof.LibHostColumns
import proofs.«108055_j75402445849004_2_alg».proof.Proof.LibColumnLayout
import proofs.«108055_j75402445849004_2_alg».proof.Proof.LibRowLayout
import Idealize.ShloMosaic.Lib.ValueIdx
import Idealize.ShloMosaic.Lib.ValueLayout
import Idealize.ShloMosaic.Lib.Pipeline.Value
import Idealize.ShloMosaic.PureOps.Ideal.Laws

noncomputable section

namespace Cert.RefNet

open Idealize.ShloMosaic Idealize.ShloMosaic.ValueIdx Cert.KernelIdeal Cert.KernelIdeal.Facts₀ Cert.ReferenceIdeal.ReadP
open scoped BigOperators

variable (x0 : FVec Ideal S100000x128 .f32) (x1 : IVec S2x1600000 32) (x2 : FVec Ideal S1600000x16 .f32)
  (x3 : FVec Ideal S16x32 .f32) (x4 : FVec Ideal S32 .f32) (x5 : FVec Ideal S32x1 .f32) (x6 : FVec Ideal S1 .f32)
  (x7 : FVec Ideal S128x64 .f32) (x8 : FVec Ideal S64 .f32) (x9 : FVec Ideal S64x16 .f32) (x10 : FVec Ideal S16 .f32)

/-! ## The edge network -/

/-- The float word of one is the real number one. -/
theorem one_word : Ideal.ofBits .f32 0x3F800000#32 = 1 := by
  simp [Ideal.ofBits, Ideal.ieee, -EReal.coe_mul]; norm_num

/-- The sigmoid spelt with a negation, an exponential, a sum with one and a quotient of one is the sigmoid. -/
theorem logistic_spelt (z : Ideal .f32) :
    FloatOps.hostDivf (F := Ideal) (FloatOps.ofBits .f32 0x3F800000#32)
      (FloatOps.addf (FloatOps.ofBits .f32 0x3F800000#32) (FloatOps.hostUnary .exp (FloatOps.hostNegf z)))
      = Ideal.logistic z := by
  rw [Ideal.ofBits_def, one_word]; rfl

/-- The reference's edge weights are the edge network of the edge features: the same two layers, the bias
    vectors laid out as rows by a broadcast where the network's definition reshapes them. -/
theorem edge_eq : val_main_v14 (F := Ideal) x2 x3 x4 x5 x6 = Cert.Net.edge x2 x3 x4 x5 x6 := by
  funext i
  obtain ⟨e, u, rfl⟩ : ∃ (e : Fin 1600000) (u : Fin 1), i = ix2 e u := ⟨i 0, i 1, eq_ix2 i⟩
  obtain rfl : u = 0 := Subsingleton.elim _ _
  unfold Cert.Net.edge
  rw [Cert.Layer.edgeWeight_apply, val_main_v14_apply, val_main_v13_apply, val_main_cst_0_apply, val_main_v12_apply,
    val_main_v11_apply, val_main_cst_apply, val_main_v10_apply, val_main_v9_apply]
  refine (logistic_spelt _).trans (congrArg Ideal.logistic ?_)
  rw [val_main_v8_apply, val_main_v5_apply, val_main_v7_apply, val_main_v6_apply]
  refine congrArg₂ (· + ·) (Finset.sum_congr rfl fun q _ => ?_) ?_
  · have hl : lidx_main_v5 (ix2 e (0 : Fin 1)) q = ix2 e q :=
      funext fun a => Fin.ext (by match a with | ⟨0, _⟩ => rfl | ⟨1, _⟩ => rfl)
    have hr : ridx_main_v5 (ix2 e (0 : Fin 1)) q = ix2 q (0 : Fin 1) :=
      funext fun a => Fin.ext (by match a with | ⟨0, _⟩ => rfl | ⟨1, _⟩ => rfl)
    rw [hl, hr, val_main_v4_apply, val_main_v3_apply, val_main_call0_v0_apply, val_main_call0_cst_apply,
      val_main_v0_apply, val_main_v2_apply, val_main_v1_apply]
    refine congrArg₂ (· * ·) (congrArg₂ max (congrArg₂ (· + ·) (Finset.sum_congr rfl fun r _ => ?_) ?_) rfl) rfl
    · have hl0 : lidx_main_v0 (ix2 e q) r = ix2 e r :=
        funext fun a => Fin.ext (by match a with | ⟨0, _⟩ => rfl | ⟨1, _⟩ => rfl)
      have hr0 : ridx_main_v0 (ix2 e q) r = ix2 r q :=
        funext fun a => Fin.ext (by match a with | ⟨0, _⟩ => rfl | ⟨1, _⟩ => rfl)
      rw [hl0, hr0]
    · refine Eq.trans (congrArg x4 (funext fun a => Fin.ext ?_)) (shapeCast_a_1a_apply x4 _ (0 : Fin 1) q).symm
      match a with | ⟨0, _⟩ => rfl
  · refine Eq.trans (congrArg x6 (funext fun a => Fin.ext ?_)) (shapeCast_a_1a_apply x6 _ (0 : Fin 1) (0 : Fin 1)).symm
    match a with | ⟨0, _⟩ => rfl

/-! ## The index lists -/

theorem src_eq : val_main_v21 (F := Ideal) x1 = Cert.Net.src x1 := rfl
theorem tgt_eq : val_main_v22 (F := Ideal) x1 = Cert.Net.tgt x1 := rfl
theorem col_tgt_eq : val_main_v27 (F := Ideal) x1 = Cert.Net.col (Cert.Net.tgt x1) := rfl
theorem col_tgt_eq60 : val_main_v60 (F := Ideal) x1 = Cert.Net.col (Cert.Net.tgt x1) := rfl
theorem col_tgt_eq68 : val_main_v68 (F := Ideal) x1 = Cert.Net.col (Cert.Net.tgt x1) := rfl
theorem col_tgt_eq101 : val_main_v101 (F := Ideal) x1 = Cert.Net.col (Cert.Net.tgt x1) := rfl
theorem wrap_src_eq : val_main_v38 (F := Ideal) x1 = Cert.Net.wrap (Cert.Net.src x1) := rfl
theorem wrap_src_eq55 : val_main_v55 (F := Ideal) x1 = Cert.Net.wrap (Cert.Net.src x1) := rfl
theorem wrap_src_eq79 : val_main_v79 (F := Ideal) x1 = Cert.Net.wrap (Cert.Net.src x1) := rfl
theorem wrap_src_eq96 : val_main_v96 (F := Ideal) x1 = Cert.Net.wrap (Cert.Net.src x1) := rfl
theorem wrap_tgt_eq : val_main_v46 (F := Ideal) x1 = Cert.Net.wrap (Cert.Net.tgt x1) := rfl
theorem wrap_tgt_eq87 : val_main_v87 (F := Ideal) x1 = Cert.Net.wrap (Cert.Net.tgt x1) := rfl

/-! ## Degrees and normalisation, computed once per layer by the same operations -/

theorem ewf_eq : val_main_v24 (F := Ideal) x2 x3 x4 x5 x6 = Cert.Net.ewf (val_main_v14 (F := Ideal) x2 x3 x4 x5 x6) := rfl

theorem deg_eq : val_main_v28 (F := Ideal) x1 x2 x3 x4 x5 x6 = Cert.Net.deg x1 (val_main_v14 (F := Ideal) x2 x3 x4 x5 x6) := rfl
theorem deg_eq69 : val_main_v69 (F := Ideal) x1 x2 x3 x4 x5 x6 = Cert.Net.deg x1 (val_main_v14 (F := Ideal) x2 x3 x4 x5 x6) := rfl

theorem dinv_eq : val_main_v32 (F := Ideal) x1 x2 x3 x4 x5 x6 = Cert.Net.dinv x1 (val_main_v14 (F := Ideal) x2 x3 x4 x5 x6) := rfl
theorem dinv_eq73 : val_main_v73 (F := Ideal) x1 x2 x3 x4 x5 x6 = Cert.Net.dinv x1 (val_main_v14 (F := Ideal) x2 x3 x4 x5 x6) := rfl

theorem norm_eq : val_main_v48 (F := Ideal) x1 x2 x3 x4 x5 x6 = Cert.Net.norm x1 (val_main_v14 (F := Ideal) x2 x3 x4 x5 x6) := rfl
theorem norm_eq89 : val_main_v89 (F := Ideal) x1 x2 x3 x4 x5 x6 = Cert.Net.norm x1 (val_main_v14 (F := Ideal) x2 x3 x4 x5 x6) := rfl

/-! ## The normalisations as a column -/

/-- A vector laid down a column by a broadcast along a new unit axis is the vector reshaped to a column. -/
theorem column_layouts {α : Type} {a : ℕ} (x : (⟨1, ![a]⟩ : Shape).Idx → α)
    (hb : (⟨1, ![a]⟩ : Shape).BroadcastsInDim ⟨2, ![a, 1]⟩ ![0]) (hc : (⟨1, ![a]⟩ : Shape).ShapeCasts ⟨2, ![a, 1]⟩) :
    broadcastInDim ⟨2, ![a, 1]⟩ ![0] hb x = shapeCast ⟨2, ![a, 1]⟩ x hc := by
  funext i
  obtain ⟨r, u, rfl⟩ : ∃ (r : Fin a) (u : Fin 1), i = ix2 r u := ⟨i 0, i 1, eq_ix2 i⟩
  exact (Cert.Lib.HostColumns.bcast_a_a1_apply hb x r u).trans (ColumnLayout.shapeCast_a_a1_apply x hc r u).symm

theorem normCol_eq : val_main_v49 (F := Ideal) x1 x2 x3 x4 x5 x6 = Cert.Net.normCol x1 (Cert.Net.edge x2 x3 x4 x5 x6) := by
  unfold val_main_v49 Cert.Net.normCol
  rw [norm_eq, edge_eq]
  exact column_layouts _ _ _

theorem normCol_eq90 : val_main_v90 (F := Ideal) x1 x2 x3 x4 x5 x6 = Cert.Net.normCol x1 (Cert.Net.edge x2 x3 x4 x5 x6) := by
  unfold val_main_v90 Cert.Net.normCol
  rw [norm_eq89, edge_eq]
  exact column_layouts _ _ _

/-! ## The dense products and the scalings -/

/-- The host's plain product of a matrix of rows by a weight matrix, entry by entry. -/
theorem host_dense {M K N : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ .f32) (W : FVec Ideal ⟨2, ![K, N]⟩ .f32) :
    Host.dotGeneral d prec A W = Cert.Layer.dense A W := by
  funext i
  obtain ⟨r, c, rfl⟩ : ∃ (r : Fin M) (c : Fin N), i = ix2 r c := ⟨i 0, i 1, eq_ix2 i⟩
  rw [Cert.Layer.dense_apply]
  exact Cert.Lib.PlainDotGeneral.dotGeneral_apply d hlc hrc hln hrn hlb hrb prec _ A W r c

/-- A column of scalars repeated along the rows, times a matrix: every row multiplied by its own scalar
    (the product of extended reals commutes). -/
theorem host_scale {a b : ℕ} (h : (⟨2, ![a, 1]⟩ : Shape).BroadcastsInDim ⟨2, ![a, b]⟩ ![0, 1])
    (s : FVec Ideal ⟨2, ![a, 1]⟩ .f32) (G : FVec Ideal ⟨2, ![a, b]⟩ .f32) :
    mulf (broadcastInDim ⟨2, ![a, b]⟩ ![0, 1] h s) G = Cert.Layer.scaleRows G s := by
  funext i
  obtain ⟨r, c, rfl⟩ : ∃ (r : Fin a) (c : Fin b), i = ix2 r c := ⟨i 0, i 1, eq_ix2 i⟩
  rw [Cert.Layer.scaleRows_apply, mulf_apply, Cert.Lib.HostColumns.bcast_a1_ab_apply]
  exact mul_comm _ _

theorem dense1_eq : val_main_v25 (F := Ideal) x0 x7 = Cert.Layer.dense x0 x7 := by
  unfold val_main_v25
  exact host_dense _ rfl rfl rfl rfl rfl rfl none x0 x7

theorem dense2_eq : val_main_v66 (F := Ideal) x0 x1 x2 x3 x4 x5 x6 x7 x8 x9
    = Cert.Layer.dense (val_main_v65 (F := Ideal) x0 x1 x2 x3 x4 x5 x6 x7 x8) x9 := by
  unfold val_main_v66
  exact host_dense _ rfl rfl rfl rfl rfl rfl none _ x9

theorem scaled1_eq : val_main_v58 (F := Ideal) x0 x1 x2 x3 x4 x5 x6 x7
    = Cert.Layer.scaleRows (val_main_v56 (F := Ideal) x0 x1 x7) (val_main_v49 (F := Ideal) x1 x2 x3 x4 x5 x6) := by
  unfold val_main_v58 val_main_v57
  exact host_scale _ _ _

theorem scaled2_eq : val_main_v99 (F := Ideal) x0 x1 x2 x3 x4 x5 x6 x7 x8 x9
    = Cert.Layer.scaleRows (val_main_v97 (F := Ideal) x0 x1 x2 x3 x4 x5 x6 x7 x8 x9) (val_main_v90 (F := Ideal) x1 x2 x3 x4 x5 x6) := by
  unfold val_main_v99 val_main_v98
  exact host_scale _ _ _

/-! ## The assembly -/

/-- The first convolution: gather the sources' rows of `x · Wc₁`, scale by the normalisations, add at the targets. -/
theorem conv64_eq : val_main_v61 (F := Ideal) x0 x1 x2 x3 x4 x5 x6 x7
    = Cert.Net.conv64 x1 (Cert.Net.normCol x1 (Cert.Net.edge x2 x3 x4 x5 x6)) (Cert.Layer.dense x0 x7) := by
  unfold val_main_v61
  rw [scaled1_eq]
  unfold val_main_v56
  rw [dense1_eq, normCol_eq]
  rfl

/-- The hidden node features. -/
theorem hidden_net_eq : val_main_v65 (F := Ideal) x0 x1 x2 x3 x4 x5 x6 x7 x8
    = Cert.Net.hidden x0 x1 (Cert.Net.normCol x1 (Cert.Net.edge x2 x3 x4 x5 x6)) x7 x8 := by
  rw [Cert.RefTail.hidden_eq, conv64_eq]
  rfl

/-- The second convolution, of `h₁ · Wc₂`. -/
theorem conv16_eq : val_main_v102 (F := Ideal) x0 x1 x2 x3 x4 x5 x6 x7 x8 x9
    = Cert.Net.conv16 x1 (Cert.Net.normCol x1 (Cert.Net.edge x2 x3 x4 x5 x6))
        (Cert.Layer.dense (Cert.Net.hidden x0 x1 (Cert.Net.normCol x1 (Cert.Net.edge x2 x3 x4 x5 x6)) x7 x8) x9) := by
  unfold val_main_v102
  rw [scaled2_eq]
  unfold val_main_v97
  rw [dense2_eq, hidden_net_eq, normCol_eq90]
  rfl

/-- The reference's value is the network. -/
theorem ref_eq_net (x0 : FVec Ideal Cert.KernelIdeal.S100000x128 .f32) (x1 : IVec Cert.KernelIdeal.S2x1600000 32)
    (x2 : FVec Ideal Cert.KernelIdeal.S1600000x16 .f32) (x3 : FVec Ideal Cert.KernelIdeal.S16x32 .f32)
    (x4 : FVec Ideal Cert.KernelIdeal.S32 .f32) (x5 : FVec Ideal Cert.KernelIdeal.S32x1 .f32)
    (x6 : FVec Ideal Cert.KernelIdeal.S1 .f32) (x7 : FVec Ideal Cert.KernelIdeal.S128x64 .f32)
    (x8 : FVec Ideal Cert.KernelIdeal.S64 .f32) (x9 : FVec Ideal Cert.KernelIdeal.S64x16 .f32)
    (x10 : FVec Ideal Cert.KernelIdeal.S16 .f32) :
    Cert.ReferenceIdeal.ReadP.val_main_v106 (F := Ideal) x0 x1 x2 x3 x4 x5 x6 x7 x8 x9 x10
      = Cert.Net.net x0 x1 x2 x3 x4 x5 x6 x7 x8 x9 x10 := by
  rw [Cert.RefTail.out_eq, conv16_eq]
  rfl

end Cert.RefNet

end
-- ==== Proof.LibAfterAppend.lean ====
/-
  Folding a line of host operations that is given as two lines joined.

  The buffer contents after `l₁ ++ l₂` are those after `l₂` from the contents after `l₁`; and a property that
  holds of every operation of both lines holds of every operation of the joined line. With these a long @main
  can be cut into stretches, each folded and read by itself. A buffer that no operation of a line writes keeps its
  contents through it; `not_written` decides that side condition for a literal line.
-/
import Idealize.ShloMosaic.Lib.StableHlo.Run

namespace Cert.Lib.AfterAppend

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- What holds of every element of two lists holds of every element of their concatenation. -/
theorem forall_append {α : Type*} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

/-- A buffer that none of a line's operations writes keeps its contents through the line. -/
theorem after_kept (ops : List (HloOp τ sig Val)) (V : Valuation τ sig Val) (b : Ref sig .tc)
    (h : ∀ op ∈ ops, Proc.devRef (τ := τ) .tc b ∉ op.writes) :
    after ops V (Proc.devRef .tc b) = V (Proc.devRef .tc b) :=
  after_of_forall_not_mem ops V h

end Cert.Lib.AfterAppend

/-- Closes `∀ op ∈ ops, Proc.devRef .tc b ∉ op.writes` for a literal line of the builders' operations, each of which writes
    one buffer, none of them `b`: the membership is decided operation by operation. -/
macro "not_written" : tactic =>
  `(tactic| (refine List.forall_iff_forall_mem.mp ?_
             simp only [List.Forall, Idealize.ShloMosaic.StableHlo.nullary_writes, Idealize.ShloMosaic.StableHlo.unary_writes,
               Idealize.ShloMosaic.StableHlo.binary_writes, Idealize.ShloMosaic.StableHlo.ternary_writes,
               Idealize.ShloMosaic.StableHlo.reshape_writes, Finset.mem_singleton]
             repeat' apply And.intro
             all_goals exact Idealize.ShloMosaic.StableHlo.devRef_ne_of_ne (by decide)))
-- ==== Proof.RefRunS.lean ====
/-
  The reference program's run, read through its stages.

  The reference's @main is a straight line of 152 array operations, each writing one buffer from buffers written
  before it; no buffer is written twice. Every weakly fair execution of such a line terminates with each buffer at the
  fold of the operations' results over the launch contents. The line is cut into ten stretches at points where few
  buffers are still to be read: the edge network; the index lists, the weights with the self-loops and the first
  dense product; the degrees and their inverse square roots; the normalisation; the first convolution; the bias, the
  rectifier and the second dense product; the degrees and the normalisation a second time; the second convolution;
  the bias and the log-softmax. From ANY contents, a stretch leaves in each buffer that a later stretch reads the
  stage's value of the contents it read, and keeps every buffer it does not write. Going through the boundaries
  forward, each such buffer holds the staged function of the program's eleven arguments, so the result buffer ends
  at the staged value of the arguments' launch contents, and the arguments, which no operation writes, are unchanged.
-/
import proofs.«108055_j75402445849004_2_alg».proof.Proof.Gen.ReferenceIdeal
import proofs.«108055_j75402445849004_2_alg».proof.Proof.RefRead
import proofs.«108055_j75402445849004_2_alg».proof.Proof.LibAfterAppend
import Idealize.ShloMosaic.Lib.StableHlo.Run

noncomputable section

namespace Cert.ReferenceIdeal.RunS

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- @main's 152 operations, in order (a called function's operations stand in its call's place). -/
abbrev ops : List (HloOp τ sig (Elt F)) :=
  [
    binary main_arg2 main_arg3 main_v0 ((fun l r => Host.dotGeneral dot_S1600000x16_S16x32_S1600000x32_1_0_0_1_n_n none l r) : (⟨S1600000x16, .f32⟩ : BufTy).Contents (Elt F) → (⟨S16x32, .f32⟩ : BufTy).Contents (Elt F) → (⟨S1600000x32, .f32⟩ : BufTy).Contents (Elt F)),
    unary main_arg4 main_v1 (broadcastInDim S1x32 ![1] bcast_S32_S1x32_1 : (⟨S32, .f32⟩ : BufTy).Contents (Elt F) → (⟨S1x32, .f32⟩ : BufTy).Contents (Elt F)),
    unary main_v1 main_v2 (broadcastInDim S1600000x32 ![0, 1] bcast_S1x32_S1600000x32_0_1 : (⟨S1x32, .f32⟩ : BufTy).Contents (Elt F) → (⟨S1600000x32, .f32⟩ : BufTy).Contents (Elt F)),
    binary main_v0 main_v2 main_v3 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1600000x32, .f32⟩) main_call0_v0) (broadcastInDim S1600000x32 ![] bcast_S_S1600000x32),
    TRef.binary (TRef.of (T := ⟨S1600000x32, .f32⟩) main_v3) (TRef.of (T := ⟨S1600000x32, .f32⟩) main_call0_v0) (TRef.of (T := ⟨S1600000x32, .f32⟩) main_v4) maximumf,
    binary main_v4 main_arg5 main_v5 ((fun l r => Host.dotGeneral dot_S1600000x32_S32x1_S1600000x1_1_0_0_1_n_n none l r) : (⟨S1600000x32, .f32⟩ : BufTy).Contents (Elt F) → (⟨S32x1, .f32⟩ : BufTy).Contents (Elt F) → (⟨S1600000x1, .f32⟩ : BufTy).Contents (Elt F)),
    unary main_arg6 main_v6 (broadcastInDim S1x1 ![1] bcast_S1_S1x1_1 : (⟨S1, .f32⟩ : BufTy).Contents (Elt F) → (⟨S1x1, .f32⟩ : BufTy).Contents (Elt F)),
    unary main_v6 main_v7 (broadcastInDim S1600000x1 ![0, 1] bcast_S1x1_S1600000x1_0_1 : (⟨S1x1, .f32⟩ : BufTy).Contents (Elt F) → (⟨S1600000x1, .f32⟩ : BufTy).Contents (Elt F)),
    binary main_v5 main_v7 main_v8 (addf : (⟨S1600000x1, .f32⟩ : BufTy).Contents (Elt F) → (⟨S1600000x1, .f32⟩ : BufTy).Contents (Elt F) → (⟨S1600000x1, .f32⟩ : BufTy).Contents (Elt F)),
    unary main_v8 main_v9 (Host.negf : (⟨S1600000x1, .f32⟩ : BufTy).Contents (Elt F) → (⟨S1600000x1, .f32⟩ : BufTy).Contents (Elt F)),
    unary main_v9 main_v10 (Host.exp : (⟨S1600000x1, .f32⟩ : BufTy).Contents (Elt F) → (⟨S1600000x1, .f32⟩ : BufTy).Contents (Elt F)),
    nullary main_cst (constant S_ .f32 0x3F800000#32),
    unary main_cst main_v11 (broadcastInDim S1600000x1 ![] bcast_S_S1600000x1 : (⟨S_, .f32⟩ : BufTy).Contents (Elt F) → (⟨S1600000x1, .f32⟩ : BufTy).Contents (Elt F)),
    binary main_v11 main_v10 main_v12 (addf : (⟨S1600000x1, .f32⟩ : BufTy).Contents (Elt F) → (⟨S1600000x1, .f32⟩ : BufTy).Contents (Elt F) → (⟨S1600000x1, .f32⟩ : BufTy).Contents (Elt F)),
    nullary main_cst_0 (constant S_ .f32 0x3F800000#32),
    unary main_cst_0 main_v13 (broadcastInDim S1600000x1 ![] bcast_S_S1600000x1 : (⟨S_, .f32⟩ : BufTy).Contents (Elt F) → (⟨S1600000x1, .f32⟩ : BufTy).Contents (Elt F)),
    binary main_v13 main_v12 main_v14 (Host.divf : (⟨S1600000x1, .f32⟩ : BufTy).Contents (Elt F) → (⟨S1600000x1, .f32⟩ : BufTy).Contents (Elt F) → (⟨S1600000x1, .f32⟩ : BufTy).Contents (Elt F)),
    reshape main_v14 main_v15 rfl shapeCasts_S1600000x1_S1600000,
    unary main_arg1 main_v16 ((extractStridedSlice S1x1600000 ![0, 0] · slices_S2x1600000_S1x1600000_0_0) : (⟨S2x1600000, .i32⟩ : BufTy).Contents (Elt F) → (⟨S1x1600000, .i32⟩ : BufTy).Contents (Elt F)),
    reshape main_v16 main_v17 rfl shapeCasts_S1x1600000_S1600000,
    unary main_arg1 main_v18 ((extractStridedSlice S1x1600000 ![1, 0] · slices_S2x1600000_S1x1600000_1_0) : (⟨S2x1600000, .i32⟩ : BufTy).Contents (Elt F) → (⟨S1x1600000, .i32⟩ : BufTy).Contents (Elt F)),
    reshape main_v18 main_v19 rfl shapeCasts_S1x1600000_S1600000,
    nullary main_v20 (iotaInDim S100000 32 0),
    binary main_v17 main_v20 main_v21 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v19 main_v20 main_v22 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_1 (constant S_ .f32 0x3F800000#32),
    unary main_cst_1 main_v23 (broadcastInDim S100000 ![] bcast_S_S100000 : (⟨S_, .f32⟩ : BufTy).Contents (Elt F) → (⟨S100000, .f32⟩ : BufTy).Contents (Elt F)),
    binary main_v15 main_v23 main_v24 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    binary main_arg0 main_arg7 main_v25 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst_2 (constant S_ .f32 0x00000000#32),
    unary main_cst_2 main_v26 (broadcastInDim S100000 ![] bcast_S_S100000 : (⟨S_, .f32⟩ : BufTy).Contents (Elt F) → (⟨S100000, .f32⟩ : BufTy).Contents (Elt F)),
    unary main_v22 main_v27 (broadcastInDim S1700000x1 ![0] bcast_S1700000_S1700000x1_0 : (⟨S1700000, .i32⟩ : BufTy).Contents (Elt F) → (⟨S1700000x1, .i32⟩ : BufTy).Contents (Elt F)),
    ternary main_v26 main_v27 main_v24 main_v28 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_3 (constant S_ .f32 0x00000000#32),
    unary main_cst_3 main_v29 (broadcastInDim S100000 ![] bcast_S_S100000 : (⟨S_, .f32⟩ : BufTy).Contents (Elt F) → (⟨S100000, .f32⟩ : BufTy).Contents (Elt F)),
    binary main_v28 main_v29 main_v30 (cmpf .ogt : (⟨S100000, .f32⟩ : BufTy).Contents (Elt F) → (⟨S100000, .f32⟩ : BufTy).Contents (Elt F) → (⟨S100000, .i1⟩ : BufTy).Contents (Elt F)),
    unary main_v28 main_v31 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v30) (TRef.of (T := ⟨S100000, .f32⟩) main_v31) (TRef.of (T := ⟨S100000, .f32⟩) main_call1_v1) (TRef.of (T := ⟨S100000, .f32⟩) main_v32) select,
    nullary main_c (constantI S_ 32 0#32),
    unary main_c main_v33 (broadcastInDim S1700000 ![] bcast_S_S1700000 : (⟨S_, .i32⟩ : BufTy).Contents (Elt F) → (⟨S1700000, .i32⟩ : BufTy).Contents (Elt F)),
    binary main_v21 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v35 (broadcastInDim S1700000 ![] bcast_S_S1700000 : (⟨S_, .i32⟩ : BufTy).Contents (Elt F) → (⟨S1700000, .i32⟩ : BufTy).Contents (Elt F)),
    binary main_v21 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v21 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v39 main_v24 main_v40 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v41 (broadcastInDim S1700000 ![] bcast_S_S1700000 : (⟨S_, .i32⟩ : BufTy).Contents (Elt F) → (⟨S1700000, .i32⟩ : BufTy).Contents (Elt F)),
    binary main_v22 main_v41 main_v42 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v43 (broadcastInDim S1700000 ![] bcast_S_S1700000 : (⟨S_, .i32⟩ : BufTy).Contents (Elt F) → (⟨S1700000, .i32⟩ : BufTy).Contents (Elt F)),
    binary main_v22 main_v43 main_v44 (addi : (⟨S1700000, .i32⟩ : BufTy).Contents (Elt F) → (⟨S1700000, .i32⟩ : BufTy).Contents (Elt F) → (⟨S1700000, .i32⟩ : BufTy).Contents (Elt F)),
    ternary main_v42 main_v44 main_v22 main_v45 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v45 main_v46 (broadcastInDim S1700000x1 ![0] bcast_S1700000_S1700000x1_0 : (⟨S1700000, .i32⟩ : BufTy).Contents (Elt F) → (⟨S1700000x1, .i32⟩ : BufTy).Contents (Elt F)),
    binary main_v32 main_v46 main_v47 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v40 main_v47 main_v48 (mulf : (⟨S1700000, .f32⟩ : BufTy).Contents (Elt F) → (⟨S1700000, .f32⟩ : BufTy).Contents (Elt F) → (⟨S1700000, .f32⟩ : BufTy).Contents (Elt F)),
    unary main_v48 main_v49 (broadcastInDim S1700000x1 ![0] bcast_S1700000_S1700000x1_0 : (⟨S1700000, .f32⟩ : BufTy).Contents (Elt F) → (⟨S1700000x1, .f32⟩ : BufTy).Contents (Elt F)),
    nullary main_c_8 (constantI S_ 32 0#32),
    unary main_c_8 main_v50 (broadcastInDim S1700000 ![] bcast_S_S1700000 : (⟨S_, .i32⟩ : BufTy).Contents (Elt F) → (⟨S1700000, .i32⟩ : BufTy).Contents (Elt F)),
    binary main_v21 main_v50 main_v51 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v52 (broadcastInDim S1700000 ![] bcast_S_S1700000 : (⟨S_, .i32⟩ : BufTy).Contents (Elt F) → (⟨S1700000, .i32⟩ : BufTy).Contents (Elt F)),
    binary main_v21 main_v52 main_v53 (addi : (⟨S1700000, .i32⟩ : BufTy).Contents (Elt F) → (⟨S1700000, .i32⟩ : BufTy).Contents (Elt F) → (⟨S1700000, .i32⟩ : BufTy).Contents (Elt F)),
    ternary main_v51 main_v53 main_v21 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v54 main_v55 (broadcastInDim S1700000x1 ![0] bcast_S1700000_S1700000x1_0 : (⟨S1700000, .i32⟩ : BufTy).Contents (Elt F) → (⟨S1700000x1, .i32⟩ : BufTy).Contents (Elt F)),
    binary main_v25 main_v55 main_v56 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v49 main_v57 (broadcastInDim S1700000x64 ![0, 1] bcast_S1700000x1_S1700000x64_0_1 : (⟨S1700000x1, .f32⟩ : BufTy).Contents (Elt F) → (⟨S1700000x64, .f32⟩ : BufTy).Contents (Elt F)),
    binary main_v57 main_v56 main_v58 (mulf : (⟨S1700000x64, .f32⟩ : BufTy).Contents (Elt F) → (⟨S1700000x64, .f32⟩ : BufTy).Contents (Elt F) → (⟨S1700000x64, .f32⟩ : BufTy).Contents (Elt F)),
    nullary main_cst_10 (constant S_ .f32 0x00000000#32),
    unary main_cst_10 main_v59 (broadcastInDim S100000x64 ![] bcast_S_S100000x64 : (⟨S_, .f32⟩ : BufTy).Contents (Elt F) → (⟨S100000x64, .f32⟩ : BufTy).Contents (Elt F)),
    unary main_v22 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg8 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v64) (TRef.of (T := ⟨S100000x64, .f32⟩) main_call2_v0) (TRef.of (T := ⟨S100000x64, .f32⟩) main_v65) maximumf,
    binary main_v65 main_arg9 main_v66 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    nullary main_cst_11 (constant S_ .f32 0x00000000#32),
    unary main_cst_11 main_v67 (broadcastInDim S100000 ![] bcast_S_S100000 : (⟨S_, .f32⟩ : BufTy).Contents (Elt F) → (⟨S100000, .f32⟩ : BufTy).Contents (Elt F)),
    unary main_v22 main_v68 (broadcastInDim S1700000x1 ![0] bcast_S1700000_S1700000x1_0 : (⟨S1700000, .i32⟩ : BufTy).Contents (Elt F) → (⟨S1700000x1, .i32⟩ : BufTy).Contents (Elt F)),
    ternary main_v67 main_v68 main_v24 main_v69 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_12 (constant S_ .f32 0x00000000#32),
    unary main_cst_12 main_v70 (broadcastInDim S100000 ![] bcast_S_S100000 : (⟨S_, .f32⟩ : BufTy).Contents (Elt F) → (⟨S100000, .f32⟩ : BufTy).Contents (Elt F)),
    binary main_v69 main_v70 main_v71 (cmpf .ogt : (⟨S100000, .f32⟩ : BufTy).Contents (Elt F) → (⟨S100000, .f32⟩ : BufTy).Contents (Elt F) → (⟨S100000, .i1⟩ : BufTy).Contents (Elt F)),
    unary main_v69 main_v72 (Host.rsqrt : (⟨S100000, .f32⟩ : BufTy).Contents (Elt F) → (⟨S100000, .f32⟩ : BufTy).Contents (Elt F)),
    nullary main_cst_13 (constant S_ .f32 0x00000000#32),
    TRef.unary (TRef.of (T := ⟨S_, .f32⟩) main_cst_13) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.ternary (TRef.of (T := ⟨S100000, .i1⟩) main_v71) (TRef.of (T := ⟨S100000, .f32⟩) main_v72) (TRef.of (T := ⟨S100000, .f32⟩) main_call3_v1) (TRef.of (T := ⟨S100000, .f32⟩) main_v73) select,
    nullary main_c_14 (constantI S_ 32 0#32),
    unary main_c_14 main_v74 (broadcastInDim S1700000 ![] bcast_S_S1700000 : (⟨S_, .i32⟩ : BufTy).Contents (Elt F) → (⟨S1700000, .i32⟩ : BufTy).Contents (Elt F)),
    binary main_v21 main_v74 main_v75 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v76 (broadcastInDim S1700000 ![] bcast_S_S1700000 : (⟨S_, .i32⟩ : BufTy).Contents (Elt F) → (⟨S1700000, .i32⟩ : BufTy).Contents (Elt F)),
    binary main_v21 main_v76 main_v77 (addi : (⟨S1700000, .i32⟩ : BufTy).Contents (Elt F) → (⟨S1700000, .i32⟩ : BufTy).Contents (Elt F) → (⟨S1700000, .i32⟩ : BufTy).Contents (Elt F)),
    ternary main_v75 main_v77 main_v21 main_v78 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v78 main_v79 (broadcastInDim S1700000x1 ![0] bcast_S1700000_S1700000x1_0 : (⟨S1700000, .i32⟩ : BufTy).Contents (Elt F) → (⟨S1700000x1, .i32⟩ : BufTy).Contents (Elt F)),
    binary main_v73 main_v79 main_v80 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v80 main_v24 main_v81 (mulf : (⟨S1700000, .f32⟩ : BufTy).Contents (Elt F) → (⟨S1700000, .f32⟩ : BufTy).Contents (Elt F) → (⟨S1700000, .f32⟩ : BufTy).Contents (Elt F)),
    nullary main_c_16 (constantI S_ 32 0#32),
    unary main_c_16 main_v82 (broadcastInDim S1700000 ![] bcast_S_S1700000 : (⟨S_, .i32⟩ : BufTy).Contents (Elt F) → (⟨S1700000, .i32⟩ : BufTy).Contents (Elt F)),
    binary main_v22 main_v82 main_v83 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v84 (broadcastInDim S1700000 ![] bcast_S_S1700000 : (⟨S_, .i32⟩ : BufTy).Contents (Elt F) → (⟨S1700000, .i32⟩ : BufTy).Contents (Elt F)),
    binary main_v22 main_v84 main_v85 (addi : (⟨S1700000, .i32⟩ : BufTy).Contents (Elt F) → (⟨S1700000, .i32⟩ : BufTy).Contents (Elt F) → (⟨S1700000, .i32⟩ : BufTy).Contents (Elt F)),
    ternary main_v83 main_v85 main_v22 main_v86 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v86 main_v87 (broadcastInDim S1700000x1 ![0] bcast_S1700000_S1700000x1_0 : (⟨S1700000, .i32⟩ : BufTy).Contents (Elt F) → (⟨S1700000x1, .i32⟩ : BufTy).Contents (Elt F)),
    binary main_v73 main_v87 main_v88 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v81 main_v88 main_v89 (mulf : (⟨S1700000, .f32⟩ : BufTy).Contents (Elt F) → (⟨S1700000, .f32⟩ : BufTy).Contents (Elt F) → (⟨S1700000, .f32⟩ : BufTy).Contents (Elt F)),
    unary main_v89 main_v90 (broadcastInDim S1700000x1 ![0] bcast_S1700000_S1700000x1_0 : (⟨S1700000, .f32⟩ : BufTy).Contents (Elt F) → (⟨S1700000x1, .f32⟩ : BufTy).Contents (Elt F)),
    nullary main_c_18 (constantI S_ 32 0#32),
    unary main_c_18 main_v91 (broadcastInDim S1700000 ![] bcast_S_S1700000 : (⟨S_, .i32⟩ : BufTy).Contents (Elt F) → (⟨S1700000, .i32⟩ : BufTy).Contents (Elt F)),
    binary main_v21 main_v91 main_v92 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v93 (broadcastInDim S1700000 ![] bcast_S_S1700000 : (⟨S_, .i32⟩ : BufTy).Contents (Elt F) → (⟨S1700000, .i32⟩ : BufTy).Contents (Elt F)),
    binary main_v21 main_v93 main_v94 (addi : (⟨S1700000, .i32⟩ : BufTy).Contents (Elt F) → (⟨S1700000, .i32⟩ : BufTy).Contents (Elt F) → (⟨S1700000, .i32⟩ : BufTy).Contents (Elt F)),
    ternary main_v92 main_v94 main_v21 main_v95 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v95 main_v96 (broadcastInDim S1700000x1 ![0] bcast_S1700000_S1700000x1_0 : (⟨S1700000, .i32⟩ : BufTy).Contents (Elt F) → (⟨S1700000x1, .i32⟩ : BufTy).Contents (Elt F)),
    binary main_v66 main_v96 main_v97 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v90 main_v98 (broadcastInDim S1700000x16 ![0, 1] bcast_S1700000x1_S1700000x16_0_1 : (⟨S1700000x1, .f32⟩ : BufTy).Contents (Elt F) → (⟨S1700000x16, .f32⟩ : BufTy).Contents (Elt F)),
    binary main_v98 main_v97 main_v99 (mulf : (⟨S1700000x16, .f32⟩ : BufTy).Contents (Elt F) → (⟨S1700000x16, .f32⟩ : BufTy).Contents (Elt F) → (⟨S1700000x16, .f32⟩ : BufTy).Contents (Elt F)),
    nullary main_cst_20 (constant S_ .f32 0x00000000#32),
    unary main_cst_20 main_v100 (broadcastInDim S100000x16 ![] bcast_S_S100000x16 : (⟨S_, .f32⟩ : BufTy).Contents (Elt F) → (⟨S100000x16, .f32⟩ : BufTy).Contents (Elt F)),
    unary main_v22 main_v101 (broadcastInDim S1700000x1 ![0] bcast_S1700000_S1700000x1_0 : (⟨S1700000, .i32⟩ : BufTy).Contents (Elt F) → (⟨S1700000x1, .i32⟩ : BufTy).Contents (Elt F)),
    ternary main_v100 main_v101 main_v99 main_v102 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_arg10 main_v103 (broadcastInDim S1x16 ![1] bcast_S16_S1x16_1 : (⟨S16, .f32⟩ : BufTy).Contents (Elt F) → (⟨S1x16, .f32⟩ : BufTy).Contents (Elt F)),
    unary main_v103 main_v104 (broadcastInDim S100000x16 ![0, 1] bcast_S1x16_S100000x16_0_1 : (⟨S1x16, .f32⟩ : BufTy).Contents (Elt F) → (⟨S100000x16, .f32⟩ : BufTy).Contents (Elt F)),
    binary main_v102 main_v104 main_v105 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call4_cst) (constant S_ .f32 0xFF800000#32),
    TRef.binary (TRef.of (T := ⟨S100000x16, .f32⟩) main_v105) (TRef.of (T := ⟨S_, .f32⟩) main_call4_cst) (TRef.of (T := ⟨S100000, .f32⟩) main_call4_v0) (fun x v => Host.reduce FloatOps.maximumf x v reducesTo_S100000x16_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x16, .f32⟩) main_call4_v4) (broadcastInDim S100000x16 ![0, 1] bcast_S100000x1_S100000x16_0_1),
    TRef.binary (TRef.of (T := ⟨S100000x16, .f32⟩) main_v105) (TRef.of (T := ⟨S100000x16, .f32⟩) main_call4_v4) (TRef.of (T := ⟨S100000x16, .f32⟩) main_call4_v5) subf,
    TRef.unary (TRef.of (T := ⟨S100000x16, .f32⟩) main_call4_v5) (TRef.of (T := ⟨S100000x16, .f32⟩) main_call4_v6) Host.exp,
    TRef.nullary (TRef.of (T := ⟨S_, .f32⟩) main_call4_cst_1) (constant S_ .f32 0x00000000#32),
    TRef.binary (TRef.of (T := ⟨S100000x16, .f32⟩) main_call4_v6) (TRef.of (T := ⟨S_, .f32⟩) main_call4_cst_1) (TRef.of (T := ⟨S100000, .f32⟩) main_call4_v7) (fun x v => Host.reduceAdd x v reducesTo_S100000x16_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x16, .f32⟩) main_call4_v10) (broadcastInDim S100000x16 ![0, 1] bcast_S100000x1_S100000x16_0_1),
    TRef.binary (TRef.of (T := ⟨S100000x16, .f32⟩) main_call4_v5) (TRef.of (T := ⟨S100000x16, .f32⟩) main_call4_v10) (TRef.of (T := ⟨S100000x16, .f32⟩) main_v106) subf ]

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., unary_bufs_sub .., reshape_bufs_sub .., unary_bufs_sub .., reshape_bufs_sub .., nullary_bufs_sub .., binary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Operations 1 to 20. -/
abbrev s1 : List (HloOp τ sig (Elt F)) :=
  [
    binary main_arg2 main_arg3 main_v0 ((fun l r => Host.dotGeneral dot_S1600000x16_S16x32_S1600000x32_1_0_0_1_n_n none l r) : (⟨S1600000x16, .f32⟩ : BufTy).Contents (Elt F) → (⟨S16x32, .f32⟩ : BufTy).Contents (Elt F) → (⟨S1600000x32, .f32⟩ : BufTy).Contents (Elt F)),
    unary main_arg4 main_v1 (broadcastInDim S1x32 ![1] bcast_S32_S1x32_1 : (⟨S32, .f32⟩ : BufTy).Contents (Elt F) → (⟨S1x32, .f32⟩ : BufTy).Contents (Elt F)),
    unary main_v1 main_v2 (broadcastInDim S1600000x32 ![0, 1] bcast_S1x32_S1600000x32_0_1 : (⟨S1x32, .f32⟩ : BufTy).Contents (Elt F) → (⟨S1600000x32, .f32⟩ : BufTy).Contents (Elt F)),
    binary main_v0 main_v2 main_v3 (addf : (⟨S1600000x32, .f32⟩ : BufTy).Contents (Elt F) → (⟨S1600000x32, .f32⟩ : BufTy).Contents (Elt F) → (⟨S1600000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1600000x32, .f32⟩) main_call0_v0) (broadcastInDim S1600000x32 ![] bcast_S_S1600000x32),
    TRef.binary (TRef.of (T := ⟨S1600000x32, .f32⟩) main_v3) (TRef.of (T := ⟨S1600000x32, .f32⟩) main_call0_v0) (TRef.of (T := ⟨S1600000x32, .f32⟩) main_v4) maximumf,
    binary main_v4 main_arg5 main_v5 ((fun l r => Host.dotGeneral dot_S1600000x32_S32x1_S1600000x1_1_0_0_1_n_n none l r) : (⟨S1600000x32, .f32⟩ : BufTy).Contents (Elt F) → (⟨S32x1, .f32⟩ : BufTy).Contents (Elt F) → (⟨S1600000x1, .f32⟩ : BufTy).Contents (Elt F)),
    unary main_arg6 main_v6 (broadcastInDim S1x1 ![1] bcast_S1_S1x1_1 : (⟨S1, .f32⟩ : BufTy).Contents (Elt F) → (⟨S1x1, .f32⟩ : BufTy).Contents (Elt F)),
    unary main_v6 main_v7 (broadcastInDim S1600000x1 ![0, 1] bcast_S1x1_S1600000x1_0_1 : (⟨S1x1, .f32⟩ : BufTy).Contents (Elt F) → (⟨S1600000x1, .f32⟩ : BufTy).Contents (Elt F)),
    binary main_v5 main_v7 main_v8 (addf : (⟨S1600000x1, .f32⟩ : BufTy).Contents (Elt F) → (⟨S1600000x1, .f32⟩ : BufTy).Contents (Elt F) → (⟨S1600000x1, .f32⟩ : BufTy).Contents (Elt F)),
    unary main_v8 main_v9 (Host.negf : (⟨S1600000x1, .f32⟩ : BufTy).Contents (Elt F) → (⟨S1600000x1, .f32⟩ : BufTy).Contents (Elt F)),
    unary main_v9 main_v10 (Host.exp : (⟨S1600000x1, .f32⟩ : BufTy).Contents (Elt F) → (⟨S1600000x1, .f32⟩ : BufTy).Contents (Elt F)),
    nullary main_cst (constant S_ .f32 0x3F800000#32),
    unary main_cst main_v11 (broadcastInDim S1600000x1 ![] bcast_S_S1600000x1 : (⟨S_, .f32⟩ : BufTy).Contents (Elt F) → (⟨S1600000x1, .f32⟩ : BufTy).Contents (Elt F)),
    binary main_v11 main_v10 main_v12 (addf : (⟨S1600000x1, .f32⟩ : BufTy).Contents (Elt F) → (⟨S1600000x1, .f32⟩ : BufTy).Contents (Elt F) → (⟨S1600000x1, .f32⟩ : BufTy).Contents (Elt F)),
    nullary main_cst_0 (constant S_ .f32 0x3F800000#32),
    unary main_cst_0 main_v13 (broadcastInDim S1600000x1 ![] bcast_S_S1600000x1 : (⟨S_, .f32⟩ : BufTy).Contents (Elt F) → (⟨S1600000x1, .f32⟩ : BufTy).Contents (Elt F)),
    binary main_v13 main_v12 main_v14 (Host.divf : (⟨S1600000x1, .f32⟩ : BufTy).Contents (Elt F) → (⟨S1600000x1, .f32⟩ : BufTy).Contents (Elt F) → (⟨S1600000x1, .f32⟩ : BufTy).Contents (Elt F)),
    reshape main_v14 main_v15 rfl shapeCasts_S1600000x1_S1600000 ]

/-- Operations 21 to 31. -/
abbrev s2 : List (HloOp τ sig (Elt F)) :=
  [
    unary main_arg1 main_v16 ((extractStridedSlice S1x1600000 ![0, 0] · slices_S2x1600000_S1x1600000_0_0) : (⟨S2x1600000, .i32⟩ : BufTy).Contents (Elt F) → (⟨S1x1600000, .i32⟩ : BufTy).Contents (Elt F)),
    reshape main_v16 main_v17 rfl shapeCasts_S1x1600000_S1600000,
    unary main_arg1 main_v18 ((extractStridedSlice S1x1600000 ![1, 0] · slices_S2x1600000_S1x1600000_1_0) : (⟨S2x1600000, .i32⟩ : BufTy).Contents (Elt F) → (⟨S1x1600000, .i32⟩ : BufTy).Contents (Elt F)),
    reshape main_v18 main_v19 rfl shapeCasts_S1x1600000_S1600000,
    nullary main_v20 (iotaInDim S100000 32 0),
    binary main_v17 main_v20 main_v21 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v19 main_v20 main_v22 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_1 (constant S_ .f32 0x3F800000#32),
    unary main_cst_1 main_v23 (broadcastInDim S100000 ![] bcast_S_S100000 : (⟨S_, .f32⟩ : BufTy).Contents (Elt F) → (⟨S100000, .f32⟩ : BufTy).Contents (Elt F)),
    binary main_v15 main_v23 main_v24 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    binary main_arg0 main_arg7 main_v25 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- Operations 32 to 43. -/
abbrev s3 : List (HloOp τ sig (Elt F)) :=
  [
    nullary main_cst_2 (constant S_ .f32 0x00000000#32),
    unary main_cst_2 main_v26 (broadcastInDim S100000 ![] bcast_S_S100000 : (⟨S_, .f32⟩ : BufTy).Contents (Elt F) → (⟨S100000, .f32⟩ : BufTy).Contents (Elt F)),
    unary main_v22 main_v27 (broadcastInDim S1700000x1 ![0] bcast_S1700000_S1700000x1_0 : (⟨S1700000, .i32⟩ : BufTy).Contents (Elt F) → (⟨S1700000x1, .i32⟩ : BufTy).Contents (Elt F)),
    ternary main_v26 main_v27 main_v24 main_v28 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_3 (constant S_ .f32 0x00000000#32),
    unary main_cst_3 main_v29 (broadcastInDim S100000 ![] bcast_S_S100000 : (⟨S_, .f32⟩ : BufTy).Contents (Elt F) → (⟨S100000, .f32⟩ : BufTy).Contents (Elt F)),
    binary main_v28 main_v29 main_v30 (cmpf .ogt : (⟨S100000, .f32⟩ : BufTy).Contents (Elt F) → (⟨S100000, .f32⟩ : BufTy).Contents (Elt F) → (⟨S100000, .i1⟩ : BufTy).Contents (Elt F)),
    unary main_v28 main_v31 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v30) (TRef.of (T := ⟨S100000, .f32⟩) main_v31) (TRef.of (T := ⟨S100000, .f32⟩) main_call1_v1) (TRef.of (T := ⟨S100000, .f32⟩) main_v32) select ]

/-- Operations 44 to 64. -/
abbrev s4 : List (HloOp τ sig (Elt F)) :=
  [
    nullary main_c (constantI S_ 32 0#32),
    unary main_c main_v33 (broadcastInDim S1700000 ![] bcast_S_S1700000 : (⟨S_, .i32⟩ : BufTy).Contents (Elt F) → (⟨S1700000, .i32⟩ : BufTy).Contents (Elt F)),
    binary main_v21 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v35 (broadcastInDim S1700000 ![] bcast_S_S1700000 : (⟨S_, .i32⟩ : BufTy).Contents (Elt F) → (⟨S1700000, .i32⟩ : BufTy).Contents (Elt F)),
    binary main_v21 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v21 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v39 main_v24 main_v40 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v41 (broadcastInDim S1700000 ![] bcast_S_S1700000 : (⟨S_, .i32⟩ : BufTy).Contents (Elt F) → (⟨S1700000, .i32⟩ : BufTy).Contents (Elt F)),
    binary main_v22 main_v41 main_v42 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v43 (broadcastInDim S1700000 ![] bcast_S_S1700000 : (⟨S_, .i32⟩ : BufTy).Contents (Elt F) → (⟨S1700000, .i32⟩ : BufTy).Contents (Elt F)),
    binary main_v22 main_v43 main_v44 (addi : (⟨S1700000, .i32⟩ : BufTy).Contents (Elt F) → (⟨S1700000, .i32⟩ : BufTy).Contents (Elt F) → (⟨S1700000, .i32⟩ : BufTy).Contents (Elt F)),
    ternary main_v42 main_v44 main_v22 main_v45 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v45 main_v46 (broadcastInDim S1700000x1 ![0] bcast_S1700000_S1700000x1_0 : (⟨S1700000, .i32⟩ : BufTy).Contents (Elt F) → (⟨S1700000x1, .i32⟩ : BufTy).Contents (Elt F)),
    binary main_v32 main_v46 main_v47 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v40 main_v47 main_v48 (mulf : (⟨S1700000, .f32⟩ : BufTy).Contents (Elt F) → (⟨S1700000, .f32⟩ : BufTy).Contents (Elt F) → (⟨S1700000, .f32⟩ : BufTy).Contents (Elt F)),
    unary main_v48 main_v49 (broadcastInDim S1700000x1 ![0] bcast_S1700000_S1700000x1_0 : (⟨S1700000, .f32⟩ : BufTy).Contents (Elt F) → (⟨S1700000x1, .f32⟩ : BufTy).Contents (Elt F)) ]

/-- Operations 65 to 79. -/
abbrev s5 : List (HloOp τ sig (Elt F)) :=
  [
    nullary main_c_8 (constantI S_ 32 0#32),
    unary main_c_8 main_v50 (broadcastInDim S1700000 ![] bcast_S_S1700000 : (⟨S_, .i32⟩ : BufTy).Contents (Elt F) → (⟨S1700000, .i32⟩ : BufTy).Contents (Elt F)),
    binary main_v21 main_v50 main_v51 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v52 (broadcastInDim S1700000 ![] bcast_S_S1700000 : (⟨S_, .i32⟩ : BufTy).Contents (Elt F) → (⟨S1700000, .i32⟩ : BufTy).Contents (Elt F)),
    binary main_v21 main_v52 main_v53 (addi : (⟨S1700000, .i32⟩ : BufTy).Contents (Elt F) → (⟨S1700000, .i32⟩ : BufTy).Contents (Elt F) → (⟨S1700000, .i32⟩ : BufTy).Contents (Elt F)),
    ternary main_v51 main_v53 main_v21 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v54 main_v55 (broadcastInDim S1700000x1 ![0] bcast_S1700000_S1700000x1_0 : (⟨S1700000, .i32⟩ : BufTy).Contents (Elt F) → (⟨S1700000x1, .i32⟩ : BufTy).Contents (Elt F)),
    binary main_v25 main_v55 main_v56 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v49 main_v57 (broadcastInDim S1700000x64 ![0, 1] bcast_S1700000x1_S1700000x64_0_1 : (⟨S1700000x1, .f32⟩ : BufTy).Contents (Elt F) → (⟨S1700000x64, .f32⟩ : BufTy).Contents (Elt F)),
    binary main_v57 main_v56 main_v58 (mulf : (⟨S1700000x64, .f32⟩ : BufTy).Contents (Elt F) → (⟨S1700000x64, .f32⟩ : BufTy).Contents (Elt F) → (⟨S1700000x64, .f32⟩ : BufTy).Contents (Elt F)),
    nullary main_cst_10 (constant S_ .f32 0x00000000#32),
    unary main_cst_10 main_v59 (broadcastInDim S100000x64 ![] bcast_S_S100000x64 : (⟨S_, .f32⟩ : BufTy).Contents (Elt F) → (⟨S100000x64, .f32⟩ : BufTy).Contents (Elt F)),
    unary main_v22 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Operations 80 to 86. -/
abbrev s6 : List (HloOp τ sig (Elt F)) :=
  [
    unary main_arg8 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v64) (TRef.of (T := ⟨S100000x64, .f32⟩) main_call2_v0) (TRef.of (T := ⟨S100000x64, .f32⟩) main_v65) maximumf,
    binary main_v65 main_arg9 main_v66 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)) ]

/-- Operations 87 to 98. -/
abbrev s7 : List (HloOp τ sig (Elt F)) :=
  [
    nullary main_cst_11 (constant S_ .f32 0x00000000#32),
    unary main_cst_11 main_v67 (broadcastInDim S100000 ![] bcast_S_S100000 : (⟨S_, .f32⟩ : BufTy).Contents (Elt F) → (⟨S100000, .f32⟩ : BufTy).Contents (Elt F)),
    unary main_v22 main_v68 (broadcastInDim S1700000x1 ![0] bcast_S1700000_S1700000x1_0 : (⟨S1700000, .i32⟩ : BufTy).Contents (Elt F) → (⟨S1700000x1, .i32⟩ : BufTy).Contents (Elt F)),
    ternary main_v67 main_v68 main_v24 main_v69 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_12 (constant S_ .f32 0x00000000#32),
    unary main_cst_12 main_v70 (broadcastInDim S100000 ![] bcast_S_S100000 : (⟨S_, .f32⟩ : BufTy).Contents (Elt F) → (⟨S100000, .f32⟩ : BufTy).Contents (Elt F)),
    binary main_v69 main_v70 main_v71 (cmpf .ogt : (⟨S100000, .f32⟩ : BufTy).Contents (Elt F) → (⟨S100000, .f32⟩ : BufTy).Contents (Elt F) → (⟨S100000, .i1⟩ : BufTy).Contents (Elt F)),
    unary main_v69 main_v72 (Host.rsqrt : (⟨S100000, .f32⟩ : BufTy).Contents (Elt F) → (⟨S100000, .f32⟩ : BufTy).Contents (Elt F)),
    nullary main_cst_13 (constant S_ .f32 0x00000000#32),
    TRef.unary (TRef.of (T := ⟨S_, .f32⟩) main_cst_13) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.ternary (TRef.of (T := ⟨S100000, .i1⟩) main_v71) (TRef.of (T := ⟨S100000, .f32⟩) main_v72) (TRef.of (T := ⟨S100000, .f32⟩) main_call3_v1) (TRef.of (T := ⟨S100000, .f32⟩) main_v73) select ]

/-- Operations 99 to 119. -/
abbrev s8 : List (HloOp τ sig (Elt F)) :=
  [
    nullary main_c_14 (constantI S_ 32 0#32),
    unary main_c_14 main_v74 (broadcastInDim S1700000 ![] bcast_S_S1700000 : (⟨S_, .i32⟩ : BufTy).Contents (Elt F) → (⟨S1700000, .i32⟩ : BufTy).Contents (Elt F)),
    binary main_v21 main_v74 main_v75 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v76 (broadcastInDim S1700000 ![] bcast_S_S1700000 : (⟨S_, .i32⟩ : BufTy).Contents (Elt F) → (⟨S1700000, .i32⟩ : BufTy).Contents (Elt F)),
    binary main_v21 main_v76 main_v77 (addi : (⟨S1700000, .i32⟩ : BufTy).Contents (Elt F) → (⟨S1700000, .i32⟩ : BufTy).Contents (Elt F) → (⟨S1700000, .i32⟩ : BufTy).Contents (Elt F)),
    ternary main_v75 main_v77 main_v21 main_v78 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v78 main_v79 (broadcastInDim S1700000x1 ![0] bcast_S1700000_S1700000x1_0 : (⟨S1700000, .i32⟩ : BufTy).Contents (Elt F) → (⟨S1700000x1, .i32⟩ : BufTy).Contents (Elt F)),
    binary main_v73 main_v79 main_v80 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v80 main_v24 main_v81 (mulf : (⟨S1700000, .f32⟩ : BufTy).Contents (Elt F) → (⟨S1700000, .f32⟩ : BufTy).Contents (Elt F) → (⟨S1700000, .f32⟩ : BufTy).Contents (Elt F)),
    nullary main_c_16 (constantI S_ 32 0#32),
    unary main_c_16 main_v82 (broadcastInDim S1700000 ![] bcast_S_S1700000 : (⟨S_, .i32⟩ : BufTy).Contents (Elt F) → (⟨S1700000, .i32⟩ : BufTy).Contents (Elt F)),
    binary main_v22 main_v82 main_v83 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v84 (broadcastInDim S1700000 ![] bcast_S_S1700000 : (⟨S_, .i32⟩ : BufTy).Contents (Elt F) → (⟨S1700000, .i32⟩ : BufTy).Contents (Elt F)),
    binary main_v22 main_v84 main_v85 (addi : (⟨S1700000, .i32⟩ : BufTy).Contents (Elt F) → (⟨S1700000, .i32⟩ : BufTy).Contents (Elt F) → (⟨S1700000, .i32⟩ : BufTy).Contents (Elt F)),
    ternary main_v83 main_v85 main_v22 main_v86 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v86 main_v87 (broadcastInDim S1700000x1 ![0] bcast_S1700000_S1700000x1_0 : (⟨S1700000, .i32⟩ : BufTy).Contents (Elt F) → (⟨S1700000x1, .i32⟩ : BufTy).Contents (Elt F)),
    binary main_v73 main_v87 main_v88 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v81 main_v88 main_v89 (mulf : (⟨S1700000, .f32⟩ : BufTy).Contents (Elt F) → (⟨S1700000, .f32⟩ : BufTy).Contents (Elt F) → (⟨S1700000, .f32⟩ : BufTy).Contents (Elt F)),
    unary main_v89 main_v90 (broadcastInDim S1700000x1 ![0] bcast_S1700000_S1700000x1_0 : (⟨S1700000, .f32⟩ : BufTy).Contents (Elt F) → (⟨S1700000x1, .f32⟩ : BufTy).Contents (Elt F)) ]

/-- Operations 120 to 134. -/
abbrev s9 : List (HloOp τ sig (Elt F)) :=
  [
    nullary main_c_18 (constantI S_ 32 0#32),
    unary main_c_18 main_v91 (broadcastInDim S1700000 ![] bcast_S_S1700000 : (⟨S_, .i32⟩ : BufTy).Contents (Elt F) → (⟨S1700000, .i32⟩ : BufTy).Contents (Elt F)),
    binary main_v21 main_v91 main_v92 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v93 (broadcastInDim S1700000 ![] bcast_S_S1700000 : (⟨S_, .i32⟩ : BufTy).Contents (Elt F) → (⟨S1700000, .i32⟩ : BufTy).Contents (Elt F)),
    binary main_v21 main_v93 main_v94 (addi : (⟨S1700000, .i32⟩ : BufTy).Contents (Elt F) → (⟨S1700000, .i32⟩ : BufTy).Contents (Elt F) → (⟨S1700000, .i32⟩ : BufTy).Contents (Elt F)),
    ternary main_v92 main_v94 main_v21 main_v95 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v95 main_v96 (broadcastInDim S1700000x1 ![0] bcast_S1700000_S1700000x1_0 : (⟨S1700000, .i32⟩ : BufTy).Contents (Elt F) → (⟨S1700000x1, .i32⟩ : BufTy).Contents (Elt F)),
    binary main_v66 main_v96 main_v97 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v90 main_v98 (broadcastInDim S1700000x16 ![0, 1] bcast_S1700000x1_S1700000x16_0_1 : (⟨S1700000x1, .f32⟩ : BufTy).Contents (Elt F) → (⟨S1700000x16, .f32⟩ : BufTy).Contents (Elt F)),
    binary main_v98 main_v97 main_v99 (mulf : (⟨S1700000x16, .f32⟩ : BufTy).Contents (Elt F) → (⟨S1700000x16, .f32⟩ : BufTy).Contents (Elt F) → (⟨S1700000x16, .f32⟩ : BufTy).Contents (Elt F)),
    nullary main_cst_20 (constant S_ .f32 0x00000000#32),
    unary main_cst_20 main_v100 (broadcastInDim S100000x16 ![] bcast_S_S100000x16 : (⟨S_, .f32⟩ : BufTy).Contents (Elt F) → (⟨S100000x16, .f32⟩ : BufTy).Contents (Elt F)),
    unary main_v22 main_v101 (broadcastInDim S1700000x1 ![0] bcast_S1700000_S1700000x1_0 : (⟨S1700000, .i32⟩ : BufTy).Contents (Elt F) → (⟨S1700000x1, .i32⟩ : BufTy).Contents (Elt F)),
    ternary main_v100 main_v101 main_v99 main_v102 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)) ]

/-- Operations 135 to 152. -/
abbrev s10 : List (HloOp τ sig (Elt F)) :=
  [
    unary main_arg10 main_v103 (broadcastInDim S1x16 ![1] bcast_S16_S1x16_1 : (⟨S16, .f32⟩ : BufTy).Contents (Elt F) → (⟨S1x16, .f32⟩ : BufTy).Contents (Elt F)),
    unary main_v103 main_v104 (broadcastInDim S100000x16 ![0, 1] bcast_S1x16_S100000x16_0_1 : (⟨S1x16, .f32⟩ : BufTy).Contents (Elt F) → (⟨S100000x16, .f32⟩ : BufTy).Contents (Elt F)),
    binary main_v102 main_v104 main_v105 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call4_cst) (constant S_ .f32 0xFF800000#32),
    TRef.binary (TRef.of (T := ⟨S100000x16, .f32⟩) main_v105) (TRef.of (T := ⟨S_, .f32⟩) main_call4_cst) (TRef.of (T := ⟨S100000, .f32⟩) main_call4_v0) (fun x v => Host.reduce FloatOps.maximumf x v reducesTo_S100000x16_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x16, .f32⟩) main_call4_v4) (broadcastInDim S100000x16 ![0, 1] bcast_S100000x1_S100000x16_0_1),
    TRef.binary (TRef.of (T := ⟨S100000x16, .f32⟩) main_v105) (TRef.of (T := ⟨S100000x16, .f32⟩) main_call4_v4) (TRef.of (T := ⟨S100000x16, .f32⟩) main_call4_v5) subf,
    TRef.unary (TRef.of (T := ⟨S100000x16, .f32⟩) main_call4_v5) (TRef.of (T := ⟨S100000x16, .f32⟩) main_call4_v6) Host.exp,
    TRef.nullary (TRef.of (T := ⟨S_, .f32⟩) main_call4_cst_1) (constant S_ .f32 0x00000000#32),
    TRef.binary (TRef.of (T := ⟨S100000x16, .f32⟩) main_call4_v6) (TRef.of (T := ⟨S_, .f32⟩) main_call4_cst_1) (TRef.of (T := ⟨S100000, .f32⟩) main_call4_v7) (fun x v => Host.reduceAdd x v reducesTo_S100000x16_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x16, .f32⟩) main_call4_v10) (broadcastInDim S100000x16 ![0, 1] bcast_S100000x1_S100000x16_0_1),
    TRef.binary (TRef.of (T := ⟨S100000x16, .f32⟩) main_call4_v5) (TRef.of (T := ⟨S100000x16, .f32⟩) main_call4_v10) (TRef.of (T := ⟨S100000x16, .f32⟩) main_v106) subf ]

/-- The line of operations is its ten stretches joined. -/
theorem ops_split : (ops : List (HloOp τ sig (Elt F))) = s1 ++ (s2 ++ (s3 ++ (s4 ++ (s5 ++ (s6 ++ (s7 ++ (s8 ++ (s9 ++ s10)))))))) := rfl

/-- Closes "no operation of the stretch writes this buffer" for a literal stretch: each operation writes one buffer,
    and the references are told apart by computation. -/
macro "unwritten" : tactic =>
  `(tactic| (refine List.forall_iff_forall_mem.mp ?_
             simp only [ops, s1, s2, s3, s4, s5, s6, s7, s8, s9, s10, List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

/-- A value written through a typed reference and read back through it is the value. -/
theorem ofBuf_toBuf {T : BufTy} (x : TRef sig T) (v : T.Contents (Elt F)) : x.ofBuf (x.toBuf v) = v := by
  simp only [TRef.ofBuf, TRef.toBuf, cast_cast, cast_eq]

/-- Reading the biased logits through their typed reference, and writing the result through its own, change nothing:
    the references are literal and their types are the values' types. -/
theorem read_v105 (y : (⟨S100000x16, .f32⟩ : BufTy).Contents (Elt F)) :
    (TRef.of (T := ⟨S100000x16, .f32⟩) main_v105).ofBuf y = y := rfl
theorem write_v106 (y : (⟨S100000x16, .f32⟩ : BufTy).Contents (Elt F)) :
    (TRef.of (T := ⟨S100000x16, .f32⟩) main_v106).toBuf y = y := rfl

/-! ## What each stretch leaves in the buffers read after it, from any contents -/

theorem s1_v15 (W : Valuation τ sig (Elt F)) (x2 : (⟨S1600000x16, .f32⟩ : BufTy).Contents (Elt F)) (x3 : (⟨S16x32, .f32⟩ : BufTy).Contents (Elt F)) (x4 : (⟨S32, .f32⟩ : BufTy).Contents (Elt F)) (x5 : (⟨S32x1, .f32⟩ : BufTy).Contents (Elt F)) (x6 : (⟨S1, .f32⟩ : BufTy).Contents (Elt F))
    (harg2 : W (Proc.devRef .tc main_arg2) = x2)
    (harg3 : W (Proc.devRef .tc main_arg3) = x3)
    (harg4 : W (Proc.devRef .tc main_arg4) = x4)
    (harg5 : W (Proc.devRef .tc main_arg5) = x5)
    (harg6 : W (Proc.devRef .tc main_arg6) = x6) :
    after s1 W (Proc.devRef .tc main_v15) = val_main_v15 (F := F) x2 x3 x4 x5 x6 := by
  dsimp only [s1]
  after_results_simp
  rw [harg2, harg3, harg4, harg5, harg6]
  rfl

theorem s2_v21 (W : Valuation τ sig (Elt F)) (x1 : (⟨S2x1600000, .i32⟩ : BufTy).Contents (Elt F))
    (harg1 : W (Proc.devRef .tc main_arg1) = x1) :
    after s2 W (Proc.devRef .tc main_v21) = val_main_v21 (F := F) x1 := by
  dsimp only [s2]
  after_results
  rw [harg1]
  rfl

theorem s2_v22 (W : Valuation τ sig (Elt F)) (x1 : (⟨S2x1600000, .i32⟩ : BufTy).Contents (Elt F))
    (harg1 : W (Proc.devRef .tc main_arg1) = x1) :
    after s2 W (Proc.devRef .tc main_v22) = val_main_v22 (F := F) x1 := by
  dsimp only [s2]
  after_results
  rw [harg1]
  rfl

theorem s2_v24 (W : Valuation τ sig (Elt F)) (x2 : (⟨S1600000x16, .f32⟩ : BufTy).Contents (Elt F)) (x3 : (⟨S16x32, .f32⟩ : BufTy).Contents (Elt F)) (x4 : (⟨S32, .f32⟩ : BufTy).Contents (Elt F)) (x5 : (⟨S32x1, .f32⟩ : BufTy).Contents (Elt F)) (x6 : (⟨S1, .f32⟩ : BufTy).Contents (Elt F))
    (hv15 : W (Proc.devRef .tc main_v15) = val_main_v15 (F := F) x2 x3 x4 x5 x6) :
    after s2 W (Proc.devRef .tc main_v24) = val_main_v24 (F := F) x2 x3 x4 x5 x6 := by
  dsimp only [s2]
  after_results
  rw [hv15]
  rfl

theorem s2_v25 (W : Valuation τ sig (Elt F)) (x0 : (⟨S100000x128, .f32⟩ : BufTy).Contents (Elt F)) (x7 : (⟨S128x64, .f32⟩ : BufTy).Contents (Elt F))
    (harg0 : W (Proc.devRef .tc main_arg0) = x0)
    (harg7 : W (Proc.devRef .tc main_arg7) = x7) :
    after s2 W (Proc.devRef .tc main_v25) = val_main_v25 (F := F) x0 x7 := by
  dsimp only [s2]
  after_results
  rw [harg0, harg7]
  rfl

theorem s3_v32 (W : Valuation τ sig (Elt F)) (x1 : (⟨S2x1600000, .i32⟩ : BufTy).Contents (Elt F)) (x2 : (⟨S1600000x16, .f32⟩ : BufTy).Contents (Elt F)) (x3 : (⟨S16x32, .f32⟩ : BufTy).Contents (Elt F)) (x4 : (⟨S32, .f32⟩ : BufTy).Contents (Elt F)) (x5 : (⟨S32x1, .f32⟩ : BufTy).Contents (Elt F)) (x6 : (⟨S1, .f32⟩ : BufTy).Contents (Elt F))
    (hv22 : W (Proc.devRef .tc main_v22) = val_main_v22 (F := F) x1)
    (hv24 : W (Proc.devRef .tc main_v24) = val_main_v24 (F := F) x2 x3 x4 x5 x6) :
    after s3 W (Proc.devRef .tc main_v32) = val_main_v32 (F := F) x1 x2 x3 x4 x5 x6 := by
  dsimp only [s3]
  after_results_simp
  rw [hv22, hv24]
  rfl

theorem s4_v49 (W : Valuation τ sig (Elt F)) (x1 : (⟨S2x1600000, .i32⟩ : BufTy).Contents (Elt F)) (x2 : (⟨S1600000x16, .f32⟩ : BufTy).Contents (Elt F)) (x3 : (⟨S16x32, .f32⟩ : BufTy).Contents (Elt F)) (x4 : (⟨S32, .f32⟩ : BufTy).Contents (Elt F)) (x5 : (⟨S32x1, .f32⟩ : BufTy).Contents (Elt F)) (x6 : (⟨S1, .f32⟩ : BufTy).Contents (Elt F))
    (hv21 : W (Proc.devRef .tc main_v21) = val_main_v21 (F := F) x1)
    (hv22 : W (Proc.devRef .tc main_v22) = val_main_v22 (F := F) x1)
    (hv24 : W (Proc.devRef .tc main_v24) = val_main_v24 (F := F) x2 x3 x4 x5 x6)
    (hv32 : W (Proc.devRef .tc main_v32) = val_main_v32 (F := F) x1 x2 x3 x4 x5 x6) :
    after s4 W (Proc.devRef .tc main_v49) = val_main_v49 (F := F) x1 x2 x3 x4 x5 x6 := by
  dsimp only [s4]
  after_results_simp
  rw [hv21, hv22, hv24, hv32]
  rfl

theorem s5_v61 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S16x32, .f32⟩ : BufTy).Contents (Elt F)) (x4 : (⟨S32, .f32⟩ : BufTy).Contents (Elt F)) (x5 : (⟨S32x1, .f32⟩ : BufTy).Contents (Elt F)) (x6 : (⟨S1, .f32⟩ : BufTy).Contents (Elt F)) (x7 : (⟨S128x64, .f32⟩ : BufTy).Contents (Elt F))
    (hv21 : W (Proc.devRef .tc main_v21) = val_main_v21 (F := F) x1)
    (hv22 : W (Proc.devRef .tc main_v22) = val_main_v22 (F := F) x1)
    (hv25 : W (Proc.devRef .tc main_v25) = val_main_v25 (F := F) x0 x7)
    (hv49 : W (Proc.devRef .tc main_v49) = val_main_v49 (F := F) x1 x2 x3 x4 x5 x6) :
    after s5 W (Proc.devRef .tc main_v61) = val_main_v61 (F := F) x0 x1 x2 x3 x4 x5 x6 x7 := by
  dsimp only [s5]
  after_results_simp
  rw [hv21, hv22, hv25, hv49]
  rfl

theorem s6_v66 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S16x32, .f32⟩ : BufTy).Contents (Elt F)) (x4 : (⟨S32, .f32⟩ : BufTy).Contents (Elt F)) (x5 : (⟨S32x1, .f32⟩ : BufTy).Contents (Elt F)) (x6 : (⟨S1, .f32⟩ : BufTy).Contents (Elt F)) (x7 : (⟨S128x64, .f32⟩ : BufTy).Contents (Elt F)) (x8 : (⟨S64, .f32⟩ : BufTy).Contents (Elt F)) (x9 : (⟨S64x16, .f32⟩ : BufTy).Contents (Elt F))
    (hv61 : W (Proc.devRef .tc main_v61) = val_main_v61 (F := F) x0 x1 x2 x3 x4 x5 x6 x7)
    (harg8 : W (Proc.devRef .tc main_arg8) = x8)
    (harg9 : W (Proc.devRef .tc main_arg9) = x9) :
    after s6 W (Proc.devRef .tc main_v66) = val_main_v66 (F := F) x0 x1 x2 x3 x4 x5 x6 x7 x8 x9 := by
  dsimp only [s6]
  after_results_simp
  rw [hv61, harg8, harg9]
  rfl

theorem s7_v73 (W : Valuation τ sig (Elt F)) (x1 : (⟨S2x1600000, .i32⟩ : BufTy).Contents (Elt F)) (x2 : (⟨S1600000x16, .f32⟩ : BufTy).Contents (Elt F)) (x3 : (⟨S16x32, .f32⟩ : BufTy).Contents (Elt F)) (x4 : (⟨S32, .f32⟩ : BufTy).Contents (Elt F)) (x5 : (⟨S32x1, .f32⟩ : BufTy).Contents (Elt F)) (x6 : (⟨S1, .f32⟩ : BufTy).Contents (Elt F))
    (hv22 : W (Proc.devRef .tc main_v22) = val_main_v22 (F := F) x1)
    (hv24 : W (Proc.devRef .tc main_v24) = val_main_v24 (F := F) x2 x3 x4 x5 x6) :
    after s7 W (Proc.devRef .tc main_v73) = val_main_v73 (F := F) x1 x2 x3 x4 x5 x6 := by
  dsimp only [s7]
  after_results_simp
  rw [hv22, hv24]
  rfl

theorem s8_v90 (W : Valuation τ sig (Elt F)) (x1 : (⟨S2x1600000, .i32⟩ : BufTy).Contents (Elt F)) (x2 : (⟨S1600000x16, .f32⟩ : BufTy).Contents (Elt F)) (x3 : (⟨S16x32, .f32⟩ : BufTy).Contents (Elt F)) (x4 : (⟨S32, .f32⟩ : BufTy).Contents (Elt F)) (x5 : (⟨S32x1, .f32⟩ : BufTy).Contents (Elt F)) (x6 : (⟨S1, .f32⟩ : BufTy).Contents (Elt F))
    (hv21 : W (Proc.devRef .tc main_v21) = val_main_v21 (F := F) x1)
    (hv22 : W (Proc.devRef .tc main_v22) = val_main_v22 (F := F) x1)
    (hv24 : W (Proc.devRef .tc main_v24) = val_main_v24 (F := F) x2 x3 x4 x5 x6)
    (hv73 : W (Proc.devRef .tc main_v73) = val_main_v73 (F := F) x1 x2 x3 x4 x5 x6) :
    after s8 W (Proc.devRef .tc main_v90) = val_main_v90 (F := F) x1 x2 x3 x4 x5 x6 := by
  dsimp only [s8]
  after_results_simp
  rw [hv21, hv22, hv24, hv73]
  rfl

theorem s9_v102 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S16x32, .f32⟩ : BufTy).Contents (Elt F)) (x4 : (⟨S32, .f32⟩ : BufTy).Contents (Elt F)) (x5 : (⟨S32x1, .f32⟩ : BufTy).Contents (Elt F)) (x6 : (⟨S1, .f32⟩ : BufTy).Contents (Elt F)) (x7 : (⟨S128x64, .f32⟩ : BufTy).Contents (Elt F)) (x8 : (⟨S64, .f32⟩ : BufTy).Contents (Elt F)) (x9 : (⟨S64x16, .f32⟩ : BufTy).Contents (Elt F))
    (hv21 : W (Proc.devRef .tc main_v21) = val_main_v21 (F := F) x1)
    (hv22 : W (Proc.devRef .tc main_v22) = val_main_v22 (F := F) x1)
    (hv66 : W (Proc.devRef .tc main_v66) = val_main_v66 (F := F) x0 x1 x2 x3 x4 x5 x6 x7 x8 x9)
    (hv90 : W (Proc.devRef .tc main_v90) = val_main_v90 (F := F) x1 x2 x3 x4 x5 x6) :
    after s9 W (Proc.devRef .tc main_v102) = val_main_v102 (F := F) x0 x1 x2 x3 x4 x5 x6 x7 x8 x9 := by
  dsimp only [s9]
  after_results_simp
  rw [hv21, hv22, hv66, hv90]
  rfl

theorem s10_v106 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S16x32, .f32⟩ : BufTy).Contents (Elt F)) (x4 : (⟨S32, .f32⟩ : BufTy).Contents (Elt F)) (x5 : (⟨S32x1, .f32⟩ : BufTy).Contents (Elt F)) (x6 : (⟨S1, .f32⟩ : BufTy).Contents (Elt F)) (x7 : (⟨S128x64, .f32⟩ : BufTy).Contents (Elt F)) (x8 : (⟨S64, .f32⟩ : BufTy).Contents (Elt F)) (x9 : (⟨S64x16, .f32⟩ : BufTy).Contents (Elt F)) (x10 : (⟨S16, .f32⟩ : BufTy).Contents (Elt F))
    (hv102 : W (Proc.devRef .tc main_v102) = val_main_v102 (F := F) x0 x1 x2 x3 x4 x5 x6 x7 x8 x9)
    (harg10 : W (Proc.devRef .tc main_arg10) = x10) :
    after s10 W (Proc.devRef .tc main_v106) = val_main_v106 (F := F) x0 x1 x2 x3 x4 x5 x6 x7 x8 x9 x10 := by
  dsimp only [s10]
  after_results_simp
  rw [hv102, harg10]
  simp only [ofBuf_toBuf, read_v105, write_v106, val_main_v106, val_main_call4_v10, val_main_call4_v9, val_main_call4_v8,
    val_main_call4_v7, val_main_call4_cst_1, val_main_call4_v6, val_main_call4_v5, val_main_call4_v4, val_main_call4_v3,
    val_main_call4_v2, val_main_call4_v1, val_main_call4_cst_0, val_main_call4_v0, val_main_call4_cst, val_main_v105,
    val_main_v104, val_main_v103]

/-! ## What each stretch keeps -/

theorem kept1_arg0 (W : Valuation τ sig (Elt F)) : after s1 W (Proc.devRef .tc main_arg0) = W (Proc.devRef .tc main_arg0) :=
  after_of_forall_not_mem s1 W (by unwritten)
theorem kept1_arg1 (W : Valuation τ sig (Elt F)) : after s1 W (Proc.devRef .tc main_arg1) = W (Proc.devRef .tc main_arg1) :=
  after_of_forall_not_mem s1 W (by unwritten)
theorem kept1_arg7 (W : Valuation τ sig (Elt F)) : after s1 W (Proc.devRef .tc main_arg7) = W (Proc.devRef .tc main_arg7) :=
  after_of_forall_not_mem s1 W (by unwritten)
theorem kept1_arg8 (W : Valuation τ sig (Elt F)) : after s1 W (Proc.devRef .tc main_arg8) = W (Proc.devRef .tc main_arg8) :=
  after_of_forall_not_mem s1 W (by unwritten)
theorem kept1_arg9 (W : Valuation τ sig (Elt F)) : after s1 W (Proc.devRef .tc main_arg9) = W (Proc.devRef .tc main_arg9) :=
  after_of_forall_not_mem s1 W (by unwritten)
theorem kept1_arg10 (W : Valuation τ sig (Elt F)) : after s1 W (Proc.devRef .tc main_arg10) = W (Proc.devRef .tc main_arg10) :=
  after_of_forall_not_mem s1 W (by unwritten)
theorem kept2_arg8 (W : Valuation τ sig (Elt F)) : after s2 W (Proc.devRef .tc main_arg8) = W (Proc.devRef .tc main_arg8) :=
  after_of_forall_not_mem s2 W (by unwritten)
theorem kept2_arg9 (W : Valuation τ sig (Elt F)) : after s2 W (Proc.devRef .tc main_arg9) = W (Proc.devRef .tc main_arg9) :=
  after_of_forall_not_mem s2 W (by unwritten)
theorem kept2_arg10 (W : Valuation τ sig (Elt F)) : after s2 W (Proc.devRef .tc main_arg10) = W (Proc.devRef .tc main_arg10) :=
  after_of_forall_not_mem s2 W (by unwritten)
theorem kept3_v21 (W : Valuation τ sig (Elt F)) : after s3 W (Proc.devRef .tc main_v21) = W (Proc.devRef .tc main_v21) :=
  after_of_forall_not_mem s3 W (by unwritten)
theorem kept3_v22 (W : Valuation τ sig (Elt F)) : after s3 W (Proc.devRef .tc main_v22) = W (Proc.devRef .tc main_v22) :=
  after_of_forall_not_mem s3 W (by unwritten)
theorem kept3_v24 (W : Valuation τ sig (Elt F)) : after s3 W (Proc.devRef .tc main_v24) = W (Proc.devRef .tc main_v24) :=
  after_of_forall_not_mem s3 W (by unwritten)
theorem kept3_v25 (W : Valuation τ sig (Elt F)) : after s3 W (Proc.devRef .tc main_v25) = W (Proc.devRef .tc main_v25) :=
  after_of_forall_not_mem s3 W (by unwritten)
theorem kept3_arg8 (W : Valuation τ sig (Elt F)) : after s3 W (Proc.devRef .tc main_arg8) = W (Proc.devRef .tc main_arg8) :=
  after_of_forall_not_mem s3 W (by unwritten)
theorem kept3_arg9 (W : Valuation τ sig (Elt F)) : after s3 W (Proc.devRef .tc main_arg9) = W (Proc.devRef .tc main_arg9) :=
  after_of_forall_not_mem s3 W (by unwritten)
theorem kept3_arg10 (W : Valuation τ sig (Elt F)) : after s3 W (Proc.devRef .tc main_arg10) = W (Proc.devRef .tc main_arg10) :=
  after_of_forall_not_mem s3 W (by unwritten)
theorem kept4_v21 (W : Valuation τ sig (Elt F)) : after s4 W (Proc.devRef .tc main_v21) = W (Proc.devRef .tc main_v21) :=
  after_of_forall_not_mem s4 W (by unwritten)
theorem kept4_v22 (W : Valuation τ sig (Elt F)) : after s4 W (Proc.devRef .tc main_v22) = W (Proc.devRef .tc main_v22) :=
  after_of_forall_not_mem s4 W (by unwritten)
theorem kept4_v24 (W : Valuation τ sig (Elt F)) : after s4 W (Proc.devRef .tc main_v24) = W (Proc.devRef .tc main_v24) :=
  after_of_forall_not_mem s4 W (by unwritten)
theorem kept4_v25 (W : Valuation τ sig (Elt F)) : after s4 W (Proc.devRef .tc main_v25) = W (Proc.devRef .tc main_v25) :=
  after_of_forall_not_mem s4 W (by unwritten)
theorem kept4_arg8 (W : Valuation τ sig (Elt F)) : after s4 W (Proc.devRef .tc main_arg8) = W (Proc.devRef .tc main_arg8) :=
  after_of_forall_not_mem s4 W (by unwritten)
theorem kept4_arg9 (W : Valuation τ sig (Elt F)) : after s4 W (Proc.devRef .tc main_arg9) = W (Proc.devRef .tc main_arg9) :=
  after_of_forall_not_mem s4 W (by unwritten)
theorem kept4_arg10 (W : Valuation τ sig (Elt F)) : after s4 W (Proc.devRef .tc main_arg10) = W (Proc.devRef .tc main_arg10) :=
  after_of_forall_not_mem s4 W (by unwritten)
theorem kept5_v21 (W : Valuation τ sig (Elt F)) : after s5 W (Proc.devRef .tc main_v21) = W (Proc.devRef .tc main_v21) :=
  after_of_forall_not_mem s5 W (by unwritten)
theorem kept5_v22 (W : Valuation τ sig (Elt F)) : after s5 W (Proc.devRef .tc main_v22) = W (Proc.devRef .tc main_v22) :=
  after_of_forall_not_mem s5 W (by unwritten)
theorem kept5_v24 (W : Valuation τ sig (Elt F)) : after s5 W (Proc.devRef .tc main_v24) = W (Proc.devRef .tc main_v24) :=
  after_of_forall_not_mem s5 W (by unwritten)
theorem kept5_arg8 (W : Valuation τ sig (Elt F)) : after s5 W (Proc.devRef .tc main_arg8) = W (Proc.devRef .tc main_arg8) :=
  after_of_forall_not_mem s5 W (by unwritten)
theorem kept5_arg9 (W : Valuation τ sig (Elt F)) : after s5 W (Proc.devRef .tc main_arg9) = W (Proc.devRef .tc main_arg9) :=
  after_of_forall_not_mem s5 W (by unwritten)
theorem kept5_arg10 (W : Valuation τ sig (Elt F)) : after s5 W (Proc.devRef .tc main_arg10) = W (Proc.devRef .tc main_arg10) :=
  after_of_forall_not_mem s5 W (by unwritten)
theorem kept6_v21 (W : Valuation τ sig (Elt F)) : after s6 W (Proc.devRef .tc main_v21) = W (Proc.devRef .tc main_v21) :=
  after_of_forall_not_mem s6 W (by unwritten)
theorem kept6_v22 (W : Valuation τ sig (Elt F)) : after s6 W (Proc.devRef .tc main_v22) = W (Proc.devRef .tc main_v22) :=
  after_of_forall_not_mem s6 W (by unwritten)
theorem kept6_v24 (W : Valuation τ sig (Elt F)) : after s6 W (Proc.devRef .tc main_v24) = W (Proc.devRef .tc main_v24) :=
  after_of_forall_not_mem s6 W (by unwritten)
theorem kept6_arg10 (W : Valuation τ sig (Elt F)) : after s6 W (Proc.devRef .tc main_arg10) = W (Proc.devRef .tc main_arg10) :=
  after_of_forall_not_mem s6 W (by unwritten)
theorem kept7_v21 (W : Valuation τ sig (Elt F)) : after s7 W (Proc.devRef .tc main_v21) = W (Proc.devRef .tc main_v21) :=
  after_of_forall_not_mem s7 W (by unwritten)
theorem kept7_v22 (W : Valuation τ sig (Elt F)) : after s7 W (Proc.devRef .tc main_v22) = W (Proc.devRef .tc main_v22) :=
  after_of_forall_not_mem s7 W (by unwritten)
theorem kept7_v24 (W : Valuation τ sig (Elt F)) : after s7 W (Proc.devRef .tc main_v24) = W (Proc.devRef .tc main_v24) :=
  after_of_forall_not_mem s7 W (by unwritten)
theorem kept7_v66 (W : Valuation τ sig (Elt F)) : after s7 W (Proc.devRef .tc main_v66) = W (Proc.devRef .tc main_v66) :=
  after_of_forall_not_mem s7 W (by unwritten)
theorem kept7_arg10 (W : Valuation τ sig (Elt F)) : after s7 W (Proc.devRef .tc main_arg10) = W (Proc.devRef .tc main_arg10) :=
  after_of_forall_not_mem s7 W (by unwritten)
theorem kept8_v21 (W : Valuation τ sig (Elt F)) : after s8 W (Proc.devRef .tc main_v21) = W (Proc.devRef .tc main_v21) :=
  after_of_forall_not_mem s8 W (by unwritten)
theorem kept8_v22 (W : Valuation τ sig (Elt F)) : after s8 W (Proc.devRef .tc main_v22) = W (Proc.devRef .tc main_v22) :=
  after_of_forall_not_mem s8 W (by unwritten)
theorem kept8_v66 (W : Valuation τ sig (Elt F)) : after s8 W (Proc.devRef .tc main_v66) = W (Proc.devRef .tc main_v66) :=
  after_of_forall_not_mem s8 W (by unwritten)
theorem kept8_arg10 (W : Valuation τ sig (Elt F)) : after s8 W (Proc.devRef .tc main_arg10) = W (Proc.devRef .tc main_arg10) :=
  after_of_forall_not_mem s8 W (by unwritten)
theorem kept9_arg10 (W : Valuation τ sig (Elt F)) : after s9 W (Proc.devRef .tc main_arg10) = W (Proc.devRef .tc main_arg10) :=
  after_of_forall_not_mem s9 W (by unwritten)

/-! ## The contents at the boundaries between the stretches, read forward -/

def W1 (V : Valuation τ sig (Elt F)) : Valuation τ sig (Elt F) := after s1 V
def W2 (V : Valuation τ sig (Elt F)) : Valuation τ sig (Elt F) := after s2 (W1 V)
def W3 (V : Valuation τ sig (Elt F)) : Valuation τ sig (Elt F) := after s3 (W2 V)
def W4 (V : Valuation τ sig (Elt F)) : Valuation τ sig (Elt F) := after s4 (W3 V)
def W5 (V : Valuation τ sig (Elt F)) : Valuation τ sig (Elt F) := after s5 (W4 V)
def W6 (V : Valuation τ sig (Elt F)) : Valuation τ sig (Elt F) := after s6 (W5 V)
def W7 (V : Valuation τ sig (Elt F)) : Valuation τ sig (Elt F) := after s7 (W6 V)
def W8 (V : Valuation τ sig (Elt F)) : Valuation τ sig (Elt F) := after s8 (W7 V)
def W9 (V : Valuation τ sig (Elt F)) : Valuation τ sig (Elt F) := after s9 (W8 V)
def W10 (V : Valuation τ sig (Elt F)) : Valuation τ sig (Elt F) := after s10 (W9 V)

theorem at1_v15 (V : Valuation τ sig (Elt F)) : W1 V (Proc.devRef .tc main_v15) = val_main_v15 (F := F) (V (Proc.devRef .tc main_arg2)) (V (Proc.devRef .tc main_arg3)) (V (Proc.devRef .tc main_arg4)) (V (Proc.devRef .tc main_arg5)) (V (Proc.devRef .tc main_arg6)) :=
  s1_v15 V _ _ _ _ _ (rfl) (rfl) (rfl) (rfl) (rfl)
theorem at1_arg0 (V : Valuation τ sig (Elt F)) : W1 V (Proc.devRef .tc main_arg0) = V (Proc.devRef .tc main_arg0) :=
  (kept1_arg0 V).trans (rfl)
theorem at1_arg1 (V : Valuation τ sig (Elt F)) : W1 V (Proc.devRef .tc main_arg1) = V (Proc.devRef .tc main_arg1) :=
  (kept1_arg1 V).trans (rfl)
theorem at1_arg7 (V : Valuation τ sig (Elt F)) : W1 V (Proc.devRef .tc main_arg7) = V (Proc.devRef .tc main_arg7) :=
  (kept1_arg7 V).trans (rfl)
theorem at1_arg8 (V : Valuation τ sig (Elt F)) : W1 V (Proc.devRef .tc main_arg8) = V (Proc.devRef .tc main_arg8) :=
  (kept1_arg8 V).trans (rfl)
theorem at1_arg9 (V : Valuation τ sig (Elt F)) : W1 V (Proc.devRef .tc main_arg9) = V (Proc.devRef .tc main_arg9) :=
  (kept1_arg9 V).trans (rfl)
theorem at1_arg10 (V : Valuation τ sig (Elt F)) : W1 V (Proc.devRef .tc main_arg10) = V (Proc.devRef .tc main_arg10) :=
  (kept1_arg10 V).trans (rfl)
theorem at2_v21 (V : Valuation τ sig (Elt F)) : W2 V (Proc.devRef .tc main_v21) = val_main_v21 (F := F) (V (Proc.devRef .tc main_arg1)) :=
  s2_v21 (W1 V) _ (at1_arg1 V)
theorem at2_v22 (V : Valuation τ sig (Elt F)) : W2 V (Proc.devRef .tc main_v22) = val_main_v22 (F := F) (V (Proc.devRef .tc main_arg1)) :=
  s2_v22 (W1 V) _ (at1_arg1 V)
theorem at2_v24 (V : Valuation τ sig (Elt F)) : W2 V (Proc.devRef .tc main_v24) = val_main_v24 (F := F) (V (Proc.devRef .tc main_arg2)) (V (Proc.devRef .tc main_arg3)) (V (Proc.devRef .tc main_arg4)) (V (Proc.devRef .tc main_arg5)) (V (Proc.devRef .tc main_arg6)) :=
  s2_v24 (W1 V) _ _ _ _ _ (at1_v15 V)
theorem at2_v25 (V : Valuation τ sig (Elt F)) : W2 V (Proc.devRef .tc main_v25) = val_main_v25 (F := F) (V (Proc.devRef .tc main_arg0)) (V (Proc.devRef .tc main_arg7)) :=
  s2_v25 (W1 V) _ _ (at1_arg0 V) (at1_arg7 V)
theorem at2_arg8 (V : Valuation τ sig (Elt F)) : W2 V (Proc.devRef .tc main_arg8) = V (Proc.devRef .tc main_arg8) :=
  (kept2_arg8 (W1 V)).trans (at1_arg8 V)
theorem at2_arg9 (V : Valuation τ sig (Elt F)) : W2 V (Proc.devRef .tc main_arg9) = V (Proc.devRef .tc main_arg9) :=
  (kept2_arg9 (W1 V)).trans (at1_arg9 V)
theorem at2_arg10 (V : Valuation τ sig (Elt F)) : W2 V (Proc.devRef .tc main_arg10) = V (Proc.devRef .tc main_arg10) :=
  (kept2_arg10 (W1 V)).trans (at1_arg10 V)
theorem at3_v32 (V : Valuation τ sig (Elt F)) : W3 V (Proc.devRef .tc main_v32) = val_main_v32 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  s3_v32 (W2 V) _ _ _ _ _ _ (at2_v22 V) (at2_v24 V)
theorem at3_v21 (V : Valuation τ sig (Elt F)) : W3 V (Proc.devRef .tc main_v21) = val_main_v21 (F := F) (V (Proc.devRef .tc main_arg1)) :=
  (kept3_v21 (W2 V)).trans (at2_v21 V)
theorem at3_v22 (V : Valuation τ sig (Elt F)) : W3 V (Proc.devRef .tc main_v22) = val_main_v22 (F := F) (V (Proc.devRef .tc main_arg1)) :=
  (kept3_v22 (W2 V)).trans (at2_v22 V)
theorem at3_v24 (V : Valuation τ sig (Elt F)) : W3 V (Proc.devRef .tc main_v24) = val_main_v24 (F := F) (V (Proc.devRef .tc main_arg2)) (V (Proc.devRef .tc main_arg3)) (V (Proc.devRef .tc main_arg4)) (V (Proc.devRef .tc main_arg5)) (V (Proc.devRef .tc main_arg6)) :=
  (kept3_v24 (W2 V)).trans (at2_v24 V)
theorem at3_v25 (V : Valuation τ sig (Elt F)) : W3 V (Proc.devRef .tc main_v25) = val_main_v25 (F := F) (V (Proc.devRef .tc main_arg0)) (V (Proc.devRef .tc main_arg7)) :=
  (kept3_v25 (W2 V)).trans (at2_v25 V)
theorem at3_arg8 (V : Valuation τ sig (Elt F)) : W3 V (Proc.devRef .tc main_arg8) = V (Proc.devRef .tc main_arg8) :=
  (kept3_arg8 (W2 V)).trans (at2_arg8 V)
theorem at3_arg9 (V : Valuation τ sig (Elt F)) : W3 V (Proc.devRef .tc main_arg9) = V (Proc.devRef .tc main_arg9) :=
  (kept3_arg9 (W2 V)).trans (at2_arg9 V)
theorem at3_arg10 (V : Valuation τ sig (Elt F)) : W3 V (Proc.devRef .tc main_arg10) = V (Proc.devRef .tc main_arg10) :=
  (kept3_arg10 (W2 V)).trans (at2_arg10 V)
theorem at4_v49 (V : Valuation τ sig (Elt F)) : W4 V (Proc.devRef .tc main_v49) = val_main_v49 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  s4_v49 (W3 V) _ _ _ _ _ _ (at3_v21 V) (at3_v22 V) (at3_v24 V) (at3_v32 V)
theorem at4_v21 (V : Valuation τ sig (Elt F)) : W4 V (Proc.devRef .tc main_v21) = val_main_v21 (F := F) (V (Proc.devRef .tc main_arg1)) :=
  (kept4_v21 (W3 V)).trans (at3_v21 V)
theorem at4_v22 (V : Valuation τ sig (Elt F)) : W4 V (Proc.devRef .tc main_v22) = val_main_v22 (F := F) (V (Proc.devRef .tc main_arg1)) :=
  (kept4_v22 (W3 V)).trans (at3_v22 V)
theorem at4_v24 (V : Valuation τ sig (Elt F)) : W4 V (Proc.devRef .tc main_v24) = val_main_v24 (F := F) (V (Proc.devRef .tc main_arg2)) (V (Proc.devRef .tc main_arg3)) (V (Proc.devRef .tc main_arg4)) (V (Proc.devRef .tc main_arg5)) (V (Proc.devRef .tc main_arg6)) :=
  (kept4_v24 (W3 V)).trans (at3_v24 V)
theorem at4_v25 (V : Valuation τ sig (Elt F)) : W4 V (Proc.devRef .tc main_v25) = val_main_v25 (F := F) (V (Proc.devRef .tc main_arg0)) (V (Proc.devRef .tc main_arg7)) :=
  (kept4_v25 (W3 V)).trans (at3_v25 V)
theorem at4_arg8 (V : Valuation τ sig (Elt F)) : W4 V (Proc.devRef .tc main_arg8) = V (Proc.devRef .tc main_arg8) :=
  (kept4_arg8 (W3 V)).trans (at3_arg8 V)
theorem at4_arg9 (V : Valuation τ sig (Elt F)) : W4 V (Proc.devRef .tc main_arg9) = V (Proc.devRef .tc main_arg9) :=
  (kept4_arg9 (W3 V)).trans (at3_arg9 V)
theorem at4_arg10 (V : Valuation τ sig (Elt F)) : W4 V (Proc.devRef .tc main_arg10) = V (Proc.devRef .tc main_arg10) :=
  (kept4_arg10 (W3 V)).trans (at3_arg10 V)
theorem at5_v61 (V : Valuation τ sig (Elt F)) : W5 V (Proc.devRef .tc main_v61) = val_main_v61 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  s5_v61 (W4 V) _ _ _ _ _ _ _ _ (at4_v21 V) (at4_v22 V) (at4_v25 V) (at4_v49 V)
theorem at5_v21 (V : Valuation τ sig (Elt F)) : W5 V (Proc.devRef .tc main_v21) = val_main_v21 (F := F) (V (Proc.devRef .tc main_arg1)) :=
  (kept5_v21 (W4 V)).trans (at4_v21 V)
theorem at5_v22 (V : Valuation τ sig (Elt F)) : W5 V (Proc.devRef .tc main_v22) = val_main_v22 (F := F) (V (Proc.devRef .tc main_arg1)) :=
  (kept5_v22 (W4 V)).trans (at4_v22 V)
theorem at5_v24 (V : Valuation τ sig (Elt F)) : W5 V (Proc.devRef .tc main_v24) = val_main_v24 (F := F) (V (Proc.devRef .tc main_arg2)) (V (Proc.devRef .tc main_arg3)) (V (Proc.devRef .tc main_arg4)) (V (Proc.devRef .tc main_arg5)) (V (Proc.devRef .tc main_arg6)) :=
  (kept5_v24 (W4 V)).trans (at4_v24 V)
theorem at5_arg8 (V : Valuation τ sig (Elt F)) : W5 V (Proc.devRef .tc main_arg8) = V (Proc.devRef .tc main_arg8) :=
  (kept5_arg8 (W4 V)).trans (at4_arg8 V)
theorem at5_arg9 (V : Valuation τ sig (Elt F)) : W5 V (Proc.devRef .tc main_arg9) = V (Proc.devRef .tc main_arg9) :=
  (kept5_arg9 (W4 V)).trans (at4_arg9 V)
theorem at5_arg10 (V : Valuation τ sig (Elt F)) : W5 V (Proc.devRef .tc main_arg10) = V (Proc.devRef .tc main_arg10) :=
  (kept5_arg10 (W4 V)).trans (at4_arg10 V)
theorem at6_v66 (V : Valuation τ sig (Elt F)) : W6 V (Proc.devRef .tc main_v66) = val_main_v66 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  s6_v66 (W5 V) _ _ _ _ _ _ _ _ _ _ (at5_v61 V) (at5_arg8 V) (at5_arg9 V)
theorem at6_v21 (V : Valuation τ sig (Elt F)) : W6 V (Proc.devRef .tc main_v21) = val_main_v21 (F := F) (V (Proc.devRef .tc main_arg1)) :=
  (kept6_v21 (W5 V)).trans (at5_v21 V)
theorem at6_v22 (V : Valuation τ sig (Elt F)) : W6 V (Proc.devRef .tc main_v22) = val_main_v22 (F := F) (V (Proc.devRef .tc main_arg1)) :=
  (kept6_v22 (W5 V)).trans (at5_v22 V)
theorem at6_v24 (V : Valuation τ sig (Elt F)) : W6 V (Proc.devRef .tc main_v24) = val_main_v24 (F := F) (V (Proc.devRef .tc main_arg2)) (V (Proc.devRef .tc main_arg3)) (V (Proc.devRef .tc main_arg4)) (V (Proc.devRef .tc main_arg5)) (V (Proc.devRef .tc main_arg6)) :=
  (kept6_v24 (W5 V)).trans (at5_v24 V)
theorem at6_arg10 (V : Valuation τ sig (Elt F)) : W6 V (Proc.devRef .tc main_arg10) = V (Proc.devRef .tc main_arg10) :=
  (kept6_arg10 (W5 V)).trans (at5_arg10 V)
theorem at7_v73 (V : Valuation τ sig (Elt F)) : W7 V (Proc.devRef .tc main_v73) = val_main_v73 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  s7_v73 (W6 V) _ _ _ _ _ _ (at6_v22 V) (at6_v24 V)
theorem at7_v21 (V : Valuation τ sig (Elt F)) : W7 V (Proc.devRef .tc main_v21) = val_main_v21 (F := F) (V (Proc.devRef .tc main_arg1)) :=
  (kept7_v21 (W6 V)).trans (at6_v21 V)
theorem at7_v22 (V : Valuation τ sig (Elt F)) : W7 V (Proc.devRef .tc main_v22) = val_main_v22 (F := F) (V (Proc.devRef .tc main_arg1)) :=
  (kept7_v22 (W6 V)).trans (at6_v22 V)
theorem at7_v24 (V : Valuation τ sig (Elt F)) : W7 V (Proc.devRef .tc main_v24) = val_main_v24 (F := F) (V (Proc.devRef .tc main_arg2)) (V (Proc.devRef .tc main_arg3)) (V (Proc.devRef .tc main_arg4)) (V (Proc.devRef .tc main_arg5)) (V (Proc.devRef .tc main_arg6)) :=
  (kept7_v24 (W6 V)).trans (at6_v24 V)
theorem at7_v66 (V : Valuation τ sig (Elt F)) : W7 V (Proc.devRef .tc main_v66) = val_main_v66 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (kept7_v66 (W6 V)).trans (at6_v66 V)
theorem at7_arg10 (V : Valuation τ sig (Elt F)) : W7 V (Proc.devRef .tc main_arg10) = V (Proc.devRef .tc main_arg10) :=
  (kept7_arg10 (W6 V)).trans (at6_arg10 V)
theorem at8_v90 (V : Valuation τ sig (Elt F)) : W8 V (Proc.devRef .tc main_v90) = val_main_v90 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  s8_v90 (W7 V) _ _ _ _ _ _ (at7_v21 V) (at7_v22 V) (at7_v24 V) (at7_v73 V)
theorem at8_v21 (V : Valuation τ sig (Elt F)) : W8 V (Proc.devRef .tc main_v21) = val_main_v21 (F := F) (V (Proc.devRef .tc main_arg1)) :=
  (kept8_v21 (W7 V)).trans (at7_v21 V)
theorem at8_v22 (V : Valuation τ sig (Elt F)) : W8 V (Proc.devRef .tc main_v22) = val_main_v22 (F := F) (V (Proc.devRef .tc main_arg1)) :=
  (kept8_v22 (W7 V)).trans (at7_v22 V)
theorem at8_v66 (V : Valuation τ sig (Elt F)) : W8 V (Proc.devRef .tc main_v66) = val_main_v66 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (kept8_v66 (W7 V)).trans (at7_v66 V)
theorem at8_arg10 (V : Valuation τ sig (Elt F)) : W8 V (Proc.devRef .tc main_arg10) = V (Proc.devRef .tc main_arg10) :=
  (kept8_arg10 (W7 V)).trans (at7_arg10 V)
theorem at9_v102 (V : Valuation τ sig (Elt F)) : W9 V (Proc.devRef .tc main_v102) = val_main_v102 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  s9_v102 (W8 V) _ _ _ _ _ _ _ _ _ _ (at8_v21 V) (at8_v22 V) (at8_v66 V) (at8_v90 V)
theorem at9_arg10 (V : Valuation τ sig (Elt F)) : W9 V (Proc.devRef .tc main_arg10) = V (Proc.devRef .tc main_arg10) :=
  (kept9_arg10 (W8 V)).trans (at8_arg10 V)
theorem at10_v106 (V : Valuation τ sig (Elt F)) : W10 V (Proc.devRef .tc main_v106) = val_main_v106 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  s10_v106 (W9 V) _ _ _ _ _ _ _ _ _ _ _ (at9_v102 V) (at9_arg10 V)

/-- The contents after the whole line are those after the tenth stretch. -/
theorem after_ops (V : Valuation τ sig (Elt F)) : after ops V = W10 V := by
  rw [ops_split]
  repeat rw [Cert.Lib.AfterAppend.after_append]
  rfl

/-- The result buffer after the whole line: the staged value of the arguments' contents. -/
theorem result_eq (V : Valuation τ sig (Elt F)) : after ops V (Proc.devRef .tc main_v106) = val_main_v106 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_ops]
  exact at10_v106 V

theorem arg0_kept (V : Valuation τ sig (Elt F)) : after ops V (Proc.devRef .tc main_arg0) = V (Proc.devRef .tc main_arg0) :=
  after_of_forall_not_mem ops V (by unwritten)
theorem arg1_kept (V : Valuation τ sig (Elt F)) : after ops V (Proc.devRef .tc main_arg1) = V (Proc.devRef .tc main_arg1) :=
  after_of_forall_not_mem ops V (by unwritten)
theorem arg2_kept (V : Valuation τ sig (Elt F)) : after ops V (Proc.devRef .tc main_arg2) = V (Proc.devRef .tc main_arg2) :=
  after_of_forall_not_mem ops V (by unwritten)
theorem arg3_kept (V : Valuation τ sig (Elt F)) : after ops V (Proc.devRef .tc main_arg3) = V (Proc.devRef .tc main_arg3) :=
  after_of_forall_not_mem ops V (by unwritten)
theorem arg4_kept (V : Valuation τ sig (Elt F)) : after ops V (Proc.devRef .tc main_arg4) = V (Proc.devRef .tc main_arg4) :=
  after_of_forall_not_mem ops V (by unwritten)
theorem arg5_kept (V : Valuation τ sig (Elt F)) : after ops V (Proc.devRef .tc main_arg5) = V (Proc.devRef .tc main_arg5) :=
  after_of_forall_not_mem ops V (by unwritten)
theorem arg6_kept (V : Valuation τ sig (Elt F)) : after ops V (Proc.devRef .tc main_arg6) = V (Proc.devRef .tc main_arg6) :=
  after_of_forall_not_mem ops V (by unwritten)
theorem arg7_kept (V : Valuation τ sig (Elt F)) : after ops V (Proc.devRef .tc main_arg7) = V (Proc.devRef .tc main_arg7) :=
  after_of_forall_not_mem ops V (by unwritten)
theorem arg8_kept (V : Valuation τ sig (Elt F)) : after ops V (Proc.devRef .tc main_arg8) = V (Proc.devRef .tc main_arg8) :=
  after_of_forall_not_mem ops V (by unwritten)
theorem arg9_kept (V : Valuation τ sig (Elt F)) : after ops V (Proc.devRef .tc main_arg9) = V (Proc.devRef .tc main_arg9) :=
  after_of_forall_not_mem ops V (by unwritten)
theorem arg10_kept (V : Valuation τ sig (Elt F)) : after ops V (Proc.devRef .tc main_arg10) = V (Proc.devRef .tc main_arg10) :=
  after_of_forall_not_mem ops V (by unwritten)

/-- On every device, for any float values, from any memory with zero counters: every weakly fair execution of @main
    terminates with the result at the staged value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v106) = val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v106).trans (result_eq (launchContents m c)),
      (h c main_arg0).trans (arg0_kept (launchContents m c)),
      (h c main_arg1).trans (arg1_kept (launchContents m c)),
      (h c main_arg2).trans (arg2_kept (launchContents m c)),
      (h c main_arg3).trans (arg3_kept (launchContents m c)),
      (h c main_arg4).trans (arg4_kept (launchContents m c)),
      (h c main_arg5).trans (arg5_kept (launchContents m c)),
      (h c main_arg6).trans (arg6_kept (launchContents m c)),
      (h c main_arg7).trans (arg7_kept (launchContents m c)),
      (h c main_arg8).trans (arg8_kept (launchContents m c)),
      (h c main_arg9).trans (arg9_kept (launchContents m c)),
      (h c main_arg10).trans (arg10_kept (launchContents m c))⟩)
    (run_seq scopedRefs_eq scopedSems_eq defs main (fun _ => ops) main_eq (fun _ => ops_sub) m ρ)

end Cert.ReferenceIdeal.RunS

end
-- ==== Proof.lean ====
/-
  The five claims about the graph-convolution kernel, its idealization and its reference.

  The kernel computes a two-layer graph convolution with learned edge weights in seven gridded stages (the edge
  network; two dense products; two row scalings; bias and rectifier; bias and log-softmax) joined by host gathers and
  scatter-adds; the reference computes the same network as one host program. On the extended reals the seven stages'
  result arrays are closed forms of the arrays they are entered with — every block of a stage's result is the block of one
  whole-array function, and the blocks tile the array —, so the kernel's result is the network function `Cert.Net.net`
  of the arguments; the reference's operations, read one at a time, compose to the same function: its sigmoid spelt
  with a quotient is the kernel's sigmoid, its products `weight · feature` are the kernel's `feature · weight` (the
  extended reals' product commutes), its broadcast bias rows and normalisation column are the kernel's reshaped
  ones, and the maximum of minus infinity and a row's maximum is the row's maximum. No finiteness of the inputs is used.
  The frames of the kernel and of its idealization are the runs of their segments; the reference's frame is its run
  with the result dropped; the idealization rewrote nothing.
-/
import proofs.«108055_j75402445849004_2_alg».proof.Defs
import proofs.«108055_j75402445849004_2_alg».proof.Proof.Gen.Kernel
import proofs.«108055_j75402445849004_2_alg».proof.Proof.Gen.Kernel.Frame
import proofs.«108055_j75402445849004_2_alg».proof.Proof.Gen.KernelIdeal
import proofs.«108055_j75402445849004_2_alg».proof.Proof.Gen.KernelIdeal.Frame
import proofs.«108055_j75402445849004_2_alg».proof.Proof.Gen.ReferenceIdeal
import proofs.«108055_j75402445849004_2_alg».proof.Proof.Gen.Pre_finite_inputs
import proofs.«108055_j75402445849004_2_alg».proof.Proof.KernelRun
import proofs.«108055_j75402445849004_2_alg».proof.Proof.Boundaries
import proofs.«108055_j75402445849004_2_alg».proof.Proof.RefNet
import proofs.«108055_j75402445849004_2_alg».proof.Proof.RefRunS
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RunS.run m ρ)

/-- Both idealized programs end with the network function of the arguments in their result arrays. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Closed.W15_net m ρ c), (h c).2⟩)
      (Cert.KernelIdeal.Closed.run_named (F := Ideal) m ρ)
  · refine (θ_run Cert.ReferenceIdeal.defs _ _).mono (fun _ h c => ⟨(h c).1.trans ?_, (h c).2⟩) (Cert.ReferenceIdeal.RunS.run m' ρ')
    obtain ⟨e0, e1, e2, e3, e4, e5, e6, e7, e8, e9, e10⟩ := hagree c
    rw [e0, e1, e2, e3, e4, e5, e6, e7, e8, e9, e10]
    exact Cert.RefNet.ref_eq_net _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
